-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2x2048x2048 : Shape := ⟨3, ![2, 2048, 2048]⟩
abbrev S1x2048 : Shape := ⟨2, ![1, 2048]⟩
abbrev S2x1x2048 : Shape := ⟨3, ![2, 1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S2x1x2048 : S_.BroadcastsInDim S2x1x2048 (![] : Fin 0 → Fin S2x1x2048.rank)
  reducesTo_S2x1x2048_S_d0_1_2 : S2x1x2048.ReducesTo [0, 1, 2] S_

variable [Facts]

def fn_part3 {F : FTy → Type} [FloatOps F] (main_arg11 : FVec F S2x1x2048 .f32) (main_arg12 : FVec F S2x1x2048 .f32) (main_v48 : IVec S_ 1) (main_v49 : FVec F S2x1x2048 .f32) (main_v50 : FVec F S2x1x2048 .f32) : IVec S_ 1 :=
  let main_v51 : IVec S2x1x2048 1 := cmpf .olt main_v49 main_v50
  let main_c_19 : IVec S_ 1 := constantI S_ 1 1#1
  let main_v52 : IVec S_ 1 := (fun x v => Host.reduce IntOp.andi x v reducesTo_S2x1x2048_S_d0_1_2 h_S_) main_v51 main_c_19
  let main_v53 : IVec S_ 1 := andi main_v48 main_v52
  let main_v54 : FVec F S2x1x2048 .f32 := Host.absf main_arg11
  let main_cst_20 : FVec F S_ .f32 := constant S_ .f32 0x7F800000#32
  let main_v55 : FVec F S2x1x2048 .f32 := broadcastInDim S2x1x2048 ![] bcast_S_S2x1x2048 main_cst_20
  let main_v56 : IVec S2x1x2048 1 := cmpf .olt main_v54 main_v55
  let main_c_21 : IVec S_ 1 := constantI S_ 1 1#1
  let main_v57 : IVec S_ 1 := (fun x v => Host.reduce IntOp.andi x v reducesTo_S2x1x2048_S_d0_1_2 h_S_) main_v56 main_c_21
  let main_v58 : IVec S_ 1 := andi main_v53 main_v57
  let main_v59 : FVec F S2x1x2048 .f32 := Host.absf main_arg12
  let main_cst_22 : FVec F S_ .f32 := constant S_ .f32 0x7F800000#32
  let main_v60 : FVec F S2x1x2048 .f32 := broadcastInDim S2x1x2048 ![] bcast_S_S2x1x2048 main_cst_22
  let main_v61 : IVec S2x1x2048 1 := cmpf .olt main_v59 main_v60
  let main_c_23 : IVec S_ 1 := constantI S_ 1 1#1
  let main_v62 : IVec S_ 1 := (fun x v => Host.reduce IntOp.andi x v reducesTo_S2x1x2048_S_d0_1_2 h_S_) main_v61 main_c_23
  let main_v63 : IVec S_ 1 := andi main_v58 main_v62
  main_v63

def fn_part2 {F : FTy → Type} [FloatOps F] (main_arg7 : FVec F S2048x2048 .f32) (main_arg8 : FVec F S1x2048 .f32) (main_arg9 : FVec F S1x2048 .f32) (main_arg10 : FVec F S2x1x2048 .f32) (main_arg11 : FVec F S2x1x2048 .f32) (main_arg12 : FVec F S2x1x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S1x2048 .f32 := Host.absf main_arg8
  let main_cst_14 : FVec F S_ .f32 := constant S_ .f32 0x7F800000#32
  let main_v40 : FVec F S1x2048 .f32 := broadcastInDim S1x2048 ![] bcast_S_S1x2048 main_cst_14
  let main_v41 : IVec S1x2048 1 := cmpf .olt main_v39 main_v40
  let main_c_15 : IVec S_ 1 := constantI S_ 1 1#1
  let main_v42 : IVec S_ 1 := (fun x v => Host.reduce IntOp.andi x v reducesTo_S1x2048_S_d0_1 h_S_) main_v41 main_c_15
  let main_v43 : IVec S_ 1 := andi main_v38 main_v42
  let main_v44 : FVec F S1x2048 .f32 := Host.absf main_arg9
  let main_cst_16 : FVec F S_ .f32 := constant S_ .f32 0x7F800000#32
  let main_v45 : FVec F S1x2048 .f32 := broadcastInDim S1x2048 ![] bcast_S_S1x2048 main_cst_16
  let main_v46 : IVec S1x2048 1 := cmpf .olt main_v44 main_v45
  let main_c_17 : IVec S_ 1 := constantI S_ 1 1#1
  let main_v47 : IVec S_ 1 := (fun x v => Host.reduce IntOp.andi x v reducesTo_S1x2048_S_d0_1 h_S_) main_v46 main_c_17
  let main_v48 : IVec S_ 1 := andi main_v43 main_v47
  let main_v49 : FVec F S2x1x2048 .f32 := Host.absf main_arg10
  let main_cst_18 : FVec F S_ .f32 := constant S_ .f32 0x7F800000#32
  let main_v50 : FVec F S2x1x2048 .f32 := broadcastInDim S2x1x2048 ![] bcast_S_S2x1x2048 main_cst_18
  fn_part3 (F := F) main_arg11 main_arg12 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S1x2048 .f32) (main_arg9 : FVec F S1x2048 .f32) (main_arg10 : FVec F S2x1x2048 .f32) (main_arg11 : FVec F S2x1x2048 .f32) (main_arg12 : FVec F S2x1x2048 .f32) (main_v13 : IVec S_ 1) (main_v16 : IVec S2x2048x2048 1) : IVec S_ 1 :=
  let main_c_5 : IVec S_ 1 := constantI S_ 1 1#1
  let main_v17 : IVec S_ 1 := (fun x v => Host.reduce IntOp.andi x v reducesTo_S2x2048x2048_S_d0_1_2 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x2048 .f32) (main_arg1 : FVec F S2048x2048 .f32) (main_arg2 : FVec F S2048x2048 .f32) (main_arg3 : FVec F S2x2048x2048 .f32) (main_arg4 : FVec F S2048x2048 .f32) (main_arg5 : FVec F S2048x2048 .f32) (main_arg6 : FVec F S2048x2048 .f32) (main_arg7 : FVec F S2048x2048 .f32) (main_arg8 : FVec F S1x2048 .f32) (main_arg9 : FVec F S1x2048 .f32) (main_arg10 : FVec F S2x1x2048 .f32) (main_arg11 : FVec F S2x1x2048 .f32) (main_arg12 : FVec F S2x1x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2x2048x2048 .f32 := Host.absf main_arg3
  let main_cst_4 : FVec F S_ .f32 := constant S_ .f32 0x7F800000#32
  let main_v15 : FVec F S2x2048x2048 .f32 := broadcastInDim S2x2048x2048 ![] bcast_S_S2x2048x2048 main_cst_4
  let main_v16 : IVec S2x2048x2048 1 := cmpf .olt main_v14 main_v15
  fn_part1 (F := F) main_arg4 main_arg5 main_arg6 main_arg7 main_arg8 main_arg9 main_arg10 main_arg11 main_arg12 main_v13 main_v16
-- ==== Kernel.lean ====
abbrev S2048x2048 : Shape := ⟨2, ![2048, 2048]⟩
abbrev S2x2048x2048 : Shape := ⟨3, ![2, 2048, 2048]⟩
abbrev S1x2048 : Shape := ⟨2, ![1, 2048]⟩
abbrev S2x1x2048 : Shape := ⟨3, ![2, 1, 2048]⟩
abbrev S512x512 : Shape := ⟨2, ![512, 512]⟩
abbrev S2x512x512 : Shape := ⟨3, ![2, 512, 512]⟩
abbrev S1x512 : Shape := ⟨2, ![1, 512]⟩
abbrev S2x1x512 : Shape := ⟨3, ![2, 1, 512]⟩
abbrev S1x512x512 : Shape := ⟨3, ![1, 512, 512]⟩

abbrev nBuf : Space → Nat
  | .hbm => 17
  | .vmem => 33
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S1x2048, .f32⟩
  | .hbm, ⟨9, _⟩ => ⟨S1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2048x2048, .f32⟩
  | .hbm, ⟨14, _⟩ => ⟨S2048x2048, .f32⟩
  | .hbm, ⟨15, _⟩ => ⟨S2x2048x2048, .f32⟩
  | .hbm, ⟨16, _⟩ => ⟨S2048x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S2x512x512, .f32⟩
  | .local _ .vmem, ⟨13, _⟩ => ⟨S2x512x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S2x1x512, .f32⟩
  | .local _ .vmem, ⟨19, _⟩ => ⟨S2x1x512, .f32⟩
  | .local _ .vmem, ⟨20, _⟩ => ⟨S2x1x512, .f32⟩
  | .local _ .vmem, ⟨21, _⟩ => ⟨S2x1x512, .f32⟩
  | .local _ .vmem, ⟨22, _⟩ => ⟨S2x1x512, .f32⟩
  | .local _ .vmem, ⟨23, _⟩ => ⟨S2x1x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S2x512x512, .f32⟩
  | .local _ .vmem, ⟨29, _⟩ => ⟨S2x512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S2x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S2x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S2x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S2x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S512x512_S512x512 : S512x512.ShapeCasts S512x512
  inb_S2x512x512_S2x512x512_0_0_0 : ∀ a, (![0, 0, 0] : Fin 3 → Nat) a + S2x512x512.size a ≤ S2x512x512.size a
  h_S2x512x512 : 0 < S2x512x512.numel
  inb_S1x512_S1x512_0_0 : ∀ a, (![0, 0] : Fin 2 → Nat) a + S1x512.size a ≤ S1x512.size a
  h_S1x512 : 0 < S1x512.numel
  inb_S2x1x512_S2x1x512_0_0_0 : ∀ a, (![0, 0, 0] : Fin 3 → Nat) a + S2x1x512.size a ≤ S2x1x512.size a
  h_S2x1x512 : 0 < S2x1x512.numel
  broadcasts_S2x1x512_S2x512x512 : S2x1x512.Broadcasts S2x512x512
  shapeCasts_S512x512_S1x512x512 : S512x512.ShapeCasts S1x512x512
  broadcasts_S1x512x512_S2x512x512 : S1x512x512.Broadcasts S2x512x512
  reduces_S2x512x512_S512x512 : S2x512x512.Reduces [0] S512x512
  broadcasts_S1x512_S512x512 : S1x512.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x2048.size a
  hwx0_0 : ∀ i : grid0.Coords, EltTy.bits .f32 = 32 ∨ (Rect.block (s := S2048x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x2048.size a
  hwx0_3 : ∀ i : grid0.Coords, EltTy.bits .f32 = 32 ∨ (Rect.block (s := S2048x2048) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S2048x2048.size a
  hwx0_4 : ∀ i : grid0.Coords, EltTy.bits .f32 = 32 ∨ (Rect.block (s := S2048x2048) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S2048x2048.size a
  hwx0_5 : ∀ i : grid0.Coords, EltTy.bits .f32 = 32 ∨ (Rect.block (s := S2048x2048) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x512x512.size a ≤ S2x2048x2048.size a
  hwx0_6 : ∀ i : grid0.Coords, EltTy.bits .f32 = 32 ∨ (Rect.block (s := S2x2048x2048) S2x512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x2048.size a
  hwx0_8 : ∀ i : grid0.Coords, EltTy.bits .f32 = 32 ∨ (Rect.block (s := S1x2048) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x1x512.size a ≤ S2x1x2048.size a
  hwx0_9 : ∀ i : grid0.Coords, EltTy.bits .f32 = 32 ∨ (Rect.block (s := S2x1x2048) S2x1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2x1x512.size a ≤ S2x1x2048.size a
  hwx0_10 : ∀ i : grid0.Coords, EltTy.bits .f32 = 32 ∨ (Rect.block (s := S2x1x2048) S2x1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2x1x512.size a ≤ S2x1x2048.size a
  hwx0_11 : ∀ i : grid0.Coords, EltTy.bits .f32 = 32 ∨ (Rect.block (s := S2x1x2048) S2x1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S2048x2048.size a
  hwx0_12 : ∀ i : grid0.Coords, EltTy.bits .f32 = 32 ∨ (Rect.block (s := S2048x2048) S512x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S2048x2048.size a
  hwx0_13 : ∀ i : grid0.Coords, EltTy.bits .f32 = 32 ∨ (Rect.block (s := S2048x2048) S512x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2x512x512.size a ≤ S2x2048x2048.size a
  hwx0_14 : ∀ i : grid0.Coords, EltTy.bits .f32 = 32 ∨ (Rect.block (s := S2x2048x2048) S2x512x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S2048x2048.size a
  hwx0_15 : ∀ i : grid0.Coords, EltTy.bits .f32 = 32 ∨ (Rect.block (s := S2048x2048) S512x512.size (cc0_transform_15 i) (hinb0_15 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S2x512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S2x1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S2x1x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S2x1x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_0) S512x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_1) S512x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_2) S2x512x512.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_3) S512x512.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond3 i == 1#1) | 13 => fun i => !(k0_cond3 i == 1#1) | 14 => fun i => !(k0_cond3 i == 1#1) | 15 => fun i => !(k0_cond3 i == 1#1) | ⟨_ + 16, h⟩ => absurd h (Nat.not_lt.2 (Nat.le_add_left _ _))

class Facts : Prop extends Facts₀ where

variable [Facts]
-- ==== ReferenceIdeal.lean ====
abbrev S2048x2048 : Shape := ⟨2, ![2048, 2048]⟩
abbrev S2x2048x2048 : Shape := ⟨3, ![2, 2048, 2048]⟩
abbrev S1x2048 : Shape := ⟨2, ![1, 2048]⟩
abbrev S2x1x2048 : Shape := ⟨3, ![2, 1, 2048]⟩
abbrev S_ : Shape := ⟨0, ![]⟩
abbrev S1x2048x2048 : Shape := ⟨3, ![1, 2048, 2048]⟩

abbrev nBuf : Space → Nat
  | .hbm => 115
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S1x2048, .f32⟩
  | .hbm, ⟨9, _⟩ => ⟨S1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2x1x2048, .f32⟩
  | .hbm, ⟨17, _⟩ => ⟨S2x1x2048, .f32⟩
  | .hbm, ⟨18, _⟩ => ⟨S_, .f32⟩
  | .hbm, ⟨19, _⟩ => ⟨S2x1x2048, .f32⟩
  | .hbm, ⟨20, _⟩ => ⟨S2x1x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x1x2048, .f32⟩
  | .hbm, ⟨31, _⟩ => ⟨S2x1x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S_, .f32⟩
  | .hbm, ⟨36, _⟩ => ⟨S2x1x2048, .f32⟩
  | .hbm, ⟨37, _⟩ => ⟨S2x1x2048, .f32⟩
  | .hbm, ⟨38, _⟩ => ⟨S_, .f32⟩
  | .hbm, ⟨39, _⟩ => ⟨S2x1x2048, .f32⟩
  | .hbm, ⟨40, _⟩ => ⟨S2x1x2048, .f32⟩
  | .hbm, ⟨41, _⟩ => ⟨S2x2048x2048, .f32⟩
  | .hbm, ⟨42, _⟩ => ⟨S2x2048x2048, .f32⟩
  | .hbm, ⟨43, _⟩ => ⟨S2x2048x2048, .f32⟩
  | .hbm, ⟨44, _⟩ => ⟨S2x2048x2048, .f32⟩
  | .hbm, ⟨45, _⟩ => ⟨S1x2048x2048, .f32⟩
  | .hbm, ⟨46, _⟩ => ⟨S2x2048x2048, .f32⟩
  | .hbm, ⟨47, _⟩ => ⟨S2x2048x2048, .f32⟩
  | .hbm, ⟨48, _⟩ => ⟨S_, .f32⟩
  | .hbm, ⟨49, _⟩ => ⟨S2x2048x2048, .f32⟩
  | .hbm, ⟨50, _⟩ => ⟨S2x2048x2048, .f32⟩
  | .hbm, ⟨51, _⟩ => ⟨S_, .f32⟩
  | .hbm, ⟨52, _⟩ => ⟨S2x1x2048, .f32⟩
  | .hbm, ⟨53, _⟩ => ⟨S2x1x2048, .f32⟩
  | .hbm, ⟨54, _⟩ => ⟨S_, .f32⟩
  | .hbm, ⟨55, _⟩ => ⟨S2x1x2048, .f32⟩
  | .hbm, ⟨56, _⟩ => ⟨S2x1x2048, .f32⟩
  | .hbm, ⟨57, _⟩ => ⟨S2x2048x2048, .f32⟩
  | .hbm, ⟨58, _⟩ => ⟨S2x2048x2048, .f32⟩
  | .hbm, ⟨59, _⟩ => ⟨S2x2048x2048, .f32⟩
  | .hbm, ⟨60, _⟩ => ⟨S1x2048, .f32⟩
  | .hbm, ⟨61, _⟩ => ⟨S1x2048, .f32⟩
  | .hbm, ⟨62, _⟩ => ⟨S_, .f32⟩
  | .hbm, ⟨63, _⟩ => ⟨S1x2048, .f32⟩
  | .hbm, ⟨64, _⟩ => ⟨S1x2048, .f32⟩
  | .hbm, ⟨65, _⟩ => ⟨S_, .f32⟩
  | .hbm, ⟨66, _⟩ => ⟨S1x2048, .f32⟩
  | .hbm, ⟨67, _⟩ => ⟨S1x2048, .f32⟩
  | .hbm, ⟨68, _⟩ => ⟨S_, .f32⟩
  | .hbm, ⟨69, _⟩ => ⟨S1x2048, .f32⟩
  | .hbm, ⟨70, _⟩ => ⟨S1x2048, .f32⟩
  | .hbm, ⟨71, _⟩ => ⟨S_, .f32⟩
  | .hbm, ⟨72, _⟩ => ⟨S1x2048, .f32⟩
  | .hbm, ⟨73, _⟩ => ⟨S1x2048, .f32⟩
  | .hbm, ⟨74, _⟩ => ⟨S_, .f32⟩
  | .hbm, ⟨75, _⟩ => ⟨S1x2048, .f32⟩
  | .hbm, ⟨76, _⟩ => ⟨S1x2048, .f32⟩
  | .hbm, ⟨77, _⟩ => ⟨S_, .f32⟩
  | .hbm, ⟨78, _⟩ => ⟨S2048x2048, .f32⟩
  | .hbm, ⟨79, _⟩ => ⟨S_, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S_, .f32⟩
  | .hbm, ⟨86, _⟩ => ⟨S1x2048, .f32⟩
  | .hbm, ⟨87, _⟩ => ⟨S1x2048, .f32⟩
  | .hbm, ⟨88, _⟩ => ⟨S_, .f32⟩
  | .hbm, ⟨89, _⟩ => ⟨S1x2048, .f32⟩
  | .hbm, ⟨90, _⟩ => ⟨S1x2048, .f32⟩
  | .hbm, ⟨91, _⟩ => ⟨S2048x2048, .f32⟩
  | .hbm, ⟨92, _⟩ => ⟨S2048x2048, .f32⟩
  | .hbm, ⟨93, _⟩ => ⟨S2048x2048, .f32⟩
  | .hbm, ⟨94, _⟩ => ⟨S_, .f32⟩
  | .hbm, ⟨95, _⟩ => ⟨S2048x2048, .f32⟩
  | .hbm, ⟨96, _⟩ => ⟨S2048x2048, .f32⟩
  | .hbm, ⟨97, _⟩ => ⟨S_, .f32⟩
  | .hbm, ⟨98, _⟩ => ⟨S2048x2048, .f32⟩
  | .hbm, ⟨99, _⟩ => ⟨S2048x2048, .f32⟩
  | .hbm, ⟨100, _⟩ => ⟨S2048x2048, .f32⟩
  | .hbm, ⟨101, _⟩ => ⟨S2048x2048, .f32⟩
  | .hbm, ⟨102, _⟩ => ⟨S2048x2048, .f32⟩
  | .hbm, ⟨103, _⟩ => ⟨S2048x2048, .f32⟩
  | .hbm, ⟨104, _⟩ => ⟨S_, .f32⟩
  | .hbm, ⟨105, _⟩ => ⟨S2048x2048, .f32⟩
  | .hbm, ⟨106, _⟩ => ⟨S2048x2048, .f32⟩
  | .hbm, ⟨107, _⟩ => ⟨S2048x2048, .f32⟩
  | .hbm, ⟨108, _⟩ => ⟨S2048x2048, .f32⟩
  | .hbm, ⟨109, _⟩ => ⟨S_, .f32⟩
  | .hbm, ⟨110, _⟩ => ⟨S2048x2048, .f32⟩
  | .hbm, ⟨111, _⟩ => ⟨S2048x2048, .f32⟩
  | .hbm, ⟨112, _⟩ => ⟨S_, .f32⟩
  | .hbm, ⟨113, _⟩ => ⟨S2048x2048, .f32⟩
  | .hbm, ⟨114, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_cst_12 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_v47 : Ref sig .tc := ⟨.hbm, 75, rfl⟩
abbrev main_v48 : Ref sig .tc := ⟨.hbm, 76, rfl⟩
abbrev main_cst_14 : Ref sig .tc := ⟨.hbm, 77, rfl⟩
abbrev main_v49 : Ref sig .tc := ⟨.hbm, 78, rfl⟩
abbrev main_cst_15 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_16 : Ref sig .tc := ⟨.hbm, 85, rfl⟩
abbrev main_v55 : Ref sig .tc := ⟨.hbm, 86, rfl⟩
abbrev main_v56 : Ref sig .tc := ⟨.hbm, 87, rfl⟩
abbrev main_cst_17 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_18 : Ref sig .tc := ⟨.hbm, 94, rfl⟩
abbrev main_v62 : Ref sig .tc := ⟨.hbm, 95, rfl⟩
abbrev main_v63 : Ref sig .tc := ⟨.hbm, 96, rfl⟩
abbrev main_cst_19 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_20 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_21 : Ref sig .tc := ⟨.hbm, 109, rfl⟩
abbrev main_v74 : Ref sig .tc := ⟨.hbm, 110, rfl⟩
abbrev main_v75 : Ref sig .tc := ⟨.hbm, 111, rfl⟩
abbrev main_cst_22 : Ref sig .tc := ⟨.hbm, 112, rfl⟩
abbrev main_v76 : Ref sig .tc := ⟨.hbm, 113, rfl⟩
abbrev main_v77 : Ref sig .tc := ⟨.hbm, 114, rfl⟩

abbrev nD : Nat := 1
abbrev τ : Topo := Topo.v7x

variable {F : FTy → Type} [FloatOps F]

class Facts₀ : Prop where
  bcast_S_S2x1x2048 : S_.BroadcastsInDim S2x1x2048 (![] : Fin 0 → Fin S2x1x2048.rank)
  bcast_S2x1x2048_S2x2048x2048_0_1_2 : S2x1x2048.BroadcastsInDim S2x2048x2048 (![0, 1, 2] : Fin 3 → Fin S2x2048x2048.rank)
  bcast_S2048x2048_S1x2048x2048_1_2 : S2048x2048.BroadcastsInDim S1x2048x2048 (![1, 2] : Fin 2 → Fin S1x2048x2048.rank)
  bcast_S1x2048x2048_S2x2048x2048_0_1_2 : S1x2048x2048.BroadcastsInDim S2x2048x2048 (![0, 1, 2] : Fin 3 → Fin S2x2048x2048.rank)
  bcast_S_S2x2048x2048 : S_.BroadcastsInDim S2x2048x2048 (![] : Fin 0 → Fin S2x2048x2048.rank)
  bcast_S_S1x2048 : S_.BroadcastsInDim S1x2048 (![] : Fin 0 → Fin S1x2048.rank)
  reducesTo_S2x2048x2048_S2048x2048_d0 : S2x2048x2048.ReducesTo [0] S2048x2048
  h_S_ : 0 < S_.numel
  bcast_S_S2048x2048 : S_.BroadcastsInDim S2048x2048 (![] : Fin 0 → Fin S2048x2048.rank)
  bcast_S1x2048_S2048x2048_0_1 : S1x2048.BroadcastsInDim S2048x2048 (![0, 1] : Fin 2 → Fin S2048x2048.rank)
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.BitsCases.lean ====
/-
  The reduction axis of the grid (its third coordinate k, four steps per output tile) decides what one grid point does:
  at k = 0 the accumulator is assigned the step's pair of products, at k ≠ 0 the pair is added to it, and at k = 3
  the accumulator is read back and the four output tiles are stored. This module states the three branch
  conditions as the body computes them from the coordinates, decides each over the 64 points of the grid, records
  where the output windows are idle (every point with k ≠ 3), and names the memrefs a point is called with.
-/
import proofs.«162576_j36764920053992_2_alg».proof.Proof.Gen.Kernel.Frame
import proofs.«162576_j36764920053992_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Steps

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions, from the grid coordinates -/

/-- The body's first branch: the reduction coordinate is 0. -/
abbrev atFirst (i : grid0.Coords) : Prop := (Scalar.cmpi .ne (Scalar.extui (Scalar.cmpi .eq (BitVec.ofNat 32 (i 2).val) 0#32)) 0#32) = 1#1
/-- The body's second branch: the reduction coordinate is not 0. -/
abbrev pastFirst (i : grid0.Coords) : Prop := (Scalar.cmpi .ne (Scalar.extui (Scalar.cmpi .ne (BitVec.ofNat 32 (i 2).val) 0#32)) 0#32) = 1#1
/-- The body's third branch: the reduction coordinate is 3, the last. -/
abbrev atLast (i : grid0.Coords) : Prop := k0_cond3 i = 1#1

/-- The reduction coordinate is the point's number modulo 4 (the reduction axis is the innermost). -/
theorem atFirst_iff : ∀ t : Fin cfg0.N, atFirst (grid0.coords t) ↔ t.val % 4 = 0 :=
  (by decide +kernel : ∀ t : Fin grid0.N, atFirst (grid0.coords t) ↔ t.val % 4 = 0)
theorem pastFirst_iff : ∀ t : Fin cfg0.N, pastFirst (grid0.coords t) ↔ ¬ t.val % 4 = 0 :=
  (by decide +kernel : ∀ t : Fin grid0.N, pastFirst (grid0.coords t) ↔ ¬ t.val % 4 = 0)
theorem atLast_iff : ∀ t : Fin cfg0.N, atLast (grid0.coords t) ↔ t.val % 4 = 3 :=
  (by decide +kernel : ∀ t : Fin grid0.N, atLast (grid0.coords t) ↔ t.val % 4 = 3)

/-! ## Where the windows are idle -/

/-- The twelve input windows are never idle. -/
theorem live_in : ∀ w : Fin 16, w.val < 12 → ∀ t : Fin cfg0.N, cfg0.idle w (grid0.coords t) = false := by decide +kernel
/-- Away from the last reduction step the four output windows are idle: nothing is stored into them, -/
theorem idle_out : ∀ w : Fin 16, 12 ≤ w.val → ∀ t : Fin cfg0.N, ¬ t.val % 4 = 3 → cfg0.idle w (grid0.coords t) = true := by decide +kernel
/-- and nothing is written back from them. -/
theorem noFlush_out : ∀ w : Fin 16, 12 ≤ w.val → ∀ t : Fin cfg0.N, ¬ t.val % 4 = 3 → (cfg0.win w).flush t = false := by decide +kernel
/-- At the last reduction step they are live. -/
theorem live_out : ∀ w : Fin 16, 12 ≤ w.val → ∀ t : Fin cfg0.N, t.val % 4 = 3 → cfg0.idle w (grid0.coords t) = false := by decide +kernel

/-! ## The memrefs a point is called with -/

abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x512x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2x1x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2x1x512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S2x1x512 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S512x512 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x512 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S2x512x512 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x512 .f32 := win0_15.stage (cfg0.slots t 15)
abbrev hs15 (t : Fin cfg0.N) : (ms15 t).IsWhole := hstage0_15 ((cfg0.slots t 15).cast nbuf0_15)

/-- The accumulator: a whole scoped buffer of the kernel's own, carried from one grid point to the next. -/
abbrev accM : Memref sig .tc .vmem S512x512 .f32 := Memref.whole cc0_scratch0
/-- The view through which the accumulator's contents are stated. -/
abbrev accV : View sig .tc .vmem S512x512 .f32 := accM.view
/-- One staging buffer of each output window, through which what a point leaves there is stated. -/
abbrev outV12 : View sig .tc .vmem S512x512 .f32 := (Memref.whole cc0_stg12_0 : Memref sig .tc .vmem S512x512 .f32).view
abbrev outV13 : View sig .tc .vmem S512x512 .f32 := (Memref.whole cc0_stg13_0 : Memref sig .tc .vmem S512x512 .f32).view
abbrev outV14 : View sig .tc .vmem S2x512x512 .f32 := (Memref.whole cc0_stg14_0 : Memref sig .tc .vmem S2x512x512 .f32).view
abbrev outV15 : View sig .tc .vmem S512x512 .f32 := (Memref.whole cc0_stg15_0 : Memref sig .tc .vmem S512x512 .f32).view

/-- The region's class invariant with the accumulator as a memref owned at some contents. -/
theorem regionInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Steps

end
-- ==== Proof.BitsFirst.lean ====
/-
  One grid point at the first reduction step (k = 0). The body loads the step's four operand tiles, loads the
  accumulator (whatever it holds) and overwrites it whole with the step's pair of products; it touches no output
  tile. Stated on arbitrary whole memrefs: the inputs at given contents and the idle outputs at given contents are
  handed back as found, the accumulator is handed back with the pieces the body stored into it.
-/
import proofs.«162576_j36764920053992_2_alg».proof.Proof.BitsCases

set_option maxRecDepth 16384

noncomputable section

namespace Cert.Kernel.Steps

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body stores into the accumulator at a first step, with the proof that the body runs to any
    continuation that accepts the inputs and the idle outputs unchanged and the accumulator with those pieces written. -/
noncomputable def runFirst (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : atFirst i) (h1 : ¬ pastFirst i) (h2 : ¬ atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) :
    { LS : List (View.Piece (Elt F) S512x512 .f32) //
      ∀ (y12 y13 : Vec F S512x512 .f32) (y14 : Vec F S2x512x512 .f32) (y15 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare y15 ∗ (∃ d, owns (c : Thread nD τ) arg19 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare y15 ∗ (∃ f, arg19.view.loc (c : Thread nD τ) ↦[arg19.view.set]{fullShare} arg19.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun y12 y13 y14 y15 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
    sl_exec (disch := first | exact h0 | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    iexists _; iexact HS

end Cert.Kernel.Steps

end
-- ==== Proof.BitsMid.lean ====
/-
  One grid point at a middle reduction step (k = 1 or 2). The body loads the step's four operand tiles, loads the
  accumulator as the point before left it, and stores back the accumulator plus the step's pair of products; it
  touches no output tile.
-/
import proofs.«162576_j36764920053992_2_alg».proof.Proof.BitsFirst

set_option maxRecDepth 16384

noncomputable section

namespace Cert.Kernel.Steps

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body stores into the accumulator at a middle step, the accumulator found at `acc`. -/
noncomputable def runMid (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : ¬ atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) :
    { LS : List (View.Piece (Elt F) S512x512 .f32) //
      ∀ (y12 y13 : Vec F S512x512 .f32) (y14 : Vec F S2x512x512 .f32) (y15 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare y15 ∗ owns (c : Thread nD τ) arg19 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare y15 ∗ (∃ f, arg19.view.loc (c : Thread nD τ) ↦[arg19.view.set]{fullShare} arg19.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun y12 y13 y14 y15 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hfs
    sl_exec (disch := first | exact h0 | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    iexists _; iexact HS

end Cert.Kernel.Steps

end
-- ==== Proof.BitsLast.lean ====
/-
  One grid point at the last reduction step (k = 3). The body adds the step's pair of products to the accumulator,
  then reads the accumulator back together with the eight tiles of the neuron state and its parameters, and stores
  the four output tiles whole: the new firing rate, the new voltage, the two new after-spike currents and the
  synaptic current (the accumulator itself).
-/
import proofs.«162576_j36764920053992_2_alg».proof.Proof.BitsMid

set_option maxRecDepth 16384

noncomputable section

namespace Cert.Kernel.Steps

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The pieces the body stores into each output tile and into the accumulator at a last step, the accumulator
    found at `acc`, the output tiles at anything. -/
noncomputable def runLast (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) :
    Σ' (L12 : List (View.Piece (Elt F) S512x512 .f32)) (L13 : List (View.Piece (Elt F) S512x512 .f32)) (L14 : List (View.Piece (Elt F) S2x512x512 .f32)) (L15 : List (View.Piece (Elt F) S512x512 .f32)),
    { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg19.eq_unread hfs
    sl_exec (disch := first | exact h0 | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]; · iexists _; iexact H12
    isplitl [H13]; · iexists _; iexact H13
    isplitl [H14]; · iexists _; iexact H14
    isplitl [H15]; · iexists _; iexact H15
    iexists _; iexact HS

end Cert.Kernel.Steps

end
-- ==== Proof.BitsFrame.lean ====
/-
  The whole run of the kernel's region, grid point by grid point. What the accumulator holds after a point is
  defined by recursion on the point: the step's pair of products at a first reduction step, that pair added to what
  the point before left at a later one. What the four output tiles hold after a last reduction step is what that step
  stores from the accumulator and the state tiles; at the other points the output windows are idle. With this
  as the pipeline's proof data, the region's invariant tracks the accumulator between points, every point's body
  meets its obligation by the run of its case, and the launch theorem gives the run of the program: it ends,
  faults nowhere, leaves every argument array as it was and every result array at what the proof data says.
-/
import proofs.«162576_j36764920053992_2_alg».proof.Proof.BitsLast

set_option maxRecDepth 16384

noncomputable section

namespace Cert.Kernel.Steps

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a grid point -/

/-- The first-step run at point `t`, on the point's staging memrefs and input blocks. -/
noncomputable def stepFirst (c : Dev nD) (t : Fin cfg0.N) (h0 : t.val % 4 = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) accM (Memref.isWhole_whole _)
    ((atFirst_iff t).mpr h0) (fun h => (pastFirst_iff t).mp h h0) (fun h => by have := (atLast_iff t).mp h; omega)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The middle-step run at point `t`, the accumulator found at `acc`. -/
noncomputable def stepMid (c : Dev nD) (t : Fin cfg0.N) (h0 : ¬ t.val % 4 = 0) (h3 : ¬ t.val % 4 = 3) (acc : Vec F S512x512 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) accM (Memref.isWhole_whole _)
    (fun h => h0 ((atFirst_iff t).mp h)) ((pastFirst_iff t).mpr h0) (fun h => h3 ((atLast_iff t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc

/-- The last-step run at point `t`, the accumulator found at `acc`. -/
noncomputable def stepLast (c : Dev nD) (t : Fin cfg0.N) (h3 : t.val % 4 = 3) (acc : Vec F S512x512 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) accM (Memref.isWhole_whole _)
    (fun h => by have := (atFirst_iff t).mp h; omega) ((pastFirst_iff t).mpr (by omega)) ((atLast_iff t).mpr h3)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc

/-- What each case leaves in the accumulator: its stored pieces read back. -/
noncomputable def accOfFirst (c : Dev nD) (t : Fin cfg0.N) (h0 : t.val % 4 = 0) : Vec F S512x512 .f32 :=
  accV.read (Elt F) (accV.writes (Elt F) accV.junk (stepFirst m c t h0).1)
noncomputable def accOfMid (c : Dev nD) (t : Fin cfg0.N) (h0 : ¬ t.val % 4 = 0) (h3 : ¬ t.val % 4 = 3) (acc : Vec F S512x512 .f32) : Vec F S512x512 .f32 :=
  accV.read (Elt F) (accV.writes (Elt F) accV.junk (stepMid m c t h0 h3 acc).1)
noncomputable def accOfLast (c : Dev nD) (t : Fin cfg0.N) (h3 : t.val % 4 = 3) (acc : Vec F S512x512 .f32) : Vec F S512x512 .f32 :=
  accV.read (Elt F) (accV.writes (Elt F) accV.junk (stepLast m c t h3 acc).2.2.2.2.1)
/-- What the last step leaves in each output tile. -/
noncomputable def firingOfLast (c : Dev nD) (t : Fin cfg0.N) (h3 : t.val % 4 = 3) (acc : Vec F S512x512 .f32) : Vec F S512x512 .f32 :=
  outV12.read (Elt F) (outV12.writes (Elt F) outV12.junk (stepLast m c t h3 acc).1)
noncomputable def voltageOfLast (c : Dev nD) (t : Fin cfg0.N) (h3 : t.val % 4 = 3) (acc : Vec F S512x512 .f32) : Vec F S512x512 .f32 :=
  outV13.read (Elt F) (outV13.writes (Elt F) outV13.junk (stepLast m c t h3 acc).2.1)
noncomputable def currentsOfLast (c : Dev nD) (t : Fin cfg0.N) (h3 : t.val % 4 = 3) (acc : Vec F S512x512 .f32) : Vec F S2x512x512 .f32 :=
  outV14.read (Elt F) (outV14.writes (Elt F) outV14.junk (stepLast m c t h3 acc).2.2.1)
noncomputable def synapticOfLast (c : Dev nD) (t : Fin cfg0.N) (h3 : t.val % 4 = 3) (acc : Vec F S512x512 .f32) : Vec F S512x512 .f32 :=
  outV15.read (Elt F) (outV15.writes (Elt F) outV15.junk (stepLast m c t h3 acc).2.2.2.1)

/-! ## The stored pieces cover their buffers -/

theorem cover_first (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : atFirst i) (h1 : ¬ pastFirst i) (h2 : ¬ atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (y : S512x512.Idx) :
    ∃ pc ∈ (runFirst (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11).1, y ∈ pc.1.set :=
  View.cover_of_tiledL (runFirst (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11).1 S512x512.size (by sl_kernel_rfl) y
theorem cover_mid (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : ¬ atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) (y : S512x512.Idx) :
    ∃ pc ∈ (runMid (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).1, y ∈ pc.1.set :=
  View.cover_of_tiledL (runMid (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).1 S512x512.size (by sl_kernel_rfl) y
theorem cover_last_acc (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) (y : S512x512.Idx) :
    ∃ pc ∈ (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.2.2.1, y ∈ pc.1.set :=
  View.cover_of_tiledL (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.2.2.1 S512x512.size (by sl_kernel_rfl) y
theorem cover_last_firing (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) (y : S512x512.Idx) :
    ∃ pc ∈ (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).1, y ∈ pc.1.set :=
  View.cover_of_tiledL (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).1 S512x512.size (by sl_kernel_rfl) y
theorem cover_last_voltage (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) (y : S512x512.Idx) :
    ∃ pc ∈ (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.1, y ∈ pc.1.set :=
  View.cover_of_tiledL (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.1 S512x512.size (by sl_kernel_rfl) y
theorem cover_last_currents (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) (y : S2x512x512.Idx) :
    ∃ pc ∈ (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.1, y ∈ pc.1.set :=
  View.cover_of_tiledL (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.1 S2x512x512.size (by sl_kernel_rfl) y
theorem cover_last_synaptic (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) (y : S512x512.Idx) :
    ∃ pc ∈ (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.2.1, y ∈ pc.1.set :=
  View.cover_of_tiledL (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.2.1 S512x512.size (by sl_kernel_rfl) y

/-! ## What the buffers hold after each point -/

/-- After the body at position `n`: the four output tiles (junk while their windows are idle) and the accumulator. -/
noncomputable def stateAfter (c : Dev nD) : (n : ℕ) → n < cfg0.N → Vec F S512x512 .f32 × Vec F S512x512 .f32 × Vec F S2x512x512 .f32 × Vec F S512x512 .f32 × Vec F S512x512 .f32
  | 0, hn => (outV12.read (Elt F) outV12.junk, outV13.read (Elt F) outV13.junk, outV14.read (Elt F) outV14.junk, outV15.read (Elt F) outV15.junk, accOfFirst m c ⟨0, hn⟩ (Nat.zero_mod _))
  | n + 1, hn =>
    if h0 : (n + 1) % 4 = 0 then
      (outV12.read (Elt F) outV12.junk, outV13.read (Elt F) outV13.junk, outV14.read (Elt F) outV14.junk, outV15.read (Elt F) outV15.junk, accOfFirst m c ⟨n + 1, hn⟩ h0)
    else
      if h3 : (n + 1) % 4 = 3 then
        (firingOfLast m c ⟨n + 1, hn⟩ h3 (stateAfter c n (Nat.lt_of_succ_lt hn)).2.2.2.2,
         voltageOfLast m c ⟨n + 1, hn⟩ h3 (stateAfter c n (Nat.lt_of_succ_lt hn)).2.2.2.2,
         currentsOfLast m c ⟨n + 1, hn⟩ h3 (stateAfter c n (Nat.lt_of_succ_lt hn)).2.2.2.2,
         synapticOfLast m c ⟨n + 1, hn⟩ h3 (stateAfter c n (Nat.lt_of_succ_lt hn)).2.2.2.2,
         accOfLast m c ⟨n + 1, hn⟩ h3 (stateAfter c n (Nat.lt_of_succ_lt hn)).2.2.2.2)
      else
        (outV12.read (Elt F) outV12.junk, outV13.read (Elt F) outV13.junk, outV14.read (Elt F) outV14.junk, outV15.read (Elt F) outV15.junk, accOfMid m c ⟨n + 1, hn⟩ h0 h3 (stateAfter c n (Nat.lt_of_succ_lt hn)).2.2.2.2)

/-- The accumulator as the point before `t` left it. -/
noncomputable abbrev accBefore (c : Dev nD) (t : Fin cfg0.N) : Vec F S512x512 .f32 :=
  (stateAfter m c (t.val - 1) (Nat.lt_of_le_of_lt (Nat.sub_le _ _) t.isLt)).2.2.2.2

theorem stateAfter_first (c : Dev nD) (t : Fin cfg0.N) (h0 : t.val % 4 = 0) :
    stateAfter m c t.val t.isLt = (outV12.read (Elt F) outV12.junk, outV13.read (Elt F) outV13.junk, outV14.read (Elt F) outV14.junk, outV15.read (Elt F) outV15.junk, accOfFirst m c t h0) := by
  obtain ⟨n, hn⟩ := t
  cases n with
  | zero => exact rfl
  | succ n => exact (dif_pos h0).trans rfl

theorem stateAfter_mid (c : Dev nD) (t : Fin cfg0.N) (h0 : ¬ t.val % 4 = 0) (h3 : ¬ t.val % 4 = 3) :
    stateAfter m c t.val t.isLt = (outV12.read (Elt F) outV12.junk, outV13.read (Elt F) outV13.junk, outV14.read (Elt F) outV14.junk, outV15.read (Elt F) outV15.junk, accOfMid m c t h0 h3 (accBefore m c t)) := by
  obtain ⟨n, hn⟩ := t
  cases n with
  | zero => exact (by exfalso; (try dsimp only at h0); exact absurd (Nat.zero_mod _) h0)
  | succ n => exact (dif_neg h0).trans ((dif_neg h3).trans rfl)

theorem stateAfter_last (c : Dev nD) (t : Fin cfg0.N) (h3 : t.val % 4 = 3) :
    stateAfter m c t.val t.isLt = (firingOfLast m c t h3 (accBefore m c t), voltageOfLast m c t h3 (accBefore m c t),
      currentsOfLast m c t h3 (accBefore m c t), synapticOfLast m c t h3 (accBefore m c t), accOfLast m c t h3 (accBefore m c t)) := by
  obtain ⟨n, hn⟩ := t
  cases n with
  | zero => exact (by exfalso; (try dsimp only at h3); omega)
  | succ n => exact (dif_neg (by (try dsimp only at h3); omega)).trans ((dif_pos h3).trans rfl)

/-! ## The region's invariant, tracking the accumulator -/

/-- Before position `n`: at the start the class's invariant (the accumulator at anything); afterwards the
    accumulator at what the point before left, and the generator register at some state. -/
def accInv (c : Dev nD) : (n : ℕ) → n ≤ cfg0.N → sProp 𝕄
  | 0, _ => Pipeline.ΦA spec0 c
  | n + 1, hn => iprop(iprop(owns (c : Thread nD τ) accM fullShare ((stateAfter m c n hn).2.2.2.2)) ∗ (∃ r, prngReg c r))

theorem accInv_zero (c : Dev nD) (n : ℕ) (h : n ≤ cfg0.N) (hz : n = 0) : accInv m c n h = Pipeline.ΦA spec0 c := by
  subst hz; rfl
theorem accInv_succ (c : Dev nD) (n : ℕ) (hn : n < cfg0.N) :
    accInv m c (n + 1) hn = iprop(iprop(owns (c : Thread nD τ) accM fullShare ((stateAfter m c n hn).2.2.2.2)) ∗ (∃ r, prngReg c r)) := rfl
theorem accInv_pos (c : Dev nD) (n : ℕ) (h : n ≤ cfg0.N) (hz : n ≠ 0) :
    accInv m c n h = iprop(iprop(owns (c : Thread nD τ) accM fullShare ((stateAfter m c (n - 1) (by omega)).2.2.2.2)) ∗ (∃ r, prngReg c r)) := by
  cases n with
  | zero => exact absurd rfl hz
  | succ n => rfl

/-! ## The pipeline's proof data -/

/-- The arrays as the region finds them; after the body at point `t` each input's buffer at its block and each
    output's at `stateAfter`'s component; the invariant `accInv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (stateAfter m c t.val t.isLt).1
    | ⟨13, _⟩ => (stateAfter m c t.val t.isLt).2.1
    | ⟨14, _⟩ => (stateAfter m c t.val t.isLt).2.2.1
    | ⟨15, _⟩ => (stateAfter m c t.val t.isLt).2.2.2.1
    | ⟨_ + 16, h⟩ => absurd h (Nat.not_lt.2 (Nat.le_add_left _ _))
  Φ t := accInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem accInv_castSucc (c : Dev nD) (t : Fin cfg0.N) :
    (dats m 0 c).Φ t.castSucc = accInv m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_in9 (c : Dev nD) (t : Fin cfg0.N) : (dats m 0 c).after 9 t = iblk m c 9 t := by dsimp only [dats]
theorem after_in10 (c : Dev nD) (t : Fin cfg0.N) : (dats m 0 c).after 10 t = iblk m c 10 t := by dsimp only [dats]
theorem after_in11 (c : Dev nD) (t : Fin cfg0.N) : (dats m 0 c).after 11 t = iblk m c 11 t := by dsimp only [dats]
theorem after_out12 (c : Dev nD) (t : Fin cfg0.N) : (dats m 0 c).after 12 t = (stateAfter m c t.val t.isLt).1 := by dsimp only [dats]
theorem after_out13 (c : Dev nD) (t : Fin cfg0.N) : (dats m 0 c).after 13 t = (stateAfter m c t.val t.isLt).2.1 := by dsimp only [dats]
theorem after_out14 (c : Dev nD) (t : Fin cfg0.N) : (dats m 0 c).after 14 t = (stateAfter m c t.val t.isLt).2.2.1 := by dsimp only [dats]
theorem after_out15 (c : Dev nD) (t : Fin cfg0.N) : (dats m 0 c).after 15 t = (stateAfter m c t.val t.isLt).2.2.2.1 := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d
theorem before_in6 (c : Dev nD) (t : Fin cfg0.N) (d) : (dats m 0 c).before 6 t d = iblk m c 6 t :=
  before0_6_of m (dats m 0 c) (A_eq m c 6) (after_in6 m c) t d
theorem before_in7 (c : Dev nD) (t : Fin cfg0.N) (d) : (dats m 0 c).before 7 t d = iblk m c 7 t :=
  before0_7_of m (dats m 0 c) (A_eq m c 7) (after_in7 m c) t d
theorem before_in8 (c : Dev nD) (t : Fin cfg0.N) (d) : (dats m 0 c).before 8 t d = iblk m c 8 t :=
  before0_8_of m (dats m 0 c) (A_eq m c 8) (after_in8 m c) t d
theorem before_in9 (c : Dev nD) (t : Fin cfg0.N) (d) : (dats m 0 c).before 9 t d = iblk m c 9 t :=
  before0_9_of m (dats m 0 c) (A_eq m c 9) (after_in9 m c) t d
theorem before_in10 (c : Dev nD) (t : Fin cfg0.N) (d) : (dats m 0 c).before 10 t d = iblk m c 10 t :=
  before0_10_of m (dats m 0 c) (A_eq m c 10) (after_in10 m c) t d
theorem before_in11 (c : Dev nD) (t : Fin cfg0.N) (d) : (dats m 0 c).before 11 t d = iblk m c 11 t :=
  before0_11_of m (dats m 0 c) (A_eq m c 11) (after_in11 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 16000000 in
/-- The body at any point: the inputs' buffers hold their blocks; the point's number modulo 4 says which case it is
    in; the invariant hands the body the accumulator as the point before left it (at anything at the very first
    point) and takes it back at this point's contents; the idle outputs go back as found, the live ones at what the
    last step stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9, before_in10, before_in11]
  rw [show (dats m 0 c).owesAt () t.succ = (dats m 0 c).owesAt () t.castSucc from rfl]
  rw [show (dats m 0 c).Φ t.succ = accInv m c (t.val + 1) t.isLt from rfl, accInv_succ]
  have hN : t.val < 64 := lt_of_lt_of_eq t.isLt (show cfg0.N = 64 from N_0)
  by_cases h0 : t.val % 4 = 0
  · have h3 : ¬ t.val % 4 = 3 := by omega
    rw [show (dats m 0 c).leavesExact 0 t = owns (c : Thread nD τ) (ms0 t) fullShare ((dats m 0 c).after 0 t) from by
      unfold Dat.leavesExact; rw [live_in 0 (by decide) t], after_in0]
    rw [show (dats m 0 c).leavesExact 1 t = owns (c : Thread nD τ) (ms1 t) fullShare ((dats m 0 c).after 1 t) from by
      unfold Dat.leavesExact; rw [live_in 1 (by decide) t], after_in1]
    rw [show (dats m 0 c).leavesExact 2 t = owns (c : Thread nD τ) (ms2 t) fullShare ((dats m 0 c).after 2 t) from by
      unfold Dat.leavesExact; rw [live_in 2 (by decide) t], after_in2]
    rw [show (dats m 0 c).leavesExact 3 t = owns (c : Thread nD τ) (ms3 t) fullShare ((dats m 0 c).after 3 t) from by
      unfold Dat.leavesExact; rw [live_in 3 (by decide) t], after_in3]
    rw [show (dats m 0 c).leavesExact 4 t = owns (c : Thread nD τ) (ms4 t) fullShare ((dats m 0 c).after 4 t) from by
      unfold Dat.leavesExact; rw [live_in 4 (by decide) t], after_in4]
    rw [show (dats m 0 c).leavesExact 5 t = owns (c : Thread nD τ) (ms5 t) fullShare ((dats m 0 c).after 5 t) from by
      unfold Dat.leavesExact; rw [live_in 5 (by decide) t], after_in5]
    rw [show (dats m 0 c).leavesExact 6 t = owns (c : Thread nD τ) (ms6 t) fullShare ((dats m 0 c).after 6 t) from by
      unfold Dat.leavesExact; rw [live_in 6 (by decide) t], after_in6]
    rw [show (dats m 0 c).leavesExact 7 t = owns (c : Thread nD τ) (ms7 t) fullShare ((dats m 0 c).after 7 t) from by
      unfold Dat.leavesExact; rw [live_in 7 (by decide) t], after_in7]
    rw [show (dats m 0 c).leavesExact 8 t = owns (c : Thread nD τ) (ms8 t) fullShare ((dats m 0 c).after 8 t) from by
      unfold Dat.leavesExact; rw [live_in 8 (by decide) t], after_in8]
    rw [show (dats m 0 c).leavesExact 9 t = owns (c : Thread nD τ) (ms9 t) fullShare ((dats m 0 c).after 9 t) from by
      unfold Dat.leavesExact; rw [live_in 9 (by decide) t], after_in9]
    rw [show (dats m 0 c).leavesExact 10 t = owns (c : Thread nD τ) (ms10 t) fullShare ((dats m 0 c).after 10 t) from by
      unfold Dat.leavesExact; rw [live_in 10 (by decide) t], after_in10]
    rw [show (dats m 0 c).leavesExact 11 t = owns (c : Thread nD τ) (ms11 t) fullShare ((dats m 0 c).after 11 t) from by
      unfold Dat.leavesExact; rw [live_in 11 (by decide) t], after_in11]
    rw [Dat.leavesExact_idle (dats m 0 c) 12 t (idle_out 12 (by decide) t h3) (noFlush_out 12 (by decide) t h3)]
    rw [Dat.leavesExact_idle (dats m 0 c) 13 t (idle_out 13 (by decide) t h3) (noFlush_out 13 (by decide) t h3)]
    rw [Dat.leavesExact_idle (dats m 0 c) 14 t (idle_out 14 (by decide) t h3) (noFlush_out 14 (by decide) t h3)]
    rw [Dat.leavesExact_idle (dats m 0 c) 15 t (idle_out 15 (by decide) t h3) (noFlush_out 15 (by decide) t h3)]
    rw [stateAfter_first m c t h0]
    unfold accOfFirst stepFirst; (try dsimp only)
    by_cases hz : t.val = 0
    · rw [accInv_castSucc m c t, accInv_zero m c _ _ hz, regionInv_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runFirst (F := F) c (grid0.coords t) _ _ _ _ _ _ _ _ _ _ _ _ _ _ _ _ _ _ _ _ _ _ _ _ _ _ _ _ _ _ _ _ _ _ ((atFirst_iff t).mpr h0) (fun h => (pastFirst_iff t).mp h h0) (fun h => h3 ((atLast_iff t).mp h)) _ _ _ _ _ _ _ _ _ _ _ _).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS]; · iexact HS
      iintro ⟨H0, H1, H2, H3, H4, H5, H6, H7, H8, H9, H10, H11, H12, H13, H14, H15, ⟨%es, HS⟩⟩
      isplitl [HS Hg]
      · isplitl [HS]
        · unfold owns; iexists _; isplitr
          swap; · iexact HS
          ipureintro; exact View.read_writes_of_cover _ _ _ _ _ (cover_first c _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      iexists _; iexact H15
    · rw [accInv_castSucc m c t, accInv_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runFirst (F := F) c (grid0.coords t) _ _ _ _ _ _ _ _ _ _ _ _ _ _ _ _ _ _ _ _ _ _ _ _ _ _ _ _ _ _ _ _ _ _ ((atFirst_iff t).mpr h0) (fun h => (pastFirst_iff t).mp h h0) (fun h => h3 ((atLast_iff t).mp h)) _ _ _ _ _ _ _ _ _ _ _ _).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS]; · iexists _; iexact HS
      iintro ⟨H0, H1, H2, H3, H4, H5, H6, H7, H8, H9, H10, H11, H12, H13, H14, H15, ⟨%es, HS⟩⟩
      isplitl [HS Hg]
      · isplitl [HS]
        · unfold owns; iexists _; isplitr
          swap; · iexact HS
          ipureintro; exact View.read_writes_of_cover _ _ _ _ _ (cover_first c _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      iexists _; iexact H15
  · have hz : t.val ≠ 0 := by omega
    by_cases h3 : t.val % 4 = 3
    ·
      rw [show (dats m 0 c).leavesExact 0 t = owns (c : Thread nD τ) (ms0 t) fullShare ((dats m 0 c).after 0 t) from by
        unfold Dat.leavesExact; rw [live_in 0 (by decide) t], after_in0]
      rw [show (dats m 0 c).leavesExact 1 t = owns (c : Thread nD τ) (ms1 t) fullShare ((dats m 0 c).after 1 t) from by
        unfold Dat.leavesExact; rw [live_in 1 (by decide) t], after_in1]
      rw [show (dats m 0 c).leavesExact 2 t = owns (c : Thread nD τ) (ms2 t) fullShare ((dats m 0 c).after 2 t) from by
        unfold Dat.leavesExact; rw [live_in 2 (by decide) t], after_in2]
      rw [show (dats m 0 c).leavesExact 3 t = owns (c : Thread nD τ) (ms3 t) fullShare ((dats m 0 c).after 3 t) from by
        unfold Dat.leavesExact; rw [live_in 3 (by decide) t], after_in3]
      rw [show (dats m 0 c).leavesExact 4 t = owns (c : Thread nD τ) (ms4 t) fullShare ((dats m 0 c).after 4 t) from by
        unfold Dat.leavesExact; rw [live_in 4 (by decide) t], after_in4]
      rw [show (dats m 0 c).leavesExact 5 t = owns (c : Thread nD τ) (ms5 t) fullShare ((dats m 0 c).after 5 t) from by
        unfold Dat.leavesExact; rw [live_in 5 (by decide) t], after_in5]
      rw [show (dats m 0 c).leavesExact 6 t = owns (c : Thread nD τ) (ms6 t) fullShare ((dats m 0 c).after 6 t) from by
        unfold Dat.leavesExact; rw [live_in 6 (by decide) t], after_in6]
      rw [show (dats m 0 c).leavesExact 7 t = owns (c : Thread nD τ) (ms7 t) fullShare ((dats m 0 c).after 7 t) from by
        unfold Dat.leavesExact; rw [live_in 7 (by decide) t], after_in7]
      rw [show (dats m 0 c).leavesExact 8 t = owns (c : Thread nD τ) (ms8 t) fullShare ((dats m 0 c).after 8 t) from by
        unfold Dat.leavesExact; rw [live_in 8 (by decide) t], after_in8]
      rw [show (dats m 0 c).leavesExact 9 t = owns (c : Thread nD τ) (ms9 t) fullShare ((dats m 0 c).after 9 t) from by
        unfold Dat.leavesExact; rw [live_in 9 (by decide) t], after_in9]
      rw [show (dats m 0 c).leavesExact 10 t = owns (c : Thread nD τ) (ms10 t) fullShare ((dats m 0 c).after 10 t) from by
        unfold Dat.leavesExact; rw [live_in 10 (by decide) t], after_in10]
      rw [show (dats m 0 c).leavesExact 11 t = owns (c : Thread nD τ) (ms11 t) fullShare ((dats m 0 c).after 11 t) from by
        unfold Dat.leavesExact; rw [live_in 11 (by decide) t], after_in11]
      rw [show (dats m 0 c).leavesExact 12 t = owns (c : Thread nD τ) (ms12 t) fullShare ((dats m 0 c).after 12 t) from by
        unfold Dat.leavesExact; rw [live_out 12 (by decide) t h3], after_out12]
      rw [show (dats m 0 c).leavesExact 13 t = owns (c : Thread nD τ) (ms13 t) fullShare ((dats m 0 c).after 13 t) from by
        unfold Dat.leavesExact; rw [live_out 13 (by decide) t h3], after_out13]
      rw [show (dats m 0 c).leavesExact 14 t = owns (c : Thread nD τ) (ms14 t) fullShare ((dats m 0 c).after 14 t) from by
        unfold Dat.leavesExact; rw [live_out 14 (by decide) t h3], after_out14]
      rw [show (dats m 0 c).leavesExact 15 t = owns (c : Thread nD τ) (ms15 t) fullShare ((dats m 0 c).after 15 t) from by
        unfold Dat.leavesExact; rw [live_out 15 (by decide) t h3], after_out15]
      rw [stateAfter_last m c t h3]
      unfold firingOfLast voltageOfLast currentsOfLast synapticOfLast accOfLast stepLast; (try dsimp only)
      rw [accInv_castSucc m c t, accInv_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runLast (F := F) c (grid0.coords t) _ _ _ _ _ _ _ _ _ _ _ _ _ _ _ _ _ _ _ _ _ _ _ _ _ _ _ _ _ _ _ _ _ _ (fun h => h0 ((atFirst_iff t).mp h)) ((pastFirst_iff t).mpr h0) ((atLast_iff t).mpr h3) _ _ _ _ _ _ _ _ _ _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [HS]; · iexact HS
      iintro ⟨H0, H1, H2, H3, H4, H5, H6, H7, H8, H9, H10, H11, ⟨%e12, H12⟩, ⟨%e13, H13⟩, ⟨%e14, H14⟩, ⟨%e15, H15⟩, ⟨%es, HS⟩⟩
      isplitl [HS Hg]
      · isplitl [HS]
        · unfold owns; iexists _; isplitr
          swap; · iexact HS
          ipureintro; exact View.read_writes_of_cover _ _ _ _ _ (cover_last_acc c _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover_last_firing c _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover_last_voltage c _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover_last_currents c _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H15
      ipureintro; exact View.read_writes_of_cover _ _ _ _ _ (cover_last_synaptic c _ _ _ _ _ _ _ _ _ _ _ _ _ _ _ _ _ _ _ _ _ _ _ _ _ _ _ _ _ _ _ _ _ _ _ _ _ _ _ _ _ _ _ _ _ _ _ _ _ _ _)
    ·
      rw [show (dats m 0 c).leavesExact 0 t = owns (c : Thread nD τ) (ms0 t) fullShare ((dats m 0 c).after 0 t) from by
        unfold Dat.leavesExact; rw [live_in 0 (by decide) t], after_in0]
      rw [show (dats m 0 c).leavesExact 1 t = owns (c : Thread nD τ) (ms1 t) fullShare ((dats m 0 c).after 1 t) from by
        unfold Dat.leavesExact; rw [live_in 1 (by decide) t], after_in1]
      rw [show (dats m 0 c).leavesExact 2 t = owns (c : Thread nD τ) (ms2 t) fullShare ((dats m 0 c).after 2 t) from by
        unfold Dat.leavesExact; rw [live_in 2 (by decide) t], after_in2]
      rw [show (dats m 0 c).leavesExact 3 t = owns (c : Thread nD τ) (ms3 t) fullShare ((dats m 0 c).after 3 t) from by
        unfold Dat.leavesExact; rw [live_in 3 (by decide) t], after_in3]
      rw [show (dats m 0 c).leavesExact 4 t = owns (c : Thread nD τ) (ms4 t) fullShare ((dats m 0 c).after 4 t) from by
        unfold Dat.leavesExact; rw [live_in 4 (by decide) t], after_in4]
      rw [show (dats m 0 c).leavesExact 5 t = owns (c : Thread nD τ) (ms5 t) fullShare ((dats m 0 c).after 5 t) from by
        unfold Dat.leavesExact; rw [live_in 5 (by decide) t], after_in5]
      rw [show (dats m 0 c).leavesExact 6 t = owns (c : Thread nD τ) (ms6 t) fullShare ((dats m 0 c).after 6 t) from by
        unfold Dat.leavesExact; rw [live_in 6 (by decide) t], after_in6]
      rw [show (dats m 0 c).leavesExact 7 t = owns (c : Thread nD τ) (ms7 t) fullShare ((dats m 0 c).after 7 t) from by
        unfold Dat.leavesExact; rw [live_in 7 (by decide) t], after_in7]
      rw [show (dats m 0 c).leavesExact 8 t = owns (c : Thread nD τ) (ms8 t) fullShare ((dats m 0 c).after 8 t) from by
        unfold Dat.leavesExact; rw [live_in 8 (by decide) t], after_in8]
      rw [show (dats m 0 c).leavesExact 9 t = owns (c : Thread nD τ) (ms9 t) fullShare ((dats m 0 c).after 9 t) from by
        unfold Dat.leavesExact; rw [live_in 9 (by decide) t], after_in9]
      rw [show (dats m 0 c).leavesExact 10 t = owns (c : Thread nD τ) (ms10 t) fullShare ((dats m 0 c).after 10 t) from by
        unfold Dat.leavesExact; rw [live_in 10 (by decide) t], after_in10]
      rw [show (dats m 0 c).leavesExact 11 t = owns (c : Thread nD τ) (ms11 t) fullShare ((dats m 0 c).after 11 t) from by
        unfold Dat.leavesExact; rw [live_in 11 (by decide) t], after_in11]
      rw [Dat.leavesExact_idle (dats m 0 c) 12 t (idle_out 12 (by decide) t h3) (noFlush_out 12 (by decide) t h3)]
      rw [Dat.leavesExact_idle (dats m 0 c) 13 t (idle_out 13 (by decide) t h3) (noFlush_out 13 (by decide) t h3)]
      rw [Dat.leavesExact_idle (dats m 0 c) 14 t (idle_out 14 (by decide) t h3) (noFlush_out 14 (by decide) t h3)]
      rw [Dat.leavesExact_idle (dats m 0 c) 15 t (idle_out 15 (by decide) t h3) (noFlush_out 15 (by decide) t h3)]
      rw [stateAfter_mid m c t h0 h3]
      unfold accOfMid stepMid; (try dsimp only)
      rw [accInv_castSucc m c t, accInv_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runMid (F := F) c (grid0.coords t) _ _ _ _ _ _ _ _ _ _ _ _ _ _ _ _ _ _ _ _ _ _ _ _ _ _ _ _ _ _ _ _ _ _ (fun h => h0 ((atFirst_iff t).mp h)) ((pastFirst_iff t).mpr h0) (fun h => h3 ((atLast_iff t).mp h)) _ _ _ _ _ _ _ _ _ _ _ _ _).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS]; · iexact HS
      iintro ⟨H0, H1, H2, H3, H4, H5, H6, H7, H8, H9, H10, H11, H12, H13, H14, H15, ⟨%es, HS⟩⟩
      isplitl [HS Hg]
      · isplitl [HS]
        · unfold owns; iexists _; isplitr
          swap; · iexact HS
          ipureintro; exact View.read_writes_of_cover _ _ _ _ _ (cover_mid c _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      iexists _; iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = accInv m c 0 (Nat.zero_le _) from rfl, accInv_zero m c 0 _ rfl]
  try exact Idealize.SL.BI.Entails.refl _

/-- After the last point the invariant gives the class's back: the accumulator's contents are forgotten. -/
theorem inv_out (c : Dev nD) : (dats m 0 c).Φ (Fin.last cfg0.N) ⊢ Pipeline.ΦA spec0 c := by
  rw [show (dats m 0 c).Φ (Fin.last cfg0.N) = accInv m c (Fin.last cfg0.N).val (Nat.le_of_lt_succ (Fin.last cfg0.N).isLt) from rfl,
    accInv_pos m c _ _ (by rw [Fin.val_last]; have : cfg0.N = 64 := N_0; omega), regionInv_eq]
  iintro ⟨HS, Hg⟩
  isplitl [HS]
  · iexists _; iexact HS
  iexact Hg

/-! ## The run and the frame -/

set_option backward.isDefEq.respectTransparency.types false in
/-- Every weakly fair execution of the program terminates, faults nowhere, and ends with every array of the
    pipeline at what the library computes from the proof data and every other unscoped buffer as it was. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := inv_in m) (hout := inv_out m)

end Cert.Kernel.Steps

end
-- ==== Proof.IdealCases.lean ====
/-
  The reduction axis of the grid (its third coordinate k, four steps per output tile) decides what one grid point does:
  at k = 0 the accumulator is assigned the step's pair of products, at k ≠ 0 the pair is added to it, and at k = 3
  the accumulator is read back and the four output tiles are stored. This module states the three branch
  conditions as the body computes them from the coordinates, decides each over the 64 points of the grid, records
  where the output windows are idle (every point with k ≠ 3), and names the memrefs a point is called with.
-/
import proofs.«162576_j36764920053992_2_alg».proof.Proof.Gen.KernelIdeal.Frame
import proofs.«162576_j36764920053992_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions, from the grid coordinates -/

/-- The body's first branch: the reduction coordinate is 0. -/
abbrev atFirst (i : grid0.Coords) : Prop := (Scalar.cmpi .ne (Scalar.extui (Scalar.cmpi .eq (BitVec.ofNat 32 (i 2).val) 0#32)) 0#32) = 1#1
/-- The body's second branch: the reduction coordinate is not 0. -/
abbrev pastFirst (i : grid0.Coords) : Prop := (Scalar.cmpi .ne (Scalar.extui (Scalar.cmpi .ne (BitVec.ofNat 32 (i 2).val) 0#32)) 0#32) = 1#1
/-- The body's third branch: the reduction coordinate is 3, the last. -/
abbrev atLast (i : grid0.Coords) : Prop := k0_cond3 i = 1#1

/-- The reduction coordinate is the point's number modulo 4 (the reduction axis is the innermost). -/
theorem atFirst_iff : ∀ t : Fin cfg0.N, atFirst (grid0.coords t) ↔ t.val % 4 = 0 :=
  (by decide +kernel : ∀ t : Fin grid0.N, atFirst (grid0.coords t) ↔ t.val % 4 = 0)
theorem pastFirst_iff : ∀ t : Fin cfg0.N, pastFirst (grid0.coords t) ↔ ¬ t.val % 4 = 0 :=
  (by decide +kernel : ∀ t : Fin grid0.N, pastFirst (grid0.coords t) ↔ ¬ t.val % 4 = 0)
theorem atLast_iff : ∀ t : Fin cfg0.N, atLast (grid0.coords t) ↔ t.val % 4 = 3 :=
  (by decide +kernel : ∀ t : Fin grid0.N, atLast (grid0.coords t) ↔ t.val % 4 = 3)

/-! ## Where the windows are idle -/

/-- The twelve input windows are never idle. -/
theorem live_in : ∀ w : Fin 16, w.val < 12 → ∀ t : Fin cfg0.N, cfg0.idle w (grid0.coords t) = false := by decide +kernel
/-- Away from the last reduction step the four output windows are idle: nothing is stored into them, -/
theorem idle_out : ∀ w : Fin 16, 12 ≤ w.val → ∀ t : Fin cfg0.N, ¬ t.val % 4 = 3 → cfg0.idle w (grid0.coords t) = true := by decide +kernel
/-- and nothing is written back from them. -/
theorem noFlush_out : ∀ w : Fin 16, 12 ≤ w.val → ∀ t : Fin cfg0.N, ¬ t.val % 4 = 3 → (cfg0.win w).flush t = false := by decide +kernel
/-- At the last reduction step they are live. -/
theorem live_out : ∀ w : Fin 16, 12 ≤ w.val → ∀ t : Fin cfg0.N, t.val % 4 = 3 → cfg0.idle w (grid0.coords t) = false := by decide +kernel

/-! ## The memrefs a point is called with -/

abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x512x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2x1x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2x1x512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S2x1x512 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S512x512 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x512 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S2x512x512 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x512 .f32 := win0_15.stage (cfg0.slots t 15)
abbrev hs15 (t : Fin cfg0.N) : (ms15 t).IsWhole := hstage0_15 ((cfg0.slots t 15).cast nbuf0_15)

/-- The accumulator: a whole scoped buffer of the kernel's own, carried from one grid point to the next. -/
abbrev accM : Memref sig .tc .vmem S512x512 .f32 := Memref.whole cc0_scratch0
/-- The view through which the accumulator's contents are stated. -/
abbrev accV : View sig .tc .vmem S512x512 .f32 := accM.view
/-- One staging buffer of each output window, through which what a point leaves there is stated. -/
abbrev outV12 : View sig .tc .vmem S512x512 .f32 := (Memref.whole cc0_stg12_0 : Memref sig .tc .vmem S512x512 .f32).view
abbrev outV13 : View sig .tc .vmem S512x512 .f32 := (Memref.whole cc0_stg13_0 : Memref sig .tc .vmem S512x512 .f32).view
abbrev outV14 : View sig .tc .vmem S2x512x512 .f32 := (Memref.whole cc0_stg14_0 : Memref sig .tc .vmem S2x512x512 .f32).view
abbrev outV15 : View sig .tc .vmem S512x512 .f32 := (Memref.whole cc0_stg15_0 : Memref sig .tc .vmem S512x512 .f32).view

/-- The region's class invariant with the accumulator as a memref owned at some contents. -/
theorem regionInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Steps

end
-- ==== Proof.IdealFirst.lean ====
/-
  One grid point at the first reduction step (k = 0). The body loads the step's four operand tiles, loads the
  accumulator (whatever it holds) and overwrites it whole with the step's pair of products; it touches no output
  tile. Stated on arbitrary whole memrefs: the inputs at given contents and the idle outputs at given contents are
  handed back as found, the accumulator is handed back with the pieces the body stored into it.
-/
import proofs.«162576_j36764920053992_2_alg».proof.Proof.IdealCases

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body stores into the accumulator at a first step, with the proof that the body runs to any
    continuation that accepts the inputs and the idle outputs unchanged and the accumulator with those pieces written. -/
noncomputable def runFirst (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : atFirst i) (h1 : ¬ pastFirst i) (h2 : ¬ atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) :
    { LS : List (View.Piece (Elt F) S512x512 .f32) //
      ∀ (y12 y13 : Vec F S512x512 .f32) (y14 : Vec F S2x512x512 .f32) (y15 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare y15 ∗ (∃ d, owns (c : Thread nD τ) arg19 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare y15 ∗ (∃ f, arg19.view.loc (c : Thread nD τ) ↦[arg19.view.set]{fullShare} arg19.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun y12 y13 y14 y15 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
    sl_exec (disch := first | exact h0 | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    iexists _; iexact HS

end Cert.KernelIdeal.Steps

end
-- ==== Proof.IdealMid.lean ====
/-
  One grid point at a middle reduction step (k = 1 or 2). The body loads the step's four operand tiles, loads the
  accumulator as the point before left it, and stores back the accumulator plus the step's pair of products; it
  touches no output tile.
-/
import proofs.«162576_j36764920053992_2_alg».proof.Proof.IdealFirst

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body stores into the accumulator at a middle step, the accumulator found at `acc`. -/
noncomputable def runMid (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : ¬ atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) :
    { LS : List (View.Piece (Elt F) S512x512 .f32) //
      ∀ (y12 y13 : Vec F S512x512 .f32) (y14 : Vec F S2x512x512 .f32) (y15 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare y15 ∗ owns (c : Thread nD τ) arg19 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare y15 ∗ (∃ f, arg19.view.loc (c : Thread nD τ) ↦[arg19.view.set]{fullShare} arg19.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun y12 y13 y14 y15 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hfs
    sl_exec (disch := first | exact h0 | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    iexists _; iexact HS

end Cert.KernelIdeal.Steps

end
-- ==== Proof.IdealLast.lean ====
/-
  One grid point at the last reduction step (k = 3). The body adds the step's pair of products to the accumulator,
  then reads the accumulator back together with the eight tiles of the neuron state and its parameters, and stores
  the four output tiles whole: the new firing rate, the new voltage, the two new after-spike currents and the
  synaptic current (the accumulator itself).
-/
import proofs.«162576_j36764920053992_2_alg».proof.Proof.IdealMid

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The pieces the body stores into each output tile and into the accumulator at a last step, the accumulator
    found at `acc`, the output tiles at anything. -/
noncomputable def runLast (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) :
    Σ' (L12 : List (View.Piece (Elt F) S512x512 .f32)) (L13 : List (View.Piece (Elt F) S512x512 .f32)) (L14 : List (View.Piece (Elt F) S2x512x512 .f32)) (L15 : List (View.Piece (Elt F) S512x512 .f32)),
    { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg19.eq_unread hfs
    sl_exec (disch := first | exact h0 | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]; · iexists _; iexact H12
    isplitl [H13]; · iexists _; iexact H13
    isplitl [H14]; · iexists _; iexact H14
    isplitl [H15]; · iexists _; iexact H15
    iexists _; iexact HS

end Cert.KernelIdeal.Steps

end
-- ==== Proof.IdealFrame.lean ====
/-
  The whole run of the kernel's region, grid point by grid point. What the accumulator holds after a point is
  defined by recursion on the point: the step's pair of products at a first reduction step, that pair added to what
  the point before left at a later one. What the four output tiles hold after a last reduction step is what that step
  stores from the accumulator and the state tiles; at the other points the output windows are idle. With this
  as the pipeline's proof data, the region's invariant tracks the accumulator between points, every point's body
  meets its obligation by the run of its case, and the launch theorem gives the run of the program: it ends,
  faults nowhere, leaves every argument array as it was and every result array at what the proof data says.
-/
import proofs.«162576_j36764920053992_2_alg».proof.Proof.IdealLast

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a grid point -/

/-- The first-step run at point `t`, on the point's staging memrefs and input blocks. -/
noncomputable def stepFirst (c : Dev nD) (t : Fin cfg0.N) (h0 : t.val % 4 = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) accM (Memref.isWhole_whole _)
    ((atFirst_iff t).mpr h0) (fun h => (pastFirst_iff t).mp h h0) (fun h => by have := (atLast_iff t).mp h; omega)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The middle-step run at point `t`, the accumulator found at `acc`. -/
noncomputable def stepMid (c : Dev nD) (t : Fin cfg0.N) (h0 : ¬ t.val % 4 = 0) (h3 : ¬ t.val % 4 = 3) (acc : Vec F S512x512 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) accM (Memref.isWhole_whole _)
    (fun h => h0 ((atFirst_iff t).mp h)) ((pastFirst_iff t).mpr h0) (fun h => h3 ((atLast_iff t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc

/-- The last-step run at point `t`, the accumulator found at `acc`. -/
noncomputable def stepLast (c : Dev nD) (t : Fin cfg0.N) (h3 : t.val % 4 = 3) (acc : Vec F S512x512 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) accM (Memref.isWhole_whole _)
    (fun h => by have := (atFirst_iff t).mp h; omega) ((pastFirst_iff t).mpr (by omega)) ((atLast_iff t).mpr h3)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc

/-- What each case leaves in the accumulator: its stored pieces read back. -/
noncomputable def accOfFirst (c : Dev nD) (t : Fin cfg0.N) (h0 : t.val % 4 = 0) : Vec F S512x512 .f32 :=
  accV.read (Elt F) (accV.writes (Elt F) accV.junk (stepFirst m c t h0).1)
noncomputable def accOfMid (c : Dev nD) (t : Fin cfg0.N) (h0 : ¬ t.val % 4 = 0) (h3 : ¬ t.val % 4 = 3) (acc : Vec F S512x512 .f32) : Vec F S512x512 .f32 :=
  accV.read (Elt F) (accV.writes (Elt F) accV.junk (stepMid m c t h0 h3 acc).1)
noncomputable def accOfLast (c : Dev nD) (t : Fin cfg0.N) (h3 : t.val % 4 = 3) (acc : Vec F S512x512 .f32) : Vec F S512x512 .f32 :=
  accV.read (Elt F) (accV.writes (Elt F) accV.junk (stepLast m c t h3 acc).2.2.2.2.1)
/-- What the last step leaves in each output tile. -/
noncomputable def firingOfLast (c : Dev nD) (t : Fin cfg0.N) (h3 : t.val % 4 = 3) (acc : Vec F S512x512 .f32) : Vec F S512x512 .f32 :=
  outV12.read (Elt F) (outV12.writes (Elt F) outV12.junk (stepLast m c t h3 acc).1)
noncomputable def voltageOfLast (c : Dev nD) (t : Fin cfg0.N) (h3 : t.val % 4 = 3) (acc : Vec F S512x512 .f32) : Vec F S512x512 .f32 :=
  outV13.read (Elt F) (outV13.writes (Elt F) outV13.junk (stepLast m c t h3 acc).2.1)
noncomputable def currentsOfLast (c : Dev nD) (t : Fin cfg0.N) (h3 : t.val % 4 = 3) (acc : Vec F S512x512 .f32) : Vec F S2x512x512 .f32 :=
  outV14.read (Elt F) (outV14.writes (Elt F) outV14.junk (stepLast m c t h3 acc).2.2.1)
noncomputable def synapticOfLast (c : Dev nD) (t : Fin cfg0.N) (h3 : t.val % 4 = 3) (acc : Vec F S512x512 .f32) : Vec F S512x512 .f32 :=
  outV15.read (Elt F) (outV15.writes (Elt F) outV15.junk (stepLast m c t h3 acc).2.2.2.1)

/-! ## The stored pieces cover their buffers -/

theorem cover_first (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : atFirst i) (h1 : ¬ pastFirst i) (h2 : ¬ atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (y : S512x512.Idx) :
    ∃ pc ∈ (runFirst (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11).1, y ∈ pc.1.set :=
  View.cover_of_tiledL (runFirst (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11).1 S512x512.size (by sl_kernel_rfl) y
theorem cover_mid (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : ¬ atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) (y : S512x512.Idx) :
    ∃ pc ∈ (runMid (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).1, y ∈ pc.1.set :=
  View.cover_of_tiledL (runMid (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).1 S512x512.size (by sl_kernel_rfl) y
theorem cover_last_acc (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) (y : S512x512.Idx) :
    ∃ pc ∈ (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.2.2.1, y ∈ pc.1.set :=
  View.cover_of_tiledL (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.2.2.1 S512x512.size (by sl_kernel_rfl) y
theorem cover_last_firing (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) (y : S512x512.Idx) :
    ∃ pc ∈ (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).1, y ∈ pc.1.set :=
  View.cover_of_tiledL (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).1 S512x512.size (by sl_kernel_rfl) y
theorem cover_last_voltage (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) (y : S512x512.Idx) :
    ∃ pc ∈ (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.1, y ∈ pc.1.set :=
  View.cover_of_tiledL (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.1 S512x512.size (by sl_kernel_rfl) y
theorem cover_last_currents (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) (y : S2x512x512.Idx) :
    ∃ pc ∈ (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.1, y ∈ pc.1.set :=
  View.cover_of_tiledL (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.1 S2x512x512.size (by sl_kernel_rfl) y
theorem cover_last_synaptic (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) (y : S512x512.Idx) :
    ∃ pc ∈ (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.2.1, y ∈ pc.1.set :=
  View.cover_of_tiledL (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.2.1 S512x512.size (by sl_kernel_rfl) y

/-! ## What the buffers hold after each point -/

/-- After the body at position `n`: the four output tiles (junk while their windows are idle) and the accumulator. -/
noncomputable def stateAfter (c : Dev nD) : (n : ℕ) → n < cfg0.N → Vec F S512x512 .f32 × Vec F S512x512 .f32 × Vec F S2x512x512 .f32 × Vec F S512x512 .f32 × Vec F S512x512 .f32
  | 0, hn => (outV12.read (Elt F) outV12.junk, outV13.read (Elt F) outV13.junk, outV14.read (Elt F) outV14.junk, outV15.read (Elt F) outV15.junk, accOfFirst m c ⟨0, hn⟩ (Nat.zero_mod _))
  | n + 1, hn =>
    if h0 : (n + 1) % 4 = 0 then
      (outV12.read (Elt F) outV12.junk, outV13.read (Elt F) outV13.junk, outV14.read (Elt F) outV14.junk, outV15.read (Elt F) outV15.junk, accOfFirst m c ⟨n + 1, hn⟩ h0)
    else
      if h3 : (n + 1) % 4 = 3 then
        (firingOfLast m c ⟨n + 1, hn⟩ h3 (stateAfter c n (Nat.lt_of_succ_lt hn)).2.2.2.2,
         voltageOfLast m c ⟨n + 1, hn⟩ h3 (stateAfter c n (Nat.lt_of_succ_lt hn)).2.2.2.2,
         currentsOfLast m c ⟨n + 1, hn⟩ h3 (stateAfter c n (Nat.lt_of_succ_lt hn)).2.2.2.2,
         synapticOfLast m c ⟨n + 1, hn⟩ h3 (stateAfter c n (Nat.lt_of_succ_lt hn)).2.2.2.2,
         accOfLast m c ⟨n + 1, hn⟩ h3 (stateAfter c n (Nat.lt_of_succ_lt hn)).2.2.2.2)
      else
        (outV12.read (Elt F) outV12.junk, outV13.read (Elt F) outV13.junk, outV14.read (Elt F) outV14.junk, outV15.read (Elt F) outV15.junk, accOfMid m c ⟨n + 1, hn⟩ h0 h3 (stateAfter c n (Nat.lt_of_succ_lt hn)).2.2.2.2)

/-- The accumulator as the point before `t` left it. -/
noncomputable abbrev accBefore (c : Dev nD) (t : Fin cfg0.N) : Vec F S512x512 .f32 :=
  (stateAfter m c (t.val - 1) (Nat.lt_of_le_of_lt (Nat.sub_le _ _) t.isLt)).2.2.2.2

theorem stateAfter_first (c : Dev nD) (t : Fin cfg0.N) (h0 : t.val % 4 = 0) :
    stateAfter m c t.val t.isLt = (outV12.read (Elt F) outV12.junk, outV13.read (Elt F) outV13.junk, outV14.read (Elt F) outV14.junk, outV15.read (Elt F) outV15.junk, accOfFirst m c t h0) := by
  obtain ⟨n, hn⟩ := t
  cases n with
  | zero => exact rfl
  | succ n => exact (dif_pos h0).trans rfl

theorem stateAfter_mid (c : Dev nD) (t : Fin cfg0.N) (h0 : ¬ t.val % 4 = 0) (h3 : ¬ t.val % 4 = 3) :
    stateAfter m c t.val t.isLt = (outV12.read (Elt F) outV12.junk, outV13.read (Elt F) outV13.junk, outV14.read (Elt F) outV14.junk, outV15.read (Elt F) outV15.junk, accOfMid m c t h0 h3 (accBefore m c t)) := by
  obtain ⟨n, hn⟩ := t
  cases n with
  | zero => exact (by exfalso; (try dsimp only at h0); exact absurd (Nat.zero_mod _) h0)
  | succ n => exact (dif_neg h0).trans ((dif_neg h3).trans rfl)

theorem stateAfter_last (c : Dev nD) (t : Fin cfg0.N) (h3 : t.val % 4 = 3) :
    stateAfter m c t.val t.isLt = (firingOfLast m c t h3 (accBefore m c t), voltageOfLast m c t h3 (accBefore m c t),
      currentsOfLast m c t h3 (accBefore m c t), synapticOfLast m c t h3 (accBefore m c t), accOfLast m c t h3 (accBefore m c t)) := by
  obtain ⟨n, hn⟩ := t
  cases n with
  | zero => exact (by exfalso; (try dsimp only at h3); omega)
  | succ n => exact (dif_neg (by (try dsimp only at h3); omega)).trans ((dif_pos h3).trans rfl)

/-! ## The region's invariant, tracking the accumulator -/

/-- Before position `n`: at the start the class's invariant (the accumulator at anything); afterwards the
    accumulator at what the point before left, and the generator register at some state. -/
def accInv (c : Dev nD) : (n : ℕ) → n ≤ cfg0.N → sProp 𝕄
  | 0, _ => Pipeline.ΦA spec0 c
  | n + 1, hn => iprop(iprop(owns (c : Thread nD τ) accM fullShare ((stateAfter m c n hn).2.2.2.2)) ∗ (∃ r, prngReg c r))

theorem accInv_zero (c : Dev nD) (n : ℕ) (h : n ≤ cfg0.N) (hz : n = 0) : accInv m c n h = Pipeline.ΦA spec0 c := by
  subst hz; rfl
theorem accInv_succ (c : Dev nD) (n : ℕ) (hn : n < cfg0.N) :
    accInv m c (n + 1) hn = iprop(iprop(owns (c : Thread nD τ) accM fullShare ((stateAfter m c n hn).2.2.2.2)) ∗ (∃ r, prngReg c r)) := rfl
theorem accInv_pos (c : Dev nD) (n : ℕ) (h : n ≤ cfg0.N) (hz : n ≠ 0) :
    accInv m c n h = iprop(iprop(owns (c : Thread nD τ) accM fullShare ((stateAfter m c (n - 1) (by omega)).2.2.2.2)) ∗ (∃ r, prngReg c r)) := by
  cases n with
  | zero => exact absurd rfl hz
  | succ n => rfl

/-! ## The pipeline's proof data -/

/-- The arrays as the region finds them; after the body at point `t` each input's buffer at its block and each
    output's at `stateAfter`'s component; the invariant `accInv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (stateAfter m c t.val t.isLt).1
    | ⟨13, _⟩ => (stateAfter m c t.val t.isLt).2.1
    | ⟨14, _⟩ => (stateAfter m c t.val t.isLt).2.2.1
    | ⟨15, _⟩ => (stateAfter m c t.val t.isLt).2.2.2.1
    | ⟨_ + 16, h⟩ => absurd h (Nat.not_lt.2 (Nat.le_add_left _ _))
  Φ t := accInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem accInv_castSucc (c : Dev nD) (t : Fin cfg0.N) :
    (dats m 0 c).Φ t.castSucc = accInv m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_in9 (c : Dev nD) (t : Fin cfg0.N) : (dats m 0 c).after 9 t = iblk m c 9 t := by dsimp only [dats]
theorem after_in10 (c : Dev nD) (t : Fin cfg0.N) : (dats m 0 c).after 10 t = iblk m c 10 t := by dsimp only [dats]
theorem after_in11 (c : Dev nD) (t : Fin cfg0.N) : (dats m 0 c).after 11 t = iblk m c 11 t := by dsimp only [dats]
theorem after_out12 (c : Dev nD) (t : Fin cfg0.N) : (dats m 0 c).after 12 t = (stateAfter m c t.val t.isLt).1 := by dsimp only [dats]
theorem after_out13 (c : Dev nD) (t : Fin cfg0.N) : (dats m 0 c).after 13 t = (stateAfter m c t.val t.isLt).2.1 := by dsimp only [dats]
theorem after_out14 (c : Dev nD) (t : Fin cfg0.N) : (dats m 0 c).after 14 t = (stateAfter m c t.val t.isLt).2.2.1 := by dsimp only [dats]
theorem after_out15 (c : Dev nD) (t : Fin cfg0.N) : (dats m 0 c).after 15 t = (stateAfter m c t.val t.isLt).2.2.2.1 := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d
theorem before_in6 (c : Dev nD) (t : Fin cfg0.N) (d) : (dats m 0 c).before 6 t d = iblk m c 6 t :=
  before0_6_of m (dats m 0 c) (A_eq m c 6) (after_in6 m c) t d
theorem before_in7 (c : Dev nD) (t : Fin cfg0.N) (d) : (dats m 0 c).before 7 t d = iblk m c 7 t :=
  before0_7_of m (dats m 0 c) (A_eq m c 7) (after_in7 m c) t d
theorem before_in8 (c : Dev nD) (t : Fin cfg0.N) (d) : (dats m 0 c).before 8 t d = iblk m c 8 t :=
  before0_8_of m (dats m 0 c) (A_eq m c 8) (after_in8 m c) t d
theorem before_in9 (c : Dev nD) (t : Fin cfg0.N) (d) : (dats m 0 c).before 9 t d = iblk m c 9 t :=
  before0_9_of m (dats m 0 c) (A_eq m c 9) (after_in9 m c) t d
theorem before_in10 (c : Dev nD) (t : Fin cfg0.N) (d) : (dats m 0 c).before 10 t d = iblk m c 10 t :=
  before0_10_of m (dats m 0 c) (A_eq m c 10) (after_in10 m c) t d
theorem before_in11 (c : Dev nD) (t : Fin cfg0.N) (d) : (dats m 0 c).before 11 t d = iblk m c 11 t :=
  before0_11_of m (dats m 0 c) (A_eq m c 11) (after_in11 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 16000000 in
/-- The body at any point: the inputs' buffers hold their blocks; the point's number modulo 4 says which case it is
    in; the invariant hands the body the accumulator as the point before left it (at anything at the very first
    point) and takes it back at this point's contents; the idle outputs go back as found, the live ones at what the
    last step stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9, before_in10, before_in11]
  rw [show (dats m 0 c).owesAt () t.succ = (dats m 0 c).owesAt () t.castSucc from rfl]
  rw [show (dats m 0 c).Φ t.succ = accInv m c (t.val + 1) t.isLt from rfl, accInv_succ]
  have hN : t.val < 64 := lt_of_lt_of_eq t.isLt (show cfg0.N = 64 from N_0)
  by_cases h0 : t.val % 4 = 0
  · have h3 : ¬ t.val % 4 = 3 := by omega
    rw [show (dats m 0 c).leavesExact 0 t = owns (c : Thread nD τ) (ms0 t) fullShare ((dats m 0 c).after 0 t) from by
      unfold Dat.leavesExact; rw [live_in 0 (by decide) t], after_in0]
    rw [show (dats m 0 c).leavesExact 1 t = owns (c : Thread nD τ) (ms1 t) fullShare ((dats m 0 c).after 1 t) from by
      unfold Dat.leavesExact; rw [live_in 1 (by decide) t], after_in1]
    rw [show (dats m 0 c).leavesExact 2 t = owns (c : Thread nD τ) (ms2 t) fullShare ((dats m 0 c).after 2 t) from by
      unfold Dat.leavesExact; rw [live_in 2 (by decide) t], after_in2]
    rw [show (dats m 0 c).leavesExact 3 t = owns (c : Thread nD τ) (ms3 t) fullShare ((dats m 0 c).after 3 t) from by
      unfold Dat.leavesExact; rw [live_in 3 (by decide) t], after_in3]
    rw [show (dats m 0 c).leavesExact 4 t = owns (c : Thread nD τ) (ms4 t) fullShare ((dats m 0 c).after 4 t) from by
      unfold Dat.leavesExact; rw [live_in 4 (by decide) t], after_in4]
    rw [show (dats m 0 c).leavesExact 5 t = owns (c : Thread nD τ) (ms5 t) fullShare ((dats m 0 c).after 5 t) from by
      unfold Dat.leavesExact; rw [live_in 5 (by decide) t], after_in5]
    rw [show (dats m 0 c).leavesExact 6 t = owns (c : Thread nD τ) (ms6 t) fullShare ((dats m 0 c).after 6 t) from by
      unfold Dat.leavesExact; rw [live_in 6 (by decide) t], after_in6]
    rw [show (dats m 0 c).leavesExact 7 t = owns (c : Thread nD τ) (ms7 t) fullShare ((dats m 0 c).after 7 t) from by
      unfold Dat.leavesExact; rw [live_in 7 (by decide) t], after_in7]
    rw [show (dats m 0 c).leavesExact 8 t = owns (c : Thread nD τ) (ms8 t) fullShare ((dats m 0 c).after 8 t) from by
      unfold Dat.leavesExact; rw [live_in 8 (by decide) t], after_in8]
    rw [show (dats m 0 c).leavesExact 9 t = owns (c : Thread nD τ) (ms9 t) fullShare ((dats m 0 c).after 9 t) from by
      unfold Dat.leavesExact; rw [live_in 9 (by decide) t], after_in9]
    rw [show (dats m 0 c).leavesExact 10 t = owns (c : Thread nD τ) (ms10 t) fullShare ((dats m 0 c).after 10 t) from by
      unfold Dat.leavesExact; rw [live_in 10 (by decide) t], after_in10]
    rw [show (dats m 0 c).leavesExact 11 t = owns (c : Thread nD τ) (ms11 t) fullShare ((dats m 0 c).after 11 t) from by
      unfold Dat.leavesExact; rw [live_in 11 (by decide) t], after_in11]
    rw [Dat.leavesExact_idle (dats m 0 c) 12 t (idle_out 12 (by decide) t h3) (noFlush_out 12 (by decide) t h3)]
    rw [Dat.leavesExact_idle (dats m 0 c) 13 t (idle_out 13 (by decide) t h3) (noFlush_out 13 (by decide) t h3)]
    rw [Dat.leavesExact_idle (dats m 0 c) 14 t (idle_out 14 (by decide) t h3) (noFlush_out 14 (by decide) t h3)]
    rw [Dat.leavesExact_idle (dats m 0 c) 15 t (idle_out 15 (by decide) t h3) (noFlush_out 15 (by decide) t h3)]
    rw [stateAfter_first m c t h0]
    unfold accOfFirst stepFirst; (try dsimp only)
    by_cases hz : t.val = 0
    · rw [accInv_castSucc m c t, accInv_zero m c _ _ hz, regionInv_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runFirst (F := F) c (grid0.coords t) _ _ _ _ _ _ _ _ _ _ _ _ _ _ _ _ _ _ _ _ _ _ _ _ _ _ _ _ _ _ _ _ _ _ ((atFirst_iff t).mpr h0) (fun h => (pastFirst_iff t).mp h h0) (fun h => h3 ((atLast_iff t).mp h)) _ _ _ _ _ _ _ _ _ _ _ _).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS]; · iexact HS
      iintro ⟨H0, H1, H2, H3, H4, H5, H6, H7, H8, H9, H10, H11, H12, H13, H14, H15, ⟨%es, HS⟩⟩
      isplitl [HS Hg]
      · isplitl [HS]
        · unfold owns; iexists _; isplitr
          swap; · iexact HS
          ipureintro; exact View.read_writes_of_cover _ _ _ _ _ (cover_first c _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      iexists _; iexact H15
    · rw [accInv_castSucc m c t, accInv_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runFirst (F := F) c (grid0.coords t) _ _ _ _ _ _ _ _ _ _ _ _ _ _ _ _ _ _ _ _ _ _ _ _ _ _ _ _ _ _ _ _ _ _ ((atFirst_iff t).mpr h0) (fun h => (pastFirst_iff t).mp h h0) (fun h => h3 ((atLast_iff t).mp h)) _ _ _ _ _ _ _ _ _ _ _ _).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS]; · iexists _; iexact HS
      iintro ⟨H0, H1, H2, H3, H4, H5, H6, H7, H8, H9, H10, H11, H12, H13, H14, H15, ⟨%es, HS⟩⟩
      isplitl [HS Hg]
      · isplitl [HS]
        · unfold owns; iexists _; isplitr
          swap; · iexact HS
          ipureintro; exact View.read_writes_of_cover _ _ _ _ _ (cover_first c _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      iexists _; iexact H15
  · have hz : t.val ≠ 0 := by omega
    by_cases h3 : t.val % 4 = 3
    ·
      rw [show (dats m 0 c).leavesExact 0 t = owns (c : Thread nD τ) (ms0 t) fullShare ((dats m 0 c).after 0 t) from by
        unfold Dat.leavesExact; rw [live_in 0 (by decide) t], after_in0]
      rw [show (dats m 0 c).leavesExact 1 t = owns (c : Thread nD τ) (ms1 t) fullShare ((dats m 0 c).after 1 t) from by
        unfold Dat.leavesExact; rw [live_in 1 (by decide) t], after_in1]
      rw [show (dats m 0 c).leavesExact 2 t = owns (c : Thread nD τ) (ms2 t) fullShare ((dats m 0 c).after 2 t) from by
        unfold Dat.leavesExact; rw [live_in 2 (by decide) t], after_in2]
      rw [show (dats m 0 c).leavesExact 3 t = owns (c : Thread nD τ) (ms3 t) fullShare ((dats m 0 c).after 3 t) from by
        unfold Dat.leavesExact; rw [live_in 3 (by decide) t], after_in3]
      rw [show (dats m 0 c).leavesExact 4 t = owns (c : Thread nD τ) (ms4 t) fullShare ((dats m 0 c).after 4 t) from by
        unfold Dat.leavesExact; rw [live_in 4 (by decide) t], after_in4]
      rw [show (dats m 0 c).leavesExact 5 t = owns (c : Thread nD τ) (ms5 t) fullShare ((dats m 0 c).after 5 t) from by
        unfold Dat.leavesExact; rw [live_in 5 (by decide) t], after_in5]
      rw [show (dats m 0 c).leavesExact 6 t = owns (c : Thread nD τ) (ms6 t) fullShare ((dats m 0 c).after 6 t) from by
        unfold Dat.leavesExact; rw [live_in 6 (by decide) t], after_in6]
      rw [show (dats m 0 c).leavesExact 7 t = owns (c : Thread nD τ) (ms7 t) fullShare ((dats m 0 c).after 7 t) from by
        unfold Dat.leavesExact; rw [live_in 7 (by decide) t], after_in7]
      rw [show (dats m 0 c).leavesExact 8 t = owns (c : Thread nD τ) (ms8 t) fullShare ((dats m 0 c).after 8 t) from by
        unfold Dat.leavesExact; rw [live_in 8 (by decide) t], after_in8]
      rw [show (dats m 0 c).leavesExact 9 t = owns (c : Thread nD τ) (ms9 t) fullShare ((dats m 0 c).after 9 t) from by
        unfold Dat.leavesExact; rw [live_in 9 (by decide) t], after_in9]
      rw [show (dats m 0 c).leavesExact 10 t = owns (c : Thread nD τ) (ms10 t) fullShare ((dats m 0 c).after 10 t) from by
        unfold Dat.leavesExact; rw [live_in 10 (by decide) t], after_in10]
      rw [show (dats m 0 c).leavesExact 11 t = owns (c : Thread nD τ) (ms11 t) fullShare ((dats m 0 c).after 11 t) from by
        unfold Dat.leavesExact; rw [live_in 11 (by decide) t], after_in11]
      rw [show (dats m 0 c).leavesExact 12 t = owns (c : Thread nD τ) (ms12 t) fullShare ((dats m 0 c).after 12 t) from by
        unfold Dat.leavesExact; rw [live_out 12 (by decide) t h3], after_out12]
      rw [show (dats m 0 c).leavesExact 13 t = owns (c : Thread nD τ) (ms13 t) fullShare ((dats m 0 c).after 13 t) from by
        unfold Dat.leavesExact; rw [live_out 13 (by decide) t h3], after_out13]
      rw [show (dats m 0 c).leavesExact 14 t = owns (c : Thread nD τ) (ms14 t) fullShare ((dats m 0 c).after 14 t) from by
        unfold Dat.leavesExact; rw [live_out 14 (by decide) t h3], after_out14]
      rw [show (dats m 0 c).leavesExact 15 t = owns (c : Thread nD τ) (ms15 t) fullShare ((dats m 0 c).after 15 t) from by
        unfold Dat.leavesExact; rw [live_out 15 (by decide) t h3], after_out15]
      rw [stateAfter_last m c t h3]
      unfold firingOfLast voltageOfLast currentsOfLast synapticOfLast accOfLast stepLast; (try dsimp only)
      rw [accInv_castSucc m c t, accInv_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runLast (F := F) c (grid0.coords t) _ _ _ _ _ _ _ _ _ _ _ _ _ _ _ _ _ _ _ _ _ _ _ _ _ _ _ _ _ _ _ _ _ _ (fun h => h0 ((atFirst_iff t).mp h)) ((pastFirst_iff t).mpr h0) ((atLast_iff t).mpr h3) _ _ _ _ _ _ _ _ _ _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [HS]; · iexact HS
      iintro ⟨H0, H1, H2, H3, H4, H5, H6, H7, H8, H9, H10, H11, ⟨%e12, H12⟩, ⟨%e13, H13⟩, ⟨%e14, H14⟩, ⟨%e15, H15⟩, ⟨%es, HS⟩⟩
      isplitl [HS Hg]
      · isplitl [HS]
        · unfold owns; iexists _; isplitr
          swap; · iexact HS
          ipureintro; exact View.read_writes_of_cover _ _ _ _ _ (cover_last_acc c _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover_last_firing c _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover_last_voltage c _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover_last_currents c _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H15
      ipureintro; exact View.read_writes_of_cover _ _ _ _ _ (cover_last_synaptic c _ _ _ _ _ _ _ _ _ _ _ _ _ _ _ _ _ _ _ _ _ _ _ _ _ _ _ _ _ _ _ _ _ _ _ _ _ _ _ _ _ _ _ _ _ _ _ _ _ _ _)
    ·
      rw [show (dats m 0 c).leavesExact 0 t = owns (c : Thread nD τ) (ms0 t) fullShare ((dats m 0 c).after 0 t) from by
        unfold Dat.leavesExact; rw [live_in 0 (by decide) t], after_in0]
      rw [show (dats m 0 c).leavesExact 1 t = owns (c : Thread nD τ) (ms1 t) fullShare ((dats m 0 c).after 1 t) from by
        unfold Dat.leavesExact; rw [live_in 1 (by decide) t], after_in1]
      rw [show (dats m 0 c).leavesExact 2 t = owns (c : Thread nD τ) (ms2 t) fullShare ((dats m 0 c).after 2 t) from by
        unfold Dat.leavesExact; rw [live_in 2 (by decide) t], after_in2]
      rw [show (dats m 0 c).leavesExact 3 t = owns (c : Thread nD τ) (ms3 t) fullShare ((dats m 0 c).after 3 t) from by
        unfold Dat.leavesExact; rw [live_in 3 (by decide) t], after_in3]
      rw [show (dats m 0 c).leavesExact 4 t = owns (c : Thread nD τ) (ms4 t) fullShare ((dats m 0 c).after 4 t) from by
        unfold Dat.leavesExact; rw [live_in 4 (by decide) t], after_in4]
      rw [show (dats m 0 c).leavesExact 5 t = owns (c : Thread nD τ) (ms5 t) fullShare ((dats m 0 c).after 5 t) from by
        unfold Dat.leavesExact; rw [live_in 5 (by decide) t], after_in5]
      rw [show (dats m 0 c).leavesExact 6 t = owns (c : Thread nD τ) (ms6 t) fullShare ((dats m 0 c).after 6 t) from by
        unfold Dat.leavesExact; rw [live_in 6 (by decide) t], after_in6]
      rw [show (dats m 0 c).leavesExact 7 t = owns (c : Thread nD τ) (ms7 t) fullShare ((dats m 0 c).after 7 t) from by
        unfold Dat.leavesExact; rw [live_in 7 (by decide) t], after_in7]
      rw [show (dats m 0 c).leavesExact 8 t = owns (c : Thread nD τ) (ms8 t) fullShare ((dats m 0 c).after 8 t) from by
        unfold Dat.leavesExact; rw [live_in 8 (by decide) t], after_in8]
      rw [show (dats m 0 c).leavesExact 9 t = owns (c : Thread nD τ) (ms9 t) fullShare ((dats m 0 c).after 9 t) from by
        unfold Dat.leavesExact; rw [live_in 9 (by decide) t], after_in9]
      rw [show (dats m 0 c).leavesExact 10 t = owns (c : Thread nD τ) (ms10 t) fullShare ((dats m 0 c).after 10 t) from by
        unfold Dat.leavesExact; rw [live_in 10 (by decide) t], after_in10]
      rw [show (dats m 0 c).leavesExact 11 t = owns (c : Thread nD τ) (ms11 t) fullShare ((dats m 0 c).after 11 t) from by
        unfold Dat.leavesExact; rw [live_in 11 (by decide) t], after_in11]
      rw [Dat.leavesExact_idle (dats m 0 c) 12 t (idle_out 12 (by decide) t h3) (noFlush_out 12 (by decide) t h3)]
      rw [Dat.leavesExact_idle (dats m 0 c) 13 t (idle_out 13 (by decide) t h3) (noFlush_out 13 (by decide) t h3)]
      rw [Dat.leavesExact_idle (dats m 0 c) 14 t (idle_out 14 (by decide) t h3) (noFlush_out 14 (by decide) t h3)]
      rw [Dat.leavesExact_idle (dats m 0 c) 15 t (idle_out 15 (by decide) t h3) (noFlush_out 15 (by decide) t h3)]
      rw [stateAfter_mid m c t h0 h3]
      unfold accOfMid stepMid; (try dsimp only)
      rw [accInv_castSucc m c t, accInv_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runMid (F := F) c (grid0.coords t) _ _ _ _ _ _ _ _ _ _ _ _ _ _ _ _ _ _ _ _ _ _ _ _ _ _ _ _ _ _ _ _ _ _ (fun h => h0 ((atFirst_iff t).mp h)) ((pastFirst_iff t).mpr h0) (fun h => h3 ((atLast_iff t).mp h)) _ _ _ _ _ _ _ _ _ _ _ _ _).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS]; · iexact HS
      iintro ⟨H0, H1, H2, H3, H4, H5, H6, H7, H8, H9, H10, H11, H12, H13, H14, H15, ⟨%es, HS⟩⟩
      isplitl [HS Hg]
      · isplitl [HS]
        · unfold owns; iexists _; isplitr
          swap; · iexact HS
          ipureintro; exact View.read_writes_of_cover _ _ _ _ _ (cover_mid c _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      iexists _; iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = accInv m c 0 (Nat.zero_le _) from rfl, accInv_zero m c 0 _ rfl]
  try exact Idealize.SL.BI.Entails.refl _

/-- After the last point the invariant gives the class's back: the accumulator's contents are forgotten. -/
theorem inv_out (c : Dev nD) : (dats m 0 c).Φ (Fin.last cfg0.N) ⊢ Pipeline.ΦA spec0 c := by
  rw [show (dats m 0 c).Φ (Fin.last cfg0.N) = accInv m c (Fin.last cfg0.N).val (Nat.le_of_lt_succ (Fin.last cfg0.N).isLt) from rfl,
    accInv_pos m c _ _ (by rw [Fin.val_last]; have : cfg0.N = 64 := N_0; omega), regionInv_eq]
  iintro ⟨HS, Hg⟩
  isplitl [HS]
  · iexists _; iexact HS
  iexact Hg

/-! ## The run and the frame -/

set_option backward.isDefEq.respectTransparency.types false in
/-- Every weakly fair execution of the program terminates, faults nowhere, and ends with every array of the
    pipeline at what the library computes from the proof data and every other unscoped buffer as it was. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := inv_in m) (hout := inv_out m)

end Cert.KernelIdeal.Steps

end
-- ==== Proof.IdealPieces.lean ====
/-
  What each case of a grid point leaves in its buffers, as values. Every store of the body overwrites its whole
  buffer, so what a buffer holds afterwards is the payload of its one store, a function of the tiles the body
  loaded: at a first step the accumulator is the step's pair of products, at a later step that pair added to what the
  accumulator held; at a last step the body reads the accumulator back after storing it, so the four output tiles
  are functions of the updated accumulator and of the state and parameter tiles.
-/
import proofs.«162576_j36764920053992_2_alg».proof.Proof.IdealFrame
import Idealize.ShloMosaic.Lib.Pipeline.Value

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A first step leaves the step's pair of products in the accumulator. -/
theorem first_acc (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : atFirst i) (h1 : ¬ pastFirst i) (h2 : ¬ atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) :
    accV.read (Elt F) (accV.writes (Elt F) accV.junk (runFirst (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11).1) = k0_pay2 x0 x1 x2 x3 := by
  rw [View.read_writes_eq_canon _ _ _ (cover_first c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11)]
  unfold runFirst
  dsimp only
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz2, View.ld_unit_zero (S := S1x512) hz2, View.ld_unit_zero (S := S2x512x512) hz3, View.ld_unit_zero (S := S2x1x512) hz3]

/-- A middle step leaves the accumulator plus the step's pair of products. -/
theorem mid_acc (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : ¬ atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) :
    accV.read (Elt F) (accV.writes (Elt F) accV.junk (runMid (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).1) = k0_pay3 x0 x1 x2 x3 acc := by
  rw [View.read_writes_eq_canon _ _ _ (cover_mid c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc)]
  unfold runMid
  dsimp only
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz2, View.ld_unit_zero (S := S1x512) hz2, View.ld_unit_zero (S := S2x512x512) hz3, View.ld_unit_zero (S := S2x1x512) hz3]

/-- A last step leaves the accumulator plus the step's pair of products in the accumulator, -/
theorem last_acc (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) :
    accV.read (Elt F) (accV.writes (Elt F) accV.junk (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.2.2.1) = k0_pay3 x0 x1 x2 x3 acc := by
  rw [View.read_writes_eq_canon _ _ _ (cover_last_acc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc)]
  unfold runLast
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz2, View.ld_unit_zero (S := S1x512) hz2, View.ld_unit_zero (S := S2x512x512) hz3, View.ld_unit_zero (S := S2x1x512) hz3]

/-- that same sum in the synaptic-current tile, -/
theorem last_synaptic (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) :
    outV15.read (Elt F) (outV15.writes (Elt F) outV15.junk (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.2.1) = k0_pay3 x0 x1 x2 x3 acc := by
  rw [View.read_writes_eq_canon _ _ _ (cover_last_synaptic c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc)]
  unfold runLast
  dsimp only
  sl_unfold_words
  rw [View.canon_unit_zero hz2, View.readCov_unit_zero (S := S512x512) _ hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz2, View.ld_unit_zero (S := S1x512) hz2, View.ld_unit_zero (S := S2x512x512) hz3, View.ld_unit_zero (S := S2x1x512) hz3]

/-- the new after-spike currents in their tile, -/
theorem last_currents (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) :
    outV14.read (Elt F) (outV14.writes (Elt F) outV14.junk (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.2.1) = k0_pay6 (k0_pay4 x4 x6 x10 x11) (k0_pay5 x6 x9) := by
  rw [View.read_writes_eq_canon _ _ _ (cover_last_currents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc)]
  unfold runLast
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz2, View.ld_unit_zero (S := S1x512) hz2, View.ld_unit_zero (S := S2x512x512) hz3, View.ld_unit_zero (S := S2x1x512) hz3]

/-- the new voltage in its tile, -/
theorem last_voltage (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) :
    outV13.read (Elt F) (outV13.writes (Elt F) outV13.junk (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).2.1)
      = k0_pay7 (k0_pay3 x0 x1 x2 x3 acc) x4 x5 x8 (k0_pay4 x4 x6 x10 x11) (k0_pay5 x6 x9) := by
  rw [View.read_writes_eq_canon _ _ _ (cover_last_voltage c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc)]
  unfold runLast
  dsimp only
  sl_unfold_words
  rw [View.canon_unit_zero hz2, View.readCov_unit_zero (S := S512x512) _ hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz2, View.ld_unit_zero (S := S1x512) hz2, View.ld_unit_zero (S := S2x512x512) hz3, View.ld_unit_zero (S := S2x1x512) hz3]

/-- and the new firing rate in its tile. -/
theorem last_firing (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S2x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S2x512x512 .f32) (harg17 : arg17.IsWhole) (arg18 : Memref sig .tc .vmem S512x512 .f32) (harg18 : arg18.IsWhole) (arg19 : Memref sig .tc .vmem S512x512 .f32) (harg19 : arg19.IsWhole)
    (h0 : ¬ atFirst i) (h1 : pastFirst i) (h2 : atLast i) (x0 : Vec F S512x512 .f32) (x1 : Vec F S512x512 .f32) (x2 : Vec F S512x512 .f32) (x3 : Vec F S512x512 .f32) (x4 : Vec F S512x512 .f32) (x5 : Vec F S512x512 .f32) (x6 : Vec F S2x512x512 .f32) (x7 : Vec F S1x512 .f32) (x8 : Vec F S1x512 .f32) (x9 : Vec F S2x1x512 .f32) (x10 : Vec F S2x1x512 .f32) (x11 : Vec F S2x1x512 .f32) (acc : Vec F S512x512 .f32) :
    outV12.read (Elt F) (outV12.writes (Elt F) outV12.junk (runLast (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc).1)
      = k0_pay8 (k0_pay3 x0 x1 x2 x3 acc) x4 x5 x7 x8 (k0_pay4 x4 x6 x10 x11) (k0_pay5 x6 x9) := by
  rw [View.read_writes_eq_canon _ _ _ (cover_last_firing c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 x0 x1 x2 x3 x4 x5 x6 x7 x8 x9 x10 x11 acc)]
  unfold runLast
  dsimp only
  sl_unfold_words
  rw [View.canon_unit_zero hz2, View.readCov_unit_zero (S := S512x512) _ hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz2, View.ld_unit_zero (S := S1x512) hz2, View.ld_unit_zero (S := S2x512x512) hz3, View.ld_unit_zero (S := S2x1x512) hz3]

variable (m : (ℓ : Loc nD τ sig) → Buf (Elt F) ℓ)

/-! ## The same at a grid point, over the point's tiles -/

theorem accOfFirst_eq (c : Dev nD) (t : Fin cfg0.N) (h0 : t.val % 4 = 0) :
    accOfFirst m c t h0 = k0_pay2 (iblk m c 0 t) (iblk m c 1 t) (iblk m c 2 t) (iblk m c 3 t) := by
  unfold accOfFirst stepFirst
  exact first_acc (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) accM (Memref.isWhole_whole _) ((atFirst_iff t).mpr h0) (fun h => (pastFirst_iff t).mp h h0) (fun h => by have := (atLast_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
theorem accOfMid_eq (c : Dev nD) (t : Fin cfg0.N) (h0 : ¬ t.val % 4 = 0) (h3 : ¬ t.val % 4 = 3) (acc : Vec F S512x512 .f32) :
    accOfMid m c t h0 h3 acc = k0_pay3 (iblk m c 0 t) (iblk m c 1 t) (iblk m c 2 t) (iblk m c 3 t) acc := by
  unfold accOfMid stepMid
  exact mid_acc (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) accM (Memref.isWhole_whole _) (fun h => h0 ((atFirst_iff t).mp h)) ((pastFirst_iff t).mpr h0) (fun h => h3 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc
theorem synapticOfLast_eq (c : Dev nD) (t : Fin cfg0.N) (h3 : t.val % 4 = 3) (acc : Vec F S512x512 .f32) :
    synapticOfLast m c t h3 acc = k0_pay3 (iblk m c 0 t) (iblk m c 1 t) (iblk m c 2 t) (iblk m c 3 t) acc := by
  unfold synapticOfLast stepLast
  exact last_synaptic (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) accM (Memref.isWhole_whole _) (fun h => by have := (atFirst_iff t).mp h; omega) ((pastFirst_iff t).mpr (by omega)) ((atLast_iff t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc
theorem currentsOfLast_eq (c : Dev nD) (t : Fin cfg0.N) (h3 : t.val % 4 = 3) (acc : Vec F S512x512 .f32) :
    currentsOfLast m c t h3 acc = k0_pay6 (k0_pay4 (iblk m c 4 t) (iblk m c 6 t) (iblk m c 10 t) (iblk m c 11 t)) (k0_pay5 (iblk m c 6 t) (iblk m c 9 t)) := by
  unfold currentsOfLast stepLast
  exact last_currents (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) accM (Memref.isWhole_whole _) (fun h => by have := (atFirst_iff t).mp h; omega) ((pastFirst_iff t).mpr (by omega)) ((atLast_iff t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc
theorem voltageOfLast_eq (c : Dev nD) (t : Fin cfg0.N) (h3 : t.val % 4 = 3) (acc : Vec F S512x512 .f32) :
    voltageOfLast m c t h3 acc = k0_pay7 (k0_pay3 (iblk m c 0 t) (iblk m c 1 t) (iblk m c 2 t) (iblk m c 3 t) acc) (iblk m c 4 t) (iblk m c 5 t) (iblk m c 8 t)
      (k0_pay4 (iblk m c 4 t) (iblk m c 6 t) (iblk m c 10 t) (iblk m c 11 t)) (k0_pay5 (iblk m c 6 t) (iblk m c 9 t)) := by
  unfold voltageOfLast stepLast
  exact last_voltage (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) accM (Memref.isWhole_whole _) (fun h => by have := (atFirst_iff t).mp h; omega) ((pastFirst_iff t).mpr (by omega)) ((atLast_iff t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc
theorem firingOfLast_eq (c : Dev nD) (t : Fin cfg0.N) (h3 : t.val % 4 = 3) (acc : Vec F S512x512 .f32) :
    firingOfLast m c t h3 acc = k0_pay8 (k0_pay3 (iblk m c 0 t) (iblk m c 1 t) (iblk m c 2 t) (iblk m c 3 t) acc) (iblk m c 4 t) (iblk m c 5 t) (iblk m c 7 t) (iblk m c 8 t)
      (k0_pay4 (iblk m c 4 t) (iblk m c 6 t) (iblk m c 10 t) (iblk m c 11 t)) (k0_pay5 (iblk m c 6 t) (iblk m c 9 t)) := by
  unfold firingOfLast stepLast
  exact last_firing (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) accM (Memref.isWhole_whole _) (fun h => by have := (atFirst_iff t).mp h; omega) ((pastFirst_iff t).mpr (by omega)) ((atLast_iff t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc

end Cert.KernelIdeal.Steps

end
-- ==== Proof.LifSpec.lean ====
/-
  One step of a layer of leaky integrate-and-fire neurons with after-spike currents, as functions on the extended
  reals, element by element and generic in the extents [M, N] of the layer's state.

  * The synaptic current of neuron (r, c) is the input row r against column c of the input weights plus the delayed
    firing row r against column c of the lateral weights: two sums over the contracted axis.
  * Each of the two after-spike currents decays by the factor 1 - dt * (σ(k_j) / dt) and jumps, when the neuron
    fires, by the current scaled by 1 - 2 σ(r_j) plus the amplitude a_j (σ the logistic function).
  * The voltage gains the synaptic current and dt * (σ(k_m) / dt) * R times the summed currents plus the bias I0,
    leaks by the factor 1 - dt * (σ(k_m) / dt), and is reset in proportion to the firing rate.
  * The new firing rate is the logistic of the voltage above threshold.

  The numerals are kept as the f32 words the programs spell (1, 2, dt = 0.05, R = 0.1, I0 = 0.7, 0): both programs
  carry the same words, so none is ever evaluated.
-/
import Idealize.ShloMosaic.PureOps.Ideal
import Idealize.ShloMosaic.Lib.ValueIdx

noncomputable section

open scoped BigOperators

namespace Cert.Lif

open Idealize.ShloMosaic Idealize.ShloMosaic.ValueIdx

/-- The words of the constants: one, two, the time step (also the time constant), the resistance, the bias, zero. -/
abbrev one : EReal := Ideal.ofBits .f32 0x3F800000#32
abbrev two : EReal := Ideal.ofBits .f32 0x40000000#32
abbrev dt : EReal := Ideal.ofBits .f32 0x3D4CCCCD#32
abbrev res : EReal := Ideal.ofBits .f32 0x3DCCCCCD#32
abbrev bias : EReal := Ideal.ofBits .f32 0x3F333333#32
abbrev zero : EReal := Ideal.ofBits .f32 0x00000000#32

/-- One after-spike current after the step: `a` the current, `rj`, `aj`, `kj` its parameters, `f` the firing rate. -/
def ascStep (a rj aj f kj : EReal) : EReal :=
  ((a * (one - two * Ideal.logistic rj) + aj) * f) * one + (one - dt * Ideal.div (Ideal.logistic kj) dt) * a

/-- The voltage after the step: `syn` the synaptic current, `s` the summed new after-spike currents, `km` the
    membrane parameter, `v` the voltage, `f` the firing rate. -/
def voltStep (syn s km v f : EReal) : EReal :=
  ((syn + ((dt * Ideal.div (Ideal.logistic km) dt) * res) * (s + bias)) + (one - dt * Ideal.div (Ideal.logistic km) dt) * v)
    - (one * f) * (v - zero)

/-- The firing rate after the step: the logistic of the new voltage above the threshold. -/
def fireStep (vnew th : EReal) : EReal := Ideal.logistic (Ideal.div (vnew - th) one)

variable {M N K : ℕ}

/-- The coordinates of an index of a rank-2 or rank-3 array, as numbers below the extents. -/
abbrev row2 {n0 n1 : ℕ} (i : (⟨2, ![n0, n1]⟩ : Shape).Idx) : Fin n0 := ⟨(i 0).val, (i 0).isLt⟩
abbrev col2 {n0 n1 : ℕ} (i : (⟨2, ![n0, n1]⟩ : Shape).Idx) : Fin n1 := ⟨(i 1).val, (i 1).isLt⟩
abbrev lead3 {n0 n1 n2 : ℕ} (i : (⟨3, ![n0, n1, n2]⟩ : Shape).Idx) : Fin n0 := ⟨(i 0).val, (i 0).isLt⟩
abbrev row3 {n0 n1 n2 : ℕ} (i : (⟨3, ![n0, n1, n2]⟩ : Shape).Idx) : Fin n1 := ⟨(i 1).val, (i 1).isLt⟩
abbrev col3 {n0 n1 n2 : ℕ} (i : (⟨3, ![n0, n1, n2]⟩ : Shape).Idx) : Fin n2 := ⟨(i 2).val, (i 2).isLt⟩

/-- The synaptic current of neuron (r, c): two matrix products added. -/
def synAt (X : (⟨2, ![M, K]⟩ : Shape).Idx → EReal) (WIV : (⟨2, ![K, N]⟩ : Shape).Idx → EReal)
    (FD : (⟨2, ![M, K]⟩ : Shape).Idx → EReal) (WLAT : (⟨2, ![K, N]⟩ : Shape).Idx → EReal) (r : Fin M) (c : Fin N) : EReal :=
  (∑ k : Fin K, X (ix2 r k) * WIV (ix2 k c)) + ∑ k : Fin K, FD (ix2 r k) * WLAT (ix2 k c)

/-- After-spike current `a` of neuron (r, c) after the step: the parameters are rows [2, 1, N] shared by the M batch rows. -/
def ascAt (ASC : (⟨3, ![2, M, N]⟩ : Shape).Idx → EReal) (RJ AJ KJ : (⟨3, ![2, 1, N]⟩ : Shape).Idx → EReal)
    (FIR : (⟨2, ![M, N]⟩ : Shape).Idx → EReal) (a : Fin 2) (r : Fin M) (c : Fin N) : EReal :=
  ascStep (ASC (ix3 a r c)) (RJ (ix3 a (0 : Fin 1) c)) (AJ (ix3 a (0 : Fin 1) c)) (FIR (ix2 r c)) (KJ (ix3 a (0 : Fin 1) c))

/-- The voltage of neuron (r, c) after the step, from the layer's synaptic currents `SYN` and new after-spike currents `ASCN`. -/
def voltAt (SYN : (⟨2, ![M, N]⟩ : Shape).Idx → EReal) (ASCN : (⟨3, ![2, M, N]⟩ : Shape).Idx → EReal)
    (KM : (⟨2, ![1, N]⟩ : Shape).Idx → EReal) (VOL FIR : (⟨2, ![M, N]⟩ : Shape).Idx → EReal) (r : Fin M) (c : Fin N) : EReal :=
  voltStep (SYN (ix2 r c)) (∑ a : Fin 2, ASCN (ix3 a r c)) (KM (ix2 (0 : Fin 1) c)) (VOL (ix2 r c)) (FIR (ix2 r c))

/-- The firing rate of neuron (r, c) after the step, from the layer's new voltages `VN`. -/
def fireAt (VN : (⟨2, ![M, N]⟩ : Shape).Idx → EReal) (TH : (⟨2, ![1, N]⟩ : Shape).Idx → EReal) (r : Fin M) (c : Fin N) : EReal :=
  fireStep (VN (ix2 r c)) (TH (ix2 (0 : Fin 1) c))

/-- The same as arrays. -/
def synOf (X : (⟨2, ![M, K]⟩ : Shape).Idx → EReal) (WIV : (⟨2, ![K, N]⟩ : Shape).Idx → EReal)
    (FD : (⟨2, ![M, K]⟩ : Shape).Idx → EReal) (WLAT : (⟨2, ![K, N]⟩ : Shape).Idx → EReal) :
    (⟨2, ![M, N]⟩ : Shape).Idx → EReal := fun i => synAt X WIV FD WLAT (row2 i) (col2 i)
def ascOf (ASC : (⟨3, ![2, M, N]⟩ : Shape).Idx → EReal) (RJ AJ KJ : (⟨3, ![2, 1, N]⟩ : Shape).Idx → EReal)
    (FIR : (⟨2, ![M, N]⟩ : Shape).Idx → EReal) : (⟨3, ![2, M, N]⟩ : Shape).Idx → EReal :=
  fun i => ascAt ASC RJ AJ KJ FIR (lead3 i) (row3 i) (col3 i)
def voltOf (SYN : (⟨2, ![M, N]⟩ : Shape).Idx → EReal) (ASCN : (⟨3, ![2, M, N]⟩ : Shape).Idx → EReal)
    (KM : (⟨2, ![1, N]⟩ : Shape).Idx → EReal) (VOL FIR : (⟨2, ![M, N]⟩ : Shape).Idx → EReal) :
    (⟨2, ![M, N]⟩ : Shape).Idx → EReal := fun i => voltAt SYN ASCN KM VOL FIR (row2 i) (col2 i)
def fireOf (VN : (⟨2, ![M, N]⟩ : Shape).Idx → EReal) (TH : (⟨2, ![1, N]⟩ : Shape).Idx → EReal) :
    (⟨2, ![M, N]⟩ : Shape).Idx → EReal := fun i => fireAt VN TH (row2 i) (col2 i)

theorem synOf_apply (X : (⟨2, ![M, K]⟩ : Shape).Idx → EReal) (WIV : (⟨2, ![K, N]⟩ : Shape).Idx → EReal)
    (FD : (⟨2, ![M, K]⟩ : Shape).Idx → EReal) (WLAT : (⟨2, ![K, N]⟩ : Shape).Idx → EReal) (r : Fin M) (c : Fin N) :
    synOf X WIV FD WLAT (ix2 r c) = synAt X WIV FD WLAT r c := rfl
theorem ascOf_apply (ASC : (⟨3, ![2, M, N]⟩ : Shape).Idx → EReal) (RJ AJ KJ : (⟨3, ![2, 1, N]⟩ : Shape).Idx → EReal)
    (FIR : (⟨2, ![M, N]⟩ : Shape).Idx → EReal) (a : Fin 2) (r : Fin M) (c : Fin N) :
    ascOf ASC RJ AJ KJ FIR (ix3 a r c) = ascAt ASC RJ AJ KJ FIR a r c := rfl
theorem voltOf_apply (SYN : (⟨2, ![M, N]⟩ : Shape).Idx → EReal) (ASCN : (⟨3, ![2, M, N]⟩ : Shape).Idx → EReal)
    (KM : (⟨2, ![1, N]⟩ : Shape).Idx → EReal) (VOL FIR : (⟨2, ![M, N]⟩ : Shape).Idx → EReal) (r : Fin M) (c : Fin N) :
    voltOf SYN ASCN KM VOL FIR (ix2 r c) = voltAt SYN ASCN KM VOL FIR r c := rfl
theorem fireOf_apply (VN : (⟨2, ![M, N]⟩ : Shape).Idx → EReal) (TH : (⟨2, ![1, N]⟩ : Shape).Idx → EReal) (r : Fin M) (c : Fin N) :
    fireOf VN TH (ix2 r c) = fireAt VN TH r c := rfl

end Cert.Lif

end
-- ==== Proof.LibTilePool.lean ====
/-
  Pooling a long axis tile by tile, on the extended reals (and, where cheaper, on any commutative monoid / any
  join-semilattice with a bottom).

  A sum (a supremum) over a*b positions is the sum (supremum) over the a tiles of the sum (supremum) over the b
  positions of each tile; an accumulator that starts at the first tile's value and adds (takes the maximum with) one
  further tile per step ends at the sum (supremum) over all tiles; twice an extended real is that number added to
  itself, so adding the same bias to two summands adds twice the bias to their sum; three float words.
-/
import Mathlib
import Idealize.ShloMosaic.PureOps.Ideal
import Idealize.ShloMosaic.PureOps.Ideal.Laws
import Idealize.ShloMosaic.Lib.IdealHost

noncomputable section

open scoped BigOperators

namespace Cert.TilePool

open Idealize.ShloMosaic

/-- Position l of tile k, of a tiles of b positions each, is a position below a*b. -/
theorem tile_lt {a b : ℕ} (k : Fin a) (l : Fin b) : k.val * b + l.val < a * b := by
  have hk : k.val + 1 ≤ a := k.isLt
  calc k.val * b + l.val < k.val * b + b := by have := l.isLt; omega
    _ = (k.val + 1) * b := by ring
    _ ≤ a * b := Nat.mul_le_mul_right b hk

/-- Position l of tile k, as an element of Fin (a*b). -/
def tilePos {a b : ℕ} (k : Fin a) (l : Fin b) : Fin (a * b) := ⟨k.val * b + l.val, tile_lt k l⟩

@[simp] theorem tilePos_val {a b : ℕ} (k : Fin a) (l : Fin b) : (tilePos k l).val = k.val * b + l.val := rfl

/-- Every position below a*b is position (s mod b) of tile (s div b). -/
theorem exists_tilePos {a b : ℕ} (s : Fin (a * b)) : ∃ (k : Fin a) (l : Fin b), tilePos k l = s := by
  have hb : 0 < b := by
    rcases Nat.eq_zero_or_pos b with h | h
    · exfalso
      have h1 : s.val < a * b := s.isLt
      have h2 : a * b = 0 := by rw [h, Nat.mul_zero]
      omega
    · exact h
  refine ⟨⟨s.val / b, ?_⟩, ⟨s.val % b, Nat.mod_lt _ hb⟩, ?_⟩
  · rw [Nat.div_lt_iff_lt_mul hb]; exact s.isLt
  · apply Fin.ext; simp only [tilePos_val]; exact Nat.div_add_mod' s.val b

/-- (1) A sum over a*b positions is the sum over the a tiles of the sum over each tile's b positions. -/
theorem sum_tiles {α : Type*} [AddCommMonoid α] (a b : ℕ) (f : Fin (a * b) → α) :
    ∑ s : Fin (a * b), f s = ∑ k : Fin a, ∑ l : Fin b, f (tilePos k l) := by
  rw [← Fintype.sum_prod_type', ← (finProdFinEquiv (m := a) (n := b)).sum_comp]
  apply Fintype.sum_congr
  rintro ⟨k, l⟩
  congr 1
  apply Fin.ext
  simp only [finProdFinEquiv_apply_val, tilePos_val]
  ring

/-- (2) A supremum over a*b positions is the supremum over the a tiles of the supremum over each tile's b positions. -/
theorem sup_tiles {α : Type*} [SemilatticeSup α] [OrderBot α] (a b : ℕ) (f : Fin (a * b) → α) :
    Finset.univ.sup f = Finset.univ.sup fun k : Fin a => Finset.univ.sup fun l : Fin b => f (tilePos k l) := by
  apply le_antisymm
  · apply Finset.sup_le
    intro s _
    obtain ⟨k, l, rfl⟩ := exists_tilePos s
    exact le_trans (Finset.le_sup (f := fun l : Fin b => f (tilePos k l)) (Finset.mem_univ l))
      (Finset.le_sup (f := fun k : Fin a => Finset.univ.sup fun l : Fin b => f (tilePos k l)) (Finset.mem_univ k))
  · apply Finset.sup_le
    intro k _
    apply Finset.sup_le
    intro l _
    exact Finset.le_sup (Finset.mem_univ _)

/-- (3, sums) An accumulator that starts at the first summand and adds one further summand per step ends at the sum
of all of them. -/
theorem acc_add_last {α : Type*} [AddCommMonoid α] : ∀ (n : ℕ) (g acc : Fin (n + 1) → α),
    acc 0 = g 0 → (∀ k : Fin n, acc k.succ = acc k.castSucc + g k.succ) → acc (Fin.last n) = ∑ k, g k
  | 0, g, acc, h0, _ => by
      rw [Fin.sum_univ_succ, Fin.sum_univ_zero, add_zero]
      exact h0
  | n + 1, g, acc, h0, hs => by
      have ih := acc_add_last n (fun k => g k.castSucc) (fun k => acc k.castSucc)
        (by show acc (Fin.castSucc 0) = g (Fin.castSucc 0); rw [Fin.castSucc_zero]; exact h0)
        (fun k => by
          show acc k.succ.castSucc = acc k.castSucc.castSucc + g k.succ.castSucc
          rw [← Fin.succ_castSucc]; exact hs k.castSucc)
      rw [Fin.sum_univ_castSucc, ← ih, ← Fin.succ_last, hs (Fin.last n)]

/-- (3, sums, from a starting value) An accumulator that starts at a0 and adds summand k at step k holds, after n
steps, a0 plus the first n summands. -/
theorem acc_add_range {α : Type*} [AddCommMonoid α] (a0 : α) (g acc : ℕ → α)
    (h0 : acc 0 = a0) (hs : ∀ k, acc (k + 1) = acc k + g k) (n : ℕ) :
    acc n = a0 + ∑ k ∈ Finset.range n, g k := by
  induction n with
  | zero => simpa using h0
  | succ n ih => rw [hs, ih, Finset.sum_range_succ, add_assoc]

/-- (3, maxima) An accumulator that starts at the first entry and takes the maximum with one further entry per step
ends at the supremum of all of them. -/
theorem acc_max_last {α : Type*} [SemilatticeSup α] [OrderBot α] (n : ℕ) (g acc : Fin (n + 1) → α)
    (h0 : acc 0 = g 0) (hs : ∀ k : Fin n, acc k.succ = acc k.castSucc ⊔ g k.succ) :
    acc (Fin.last n) = Finset.univ.sup g := by
  have hle : ∀ j : Fin (n + 1), acc j ≤ Finset.univ.sup g := by
    intro j
    induction j using Fin.induction with
    | zero => rw [h0]; exact Finset.le_sup (Finset.mem_univ _)
    | succ k ih => rw [hs]; exact sup_le ih (Finset.le_sup (Finset.mem_univ _))
  have hge : ∀ j k : Fin (n + 1), k ≤ j → g k ≤ acc j := by
    intro j
    induction j using Fin.induction with
    | zero =>
        intro k hk
        have : k = 0 := Fin.le_zero_iff.mp hk
        rw [this, h0]
    | succ i ih =>
        intro k hk
        rw [hs]
        rcases eq_or_lt_of_le hk with h | h
        · rw [h]; exact le_sup_right
        · exact le_trans (ih k (Fin.le_castSucc_iff.mpr h)) le_sup_left
  apply le_antisymm (hle _)
  apply Finset.sup_le
  intro k _
  exact hge _ k (Fin.le_last k)

/-- (3, eight summands) The left-nested sum of eight terms is their sum. -/
theorem add8_eq_sum {α : Type*} [AddCommMonoid α] (g : Fin 8 → α) :
    ((((((g 0 + g 1) + g 2) + g 3) + g 4) + g 5) + g 6) + g 7 = ∑ k, g k := by
  rw [Fin.sum_univ_eight]

/-- (3, eight entries) The left-nested maximum of eight entries is their supremum. -/
theorem max8_eq_sup {α : Type*} [LinearOrder α] [OrderBot α] (g : Fin 8 → α) :
    max (max (max (max (max (max (max (g 0) (g 1)) (g 2)) (g 3)) (g 4)) (g 5)) (g 6)) (g 7) = Finset.univ.sup g := by
  apply le_antisymm
  · refine max_le (max_le (max_le (max_le (max_le (max_le (max_le ?_ ?_) ?_) ?_) ?_) ?_) ?_) ?_ <;>
      exact Finset.le_sup (Finset.mem_univ _)
  · apply Finset.sup_le
    intro k _
    fin_cases k <;> simp [le_max_iff]

/-- (4) Twice an extended real is that number added to itself (also at the two infinities). -/
theorem two_mul_ereal (x : EReal) : (2 : EReal) * x = x + x := by
  induction x using EReal.rec with
  | bot => rw [EReal.mul_bot_of_pos (by norm_num)]; rfl
  | top => rw [EReal.mul_top_of_pos (by norm_num)]; rfl
  | coe r =>
      have h2 : (2 : EReal) = ((2 : ℝ) : EReal) := rfl
      rw [h2, ← EReal.coe_mul, ← EReal.coe_add, two_mul]

/-- (4) Adding the same number to two summands adds twice that number to their sum. -/
theorem add_bias_twice (A B x : EReal) : (A + x) + (B + x) = (A + B) + 2 * x := by
  rw [two_mul_ereal, add_add_add_comm]

/-- The f32 word 0x40000000 is 2. -/
theorem ofBits_two_f32 : Ideal.ofBits .f32 0x40000000#32 = (2 : EReal) := by
  rw [show (2 : EReal) = ((2 : ℝ) : EReal) from rfl]
  simp [Ideal.ofBits, Ideal.ieee, -EReal.coe_mul]; norm_num

/-- The f32 word 0x3F800000 is 1. -/
theorem ofBits_one_f32' : Ideal.ofBits .f32 0x3F800000#32 = (1 : EReal) := Ideal.ofBits_one_f32

/-- The f32 word 0x00000000 is 0. -/
theorem ofBits_zero_f32' : Ideal.ofBits .f32 0x00000000#32 = (0 : EReal) := Ideal.ofBits_zero_f32

end Cert.TilePool

end
-- ==== Proof.LifSteps.lean ====
/-
  The contraction of length 2048 taken in four steps of 512. The synaptic current of a neuron is the sum over the
  four reduction steps of the step's partial products; the kernel adds the steps in order, first to last.
-/
import Mathlib
import proofs.«162576_j36764920053992_2_alg».proof.Proof.LifSpec
import proofs.«162576_j36764920053992_2_alg».proof.Proof.LibTilePool

noncomputable section

open scoped BigOperators

namespace Cert.Lif

open Idealize.ShloMosaic Idealize.ShloMosaic.ValueIdx

/-- Coordinate `p` of tile `b` of four tiles of 512. -/
def at4 (b : Fin 4) (p : Fin 512) : Fin 2048 := ⟨b.val * 512 + p.val, by have := b.isLt; have := p.isLt; omega⟩
@[simp] theorem at4_val (b : Fin 4) (p : Fin 512) : (at4 b p).val = b.val * 512 + p.val := rfl

/-- A sum over 2048 positions is the sum over the four tiles of the sum over each tile's 512 positions. -/
theorem sum_steps (f : Fin 2048 → EReal) : ∑ s : Fin 2048, f s = ∑ k : Fin 4, ∑ l : Fin 512, f (at4 k l) :=
  (Cert.TilePool.sum_tiles 4 512 f).trans
    (Finset.sum_congr rfl fun k _ => Finset.sum_congr rfl fun l _ => congrArg f (Fin.ext rfl))

/-- Reduction step `k`'s share of the synaptic current of neuron (r, c). -/
def stepTerm (X WIV FD WLAT : (⟨2, ![2048, 2048]⟩ : Shape).Idx → EReal) (r c : Fin 2048) (k : Fin 4) : EReal :=
  (∑ l : Fin 512, X (ix2 r (at4 k l)) * WIV (ix2 (at4 k l) c)) + ∑ l : Fin 512, FD (ix2 r (at4 k l)) * WLAT (ix2 (at4 k l) c)

/-- The synaptic current is the four steps' shares added in order. -/
theorem synAt_steps (X WIV FD WLAT : (⟨2, ![2048, 2048]⟩ : Shape).Idx → EReal) (r c : Fin 2048) :
    synAt X WIV FD WLAT r c
      = ((stepTerm X WIV FD WLAT r c 0 + stepTerm X WIV FD WLAT r c 1) + stepTerm X WIV FD WLAT r c 2)
          + stepTerm X WIV FD WLAT r c 3 := by
  show (∑ k : Fin 2048, X (ix2 r k) * WIV (ix2 k c)) + ∑ k : Fin 2048, FD (ix2 r k) * WLAT (ix2 k c) = _
  rw [sum_steps, sum_steps, ← Finset.sum_add_distrib, Fin.sum_univ_four]
  rfl

end Cert.Lif

end
-- ==== Proof.IdealTiles.lean ====
/-
  Where each window's tile sits in its array. The grid is 4 x 4 x 4: a point's number t gives its batch tile t / 16,
  its hidden tile (t / 4) mod 4 and its reduction step t mod 4, and every window's index map picks among these (or the
  constant 0) per axis. A tile's entry at a coordinate inside the tile is the array's entry at tile index times 512
  plus that coordinate.
-/
import proofs.«162576_j36764920053992_2_alg».proof.Proof.Gen.KernelIdeal.Frame
import proofs.«162576_j36764920053992_2_alg».proof.Proof.LifSteps
import Idealize.ShloMosaic.Lib.Pipeline.Value
import Idealize.ShloMosaic.Lib.ValueIdx

set_option maxRecDepth 16384

noncomputable section

namespace Cert.KernelIdeal.Tiles

open Cert.KernelIdeal Cert.KernelIdeal.Gen Cert.Lif
open Idealize.ShloMosaic Idealize.ShloMosaic.TcCoe Idealize.ShloMosaic.ValueIdx Idealize.SL.Sem

variable {F : FTy → Type} [FloatOps F]

theorem point_lt (t : Fin cfg0.N) : t.val < 64 := lt_of_lt_of_eq t.isLt (show cfg0.N = 64 from N_0)

/-- The batch tile, the hidden tile and the reduction step of a point. -/
def tb (t : Fin cfg0.N) : Fin 4 := ⟨t.val / 16, by have := point_lt t; omega⟩
def th (t : Fin cfg0.N) : Fin 4 := ⟨t.val / 4 % 4, by omega⟩
def tk (t : Fin cfg0.N) : Fin 4 := ⟨t.val % 4, by omega⟩

/-! ## The windows' index maps over the grid, decided -/

theorem tileOf_0 : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem tileOf_1 : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)
theorem tileOf_2 : ∀ t : Fin cfg0.N, win0_2.index t 0 = t.val / 16 ∧ win0_2.index t 1 = t.val % 4 :=
  (by decide +kernel : ∀ t : Fin grid0.N, win0_2.index t 0 = t.val / 16 ∧ win0_2.index t 1 = t.val % 4)
theorem tileOf_3 : ∀ t : Fin cfg0.N, win0_3.index t 0 = t.val % 4 ∧ win0_3.index t 1 = t.val / 4 % 4 :=
  (by decide +kernel : ∀ t : Fin grid0.N, win0_3.index t 0 = t.val % 4 ∧ win0_3.index t 1 = t.val / 4 % 4)
theorem tileOf_4 : ∀ t : Fin cfg0.N, win0_4.index t 0 = t.val / 16 ∧ win0_4.index t 1 = t.val / 4 % 4 :=
  (by decide +kernel : ∀ t : Fin grid0.N, win0_4.index t 0 = t.val / 16 ∧ win0_4.index t 1 = t.val / 4 % 4)
theorem tileOf_5 : ∀ t : Fin cfg0.N, win0_5.index t 0 = t.val / 16 ∧ win0_5.index t 1 = t.val / 4 % 4 :=
  (by decide +kernel : ∀ t : Fin grid0.N, win0_5.index t 0 = t.val / 16 ∧ win0_5.index t 1 = t.val / 4 % 4)
theorem tileOf_6 : ∀ t : Fin cfg0.N, win0_6.index t 0 = 0 ∧ win0_6.index t 1 = t.val / 16 ∧ win0_6.index t 2 = t.val / 4 % 4 :=
  (by decide +kernel : ∀ t : Fin grid0.N, win0_6.index t 0 = 0 ∧ win0_6.index t 1 = t.val / 16 ∧ win0_6.index t 2 = t.val / 4 % 4)
theorem tileOf_7 : ∀ t : Fin cfg0.N, win0_7.index t 0 = 0 ∧ win0_7.index t 1 = t.val / 4 % 4 :=
  (by decide +kernel : ∀ t : Fin grid0.N, win0_7.index t 0 = 0 ∧ win0_7.index t 1 = t.val / 4 % 4)
theorem tileOf_8 : ∀ t : Fin cfg0.N, win0_8.index t 0 = 0 ∧ win0_8.index t 1 = t.val / 4 % 4 :=
  (by decide +kernel : ∀ t : Fin grid0.N, win0_8.index t 0 = 0 ∧ win0_8.index t 1 = t.val / 4 % 4)
theorem tileOf_9 : ∀ t : Fin cfg0.N, win0_9.index t 0 = 0 ∧ win0_9.index t 1 = 0 ∧ win0_9.index t 2 = t.val / 4 % 4 :=
  (by decide +kernel : ∀ t : Fin grid0.N, win0_9.index t 0 = 0 ∧ win0_9.index t 1 = 0 ∧ win0_9.index t 2 = t.val / 4 % 4)
theorem tileOf_10 : ∀ t : Fin cfg0.N, win0_10.index t 0 = 0 ∧ win0_10.index t 1 = 0 ∧ win0_10.index t 2 = t.val / 4 % 4 :=
  (by decide +kernel : ∀ t : Fin grid0.N, win0_10.index t 0 = 0 ∧ win0_10.index t 1 = 0 ∧ win0_10.index t 2 = t.val / 4 % 4)
theorem tileOf_11 : ∀ t : Fin cfg0.N, win0_11.index t 0 = 0 ∧ win0_11.index t 1 = 0 ∧ win0_11.index t 2 = t.val / 4 % 4 :=
  (by decide +kernel : ∀ t : Fin grid0.N, win0_11.index t 0 = 0 ∧ win0_11.index t 1 = 0 ∧ win0_11.index t 2 = t.val / 4 % 4)
theorem tileOf_12 : ∀ t : Fin cfg0.N, win0_12.index t 0 = t.val / 16 ∧ win0_12.index t 1 = t.val / 4 % 4 :=
  (by decide +kernel : ∀ t : Fin grid0.N, win0_12.index t 0 = t.val / 16 ∧ win0_12.index t 1 = t.val / 4 % 4)
theorem tileOf_13 : ∀ t : Fin cfg0.N, win0_13.index t 0 = t.val / 16 ∧ win0_13.index t 1 = t.val / 4 % 4 :=
  (by decide +kernel : ∀ t : Fin grid0.N, win0_13.index t 0 = t.val / 16 ∧ win0_13.index t 1 = t.val / 4 % 4)
theorem tileOf_14 : ∀ t : Fin cfg0.N, win0_14.index t 0 = 0 ∧ win0_14.index t 1 = t.val / 16 ∧ win0_14.index t 2 = t.val / 4 % 4 :=
  (by decide +kernel : ∀ t : Fin grid0.N, win0_14.index t 0 = 0 ∧ win0_14.index t 1 = t.val / 16 ∧ win0_14.index t 2 = t.val / 4 % 4)
theorem tileOf_15 : ∀ t : Fin cfg0.N, win0_15.index t 0 = t.val / 16 ∧ win0_15.index t 1 = t.val / 4 % 4 :=
  (by decide +kernel : ∀ t : Fin grid0.N, win0_15.index t 0 = t.val / 16 ∧ win0_15.index t 1 = t.val / 4 % 4)

variable (m : (ℓ : Loc nD τ sig) → Buf (Elt F) ℓ)

/-! ## The input tiles -/

/-- The input tile of a point: rows of the point's batch tile, columns of its reduction step. -/
theorem blk_input (c : Dev nD) (t : Fin cfg0.N) (p : Fin 512) (r : Fin 512) :
    (iblk m c 0 t : Vec F S512x512 .f32) (ix2 p r) = m ((c : Thread nD τ).loc main_arg0) (ix2 (at4 (tb t) p) (at4 (tk t) r)) := by
  unfold iblk
  rw [View.read_apply]
  show V m c main_arg0 _ = m (c.tc.loc main_arg0) _
  unfold V
  congr 1
  funext a
  apply Fin.ext
  match a with
  | ⟨0, _⟩ => show win0_0.index t 0 * 512 + 1 * p.val = t.val / 16 * 512 + p.val; rw [(tileOf_0 t).1]; omega
  | ⟨1, _⟩ => show win0_0.index t 1 * 512 + 1 * r.val = t.val % 4 * 512 + r.val; rw [(tileOf_0 t).2]; omega

/-- The input-weight tile: rows of the reduction step, columns of the hidden tile. -/
theorem blk_inputWeights (c : Dev nD) (t : Fin cfg0.N) (r : Fin 512) (q : Fin 512) :
    (iblk m c 1 t : Vec F S512x512 .f32) (ix2 r q) = m ((c : Thread nD τ).loc main_arg6) (ix2 (at4 (tk t) r) (at4 (th t) q)) := by
  unfold iblk
  rw [View.read_apply]
  show V m c main_arg6 _ = m (c.tc.loc main_arg6) _
  unfold V
  congr 1
  funext a
  apply Fin.ext
  match a with
  | ⟨0, _⟩ => show win0_1.index t 0 * 512 + 1 * r.val = t.val % 4 * 512 + r.val; rw [(tileOf_1 t).1]; omega
  | ⟨1, _⟩ => show win0_1.index t 1 * 512 + 1 * q.val = t.val / 4 % 4 * 512 + q.val; rw [(tileOf_1 t).2]; omega

/-- The delayed-firing tile. -/
theorem blk_delayed (c : Dev nD) (t : Fin cfg0.N) (p : Fin 512) (r : Fin 512) :
    (iblk m c 2 t : Vec F S512x512 .f32) (ix2 p r) = m ((c : Thread nD τ).loc main_arg5) (ix2 (at4 (tb t) p) (at4 (tk t) r)) := by
  unfold iblk
  rw [View.read_apply]
  show V m c main_arg5 _ = m (c.tc.loc main_arg5) _
  unfold V
  congr 1
  funext a
  apply Fin.ext
  match a with
  | ⟨0, _⟩ => show win0_2.index t 0 * 512 + 1 * p.val = t.val / 16 * 512 + p.val; rw [(tileOf_2 t).1]; omega
  | ⟨1, _⟩ => show win0_2.index t 1 * 512 + 1 * r.val = t.val % 4 * 512 + r.val; rw [(tileOf_2 t).2]; omega

/-- The lateral-weight tile. -/
theorem blk_lateralWeights (c : Dev nD) (t : Fin cfg0.N) (r : Fin 512) (q : Fin 512) :
    (iblk m c 3 t : Vec F S512x512 .f32) (ix2 r q) = m ((c : Thread nD τ).loc main_arg7) (ix2 (at4 (tk t) r) (at4 (th t) q)) := by
  unfold iblk
  rw [View.read_apply]
  show V m c main_arg7 _ = m (c.tc.loc main_arg7) _
  unfold V
  congr 1
  funext a
  apply Fin.ext
  match a with
  | ⟨0, _⟩ => show win0_3.index t 0 * 512 + 1 * r.val = t.val % 4 * 512 + r.val; rw [(tileOf_3 t).1]; omega
  | ⟨1, _⟩ => show win0_3.index t 1 * 512 + 1 * q.val = t.val / 4 % 4 * 512 + q.val; rw [(tileOf_3 t).2]; omega

/-- The firing-rate tile: the batch tile's rows, the hidden tile's columns. -/
theorem blk_firing (c : Dev nD) (t : Fin cfg0.N) (p : Fin 512) (q : Fin 512) :
    (iblk m c 4 t : Vec F S512x512 .f32) (ix2 p q) = m ((c : Thread nD τ).loc main_arg1) (ix2 (at4 (tb t) p) (at4 (th t) q)) := by
  unfold iblk
  rw [View.read_apply]
  show V m c main_arg1 _ = m (c.tc.loc main_arg1) _
  unfold V
  congr 1
  funext a
  apply Fin.ext
  match a with
  | ⟨0, _⟩ => show win0_4.index t 0 * 512 + 1 * p.val = t.val / 16 * 512 + p.val; rw [(tileOf_4 t).1]; omega
  | ⟨1, _⟩ => show win0_4.index t 1 * 512 + 1 * q.val = t.val / 4 % 4 * 512 + q.val; rw [(tileOf_4 t).2]; omega

/-- The voltage tile. -/
theorem blk_voltage (c : Dev nD) (t : Fin cfg0.N) (p : Fin 512) (q : Fin 512) :
    (iblk m c 5 t : Vec F S512x512 .f32) (ix2 p q) = m ((c : Thread nD τ).loc main_arg2) (ix2 (at4 (tb t) p) (at4 (th t) q)) := by
  unfold iblk
  rw [View.read_apply]
  show V m c main_arg2 _ = m (c.tc.loc main_arg2) _
  unfold V
  congr 1
  funext a
  apply Fin.ext
  match a with
  | ⟨0, _⟩ => show win0_5.index t 0 * 512 + 1 * p.val = t.val / 16 * 512 + p.val; rw [(tileOf_5 t).1]; omega
  | ⟨1, _⟩ => show win0_5.index t 1 * 512 + 1 * q.val = t.val / 4 % 4 * 512 + q.val; rw [(tileOf_5 t).2]; omega

/-- The tile of the two after-spike currents. -/
theorem blk_currents (c : Dev nD) (t : Fin cfg0.N) (j : Fin 2) (p : Fin 512) (q : Fin 512) :
    (iblk m c 6 t : Vec F S2x512x512 .f32) (ix3 j p q) = m ((c : Thread nD τ).loc main_arg3) (ix3 j (at4 (tb t) p) (at4 (th t) q)) := by
  unfold iblk
  rw [View.read_apply]
  show V m c main_arg3 _ = m (c.tc.loc main_arg3) _
  unfold V
  congr 1
  funext a
  apply Fin.ext
  match a with
  | ⟨0, _⟩ => show win0_6.index t 0 * 2 + 1 * j.val = j.val; rw [(tileOf_6 t).1]; omega
  | ⟨1, _⟩ => show win0_6.index t 1 * 512 + 1 * p.val = t.val / 16 * 512 + p.val; rw [(tileOf_6 t).2.1]; omega
  | ⟨2, _⟩ => show win0_6.index t 2 * 512 + 1 * q.val = t.val / 4 % 4 * 512 + q.val; rw [(tileOf_6 t).2.2]; omega

/-- The threshold row's tile. -/
theorem blk_thresh (c : Dev nD) (t : Fin cfg0.N) (u : Fin 1) (q : Fin 512) :
    (iblk m c 7 t : Vec F S1x512 .f32) (ix2 u q) = m ((c : Thread nD τ).loc main_arg8) (ix2 (0 : Fin 1) (at4 (th t) q)) := by
  unfold iblk
  rw [View.read_apply]
  show V m c main_arg8 _ = m (c.tc.loc main_arg8) _
  unfold V
  congr 1
  funext a
  apply Fin.ext
  match a with
  | ⟨0, _⟩ => show win0_7.index t 0 * 1 + 1 * u.val = 0; rw [(tileOf_7 t).1]; have := u.isLt; omega
  | ⟨1, _⟩ => show win0_7.index t 1 * 512 + 1 * q.val = t.val / 4 % 4 * 512 + q.val; rw [(tileOf_7 t).2]; omega

/-- The membrane parameter row's tile. -/
theorem blk_membrane (c : Dev nD) (t : Fin cfg0.N) (u : Fin 1) (q : Fin 512) :
    (iblk m c 8 t : Vec F S1x512 .f32) (ix2 u q) = m ((c : Thread nD τ).loc main_arg9) (ix2 (0 : Fin 1) (at4 (th t) q)) := by
  unfold iblk
  rw [View.read_apply]
  show V m c main_arg9 _ = m (c.tc.loc main_arg9) _
  unfold V
  congr 1
  funext a
  apply Fin.ext
  match a with
  | ⟨0, _⟩ => show win0_8.index t 0 * 1 + 1 * u.val = 0; rw [(tileOf_8 t).1]; have := u.isLt; omega
  | ⟨1, _⟩ => show win0_8.index t 1 * 512 + 1 * q.val = t.val / 4 % 4 * 512 + q.val; rw [(tileOf_8 t).2]; omega

/-- The currents' decay parameter rows' tile. -/
theorem blk_decay (c : Dev nD) (t : Fin cfg0.N) (j : Fin 2) (u : Fin 1) (q : Fin 512) :
    (iblk m c 9 t : Vec F S2x1x512 .f32) (ix3 j u q) = m ((c : Thread nD τ).loc main_arg10) (ix3 j (0 : Fin 1) (at4 (th t) q)) := by
  unfold iblk
  rw [View.read_apply]
  show V m c main_arg10 _ = m (c.tc.loc main_arg10) _
  unfold V
  congr 1
  funext a
  apply Fin.ext
  match a with
  | ⟨0, _⟩ => show win0_9.index t 0 * 2 + 1 * j.val = j.val; rw [(tileOf_9 t).1]; omega
  | ⟨1, _⟩ => show win0_9.index t 1 * 1 + 1 * u.val = 0; rw [(tileOf_9 t).2.1]; have := u.isLt; omega
  | ⟨2, _⟩ => show win0_9.index t 2 * 512 + 1 * q.val = t.val / 4 % 4 * 512 + q.val; rw [(tileOf_9 t).2.2]; omega

/-- The currents' jump-scale parameter rows' tile. -/
theorem blk_jump (c : Dev nD) (t : Fin cfg0.N) (j : Fin 2) (u : Fin 1) (q : Fin 512) :
    (iblk m c 10 t : Vec F S2x1x512 .f32) (ix3 j u q) = m ((c : Thread nD τ).loc main_arg11) (ix3 j (0 : Fin 1) (at4 (th t) q)) := by
  unfold iblk
  rw [View.read_apply]
  show V m c main_arg11 _ = m (c.tc.loc main_arg11) _
  unfold V
  congr 1
  funext a
  apply Fin.ext
  match a with
  | ⟨0, _⟩ => show win0_10.index t 0 * 2 + 1 * j.val = j.val; rw [(tileOf_10 t).1]; omega
  | ⟨1, _⟩ => show win0_10.index t 1 * 1 + 1 * u.val = 0; rw [(tileOf_10 t).2.1]; have := u.isLt; omega
  | ⟨2, _⟩ => show win0_10.index t 2 * 512 + 1 * q.val = t.val / 4 % 4 * 512 + q.val; rw [(tileOf_10 t).2.2]; omega

/-- The currents' amplitude rows' tile. -/
theorem blk_amplitude (c : Dev nD) (t : Fin cfg0.N) (j : Fin 2) (u : Fin 1) (q : Fin 512) :
    (iblk m c 11 t : Vec F S2x1x512 .f32) (ix3 j u q) = m ((c : Thread nD τ).loc main_arg12) (ix3 j (0 : Fin 1) (at4 (th t) q)) := by
  unfold iblk
  rw [View.read_apply]
  show V m c main_arg12 _ = m (c.tc.loc main_arg12) _
  unfold V
  congr 1
  funext a
  apply Fin.ext
  match a with
  | ⟨0, _⟩ => show win0_11.index t 0 * 2 + 1 * j.val = j.val; rw [(tileOf_11 t).1]; omega
  | ⟨1, _⟩ => show win0_11.index t 1 * 1 + 1 * u.val = 0; rw [(tileOf_11 t).2.1]; have := u.isLt; omega
  | ⟨2, _⟩ => show win0_11.index t 2 * 512 + 1 * q.val = t.val / 4 % 4 * 512 + q.val; rw [(tileOf_11 t).2.2]; omega

end Cert.KernelIdeal.Tiles

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«162576_j36764920053992_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.TileIsLif.lean ====
/-
  What one output tile of the kernel holds, as the layer's step on the tile's operands. At the last reduction step the
  kernel's body computes, on [512, 512] tiles (and the [2, 512, 512] tile of the two after-spike currents, with
  parameter rows [1, 512] and [2, 1, 512] broadcast down the tile's rows), exactly the specification's functions:
  the pair of matrix products is the synaptic-current tile of the step's operand tiles, the stored currents are
  `ascOf`, the stored voltage `voltOf` of the accumulated synaptic current and those currents, the stored firing
  rate `fireOf` of that voltage. At the ideal values a change of float format is the identity, a matrix product into
  a zero accumulator is the plain sum of products, and the sum over the leading axis of extent 2 is a sum of two terms.
-/
import proofs.«162576_j36764920053992_2_alg».proof.Proof.Gen.KernelIdeal.Skeleton
import proofs.«162576_j36764920053992_2_alg».proof.Proof.LifSpec
import proofs.«162576_j36764920053992_2_alg».proof.Proof.LibRowReduceProducts
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.TileLif

open Cert.KernelIdeal Cert.KernelIdeal.Gen Cert.Lif
open Idealize.ShloMosaic Idealize.ShloMosaic.ValueIdx

/-! ## Layout operations of the tile, read at an index -/

/-- A parameter row [2, 1, 512] broadcast over the 512 rows of the tile. -/
theorem paramRows_apply {α : Type} (v : S2x1x512.Idx → α) (a : Fin 2) (p q : Fin 512) :
    broadcastTo S2x512x512 v broadcasts_S2x1x512_S2x512x512 (ix3 a p q) = v (ix3 a (0 : Fin 1) q) :=
  broadcastTo_apply v broadcasts_S2x1x512_S2x512x512 (ix3 a p q) (ix3 a (0 : Fin 1) q) (fun d => match d with
    | ⟨0, _⟩ => by show a.val = if (2 : Nat) = 1 then 0 else a.val; rw [if_neg (by decide)]
    | ⟨1, _⟩ => by show 0 = if (1 : Nat) = 1 then 0 else p.val; rw [if_pos rfl]
    | ⟨2, _⟩ => by show q.val = if (512 : Nat) = 1 then 0 else q.val; rw [if_neg (by decide)])

/-- The firing-rate tile given a leading unit axis and broadcast over the two currents. -/
theorem bothCurrents_apply {α : Type} (v : S512x512.Idx → α) (a : Fin 2) (p q : Fin 512) :
    broadcastTo S2x512x512 (shapeCast S1x512x512 v shapeCasts_S512x512_S1x512x512) broadcasts_S1x512x512_S2x512x512 (ix3 a p q)
      = v (ix2 p q) :=
  (broadcastTo_apply (shapeCast S1x512x512 v shapeCasts_S512x512_S1x512x512) broadcasts_S1x512x512_S2x512x512 (ix3 a p q)
    (ix3 (0 : Fin 1) p q) (fun d => match d with
    | ⟨0, _⟩ => by show 0 = if (1 : Nat) = 1 then 0 else a.val; rw [if_pos rfl]
    | ⟨1, _⟩ => by show p.val = if (512 : Nat) = 1 then 0 else p.val; rw [if_neg (by decide)]
    | ⟨2, _⟩ => by show q.val = if (512 : Nat) = 1 then 0 else q.val; rw [if_neg (by decide)])).trans
    (shapeCast_ab_1ab_apply v shapeCasts_S512x512_S1x512x512 (0 : Fin 1) p q)

/-- A parameter row [1, 512] broadcast over the 512 rows of the tile. -/
theorem paramRow_apply {α : Type} (v : S1x512.Idx → α) (p q : Fin 512) :
    broadcastTo S512x512 v broadcasts_S1x512_S512x512 (ix2 p q) = v (ix2 (0 : Fin 1) q) :=
  broadcastTo_1b_ab_apply v broadcasts_S1x512_S512x512 p q

/-- The sum over the leading axis of a [2, 512, 512] tile, from the zero word. -/
theorem sumCurrents_apply (src : FVec Ideal S2x512x512 .f32) (h : S2x512x512.Reduces [0] S512x512) (hφ : FKind.Formats .f32)
    (hacc : (0x00000000#32 : BitVec 32) = FKind.add.neutral .f32 hφ) (p q : Fin 512) :
    multiReduction .add [0] S512x512 src 0x00000000#32 h hφ hacc (ix2 p q) = ∑ k : Fin 2, src (ix3 k p q) := by
  refine (Ideal.multiReduction_add_single src 0x00000000#32 h hφ hacc (ix2 p q)).trans ?_
  exact Finset.sum_congr rfl fun k _ => congrArg src (funext fun d => Fin.ext (by
    match d with
    | ⟨0, _⟩ => rfl
    | ⟨1, _⟩ => rfl
    | ⟨2, _⟩ => rfl))

/-- The logistic function of a vector, read at an index. -/
theorem logistic_apply {s : Shape} (v : FVec Ideal s .f32) (i : s.Idx) : logistic v i = Ideal.logistic (v i) := rfl

/-! ## The tile's arithmetic -/

/-- The step's pair of products: the synaptic-current tile of the four operand tiles. -/
theorem tile_products (x w fd wl : Vec Ideal S512x512 .f32) :
    k0_pay1 (F := Ideal) x w fd wl = synOf x w fd wl := by
  funext i
  obtain ⟨p, q, rfl⟩ : ∃ (p q : Fin 512), i = ix2 p q := ⟨i 0, i 1, eq_ix2 i⟩
  rw [synOf_apply]
  unfold k0_pay1 synAt
  try dsimp only
  rw [addf_apply]
  exact congrArg₂ (fun a b : EReal => a + b)
    (Cert.LibRowReduceProducts.matmulNN dot_S512x512_S512x512_S512x512_1_0_0_1_n_n rfl rfl rfl rfl rfl rfl none
      (truncf .bf16 x bitsLt_bf16_f32) (truncf .bf16 w bitsLt_bf16_f32) p q)
    (Cert.LibRowReduceProducts.matmulNN dot_S512x512_S512x512_S512x512_1_0_0_1_n_n rfl rfl rfl rfl rfl rfl none
      (truncf .bf16 fd bitsLt_bf16_f32) (truncf .bf16 wl bitsLt_bf16_f32) p q)

/-- The stored after-spike currents. -/
theorem tile_currents (fir : Vec Ideal S512x512 .f32) (asc : Vec Ideal S2x512x512 .f32) (kj rj aj : Vec Ideal S2x1x512 .f32) :
    k0_pay6 (F := Ideal) (k0_pay4 fir asc rj aj) (k0_pay5 asc kj) = ascOf asc rj aj kj fir := by
  funext i
  obtain ⟨a, p, q, rfl⟩ : ∃ (a : Fin 2) (p q : Fin 512), i = ix3 a p q := ⟨i 0, i 1, i 2, eq_ix3 i⟩
  rw [ascOf_apply]
  unfold k0_pay6 k0_pay4 k0_pay5 ascAt ascStep
  try dsimp only
  simp only [addf_apply, mulf_apply, subf_apply, divf_apply, broadcast_apply, paramRows_apply, bothCurrents_apply]
  rfl

/-- The stored voltage, over the accumulated synaptic current and the stored currents. -/
theorem tile_voltage (syn fir vol : Vec Ideal S512x512 .f32) (km : Vec Ideal S1x512 .f32) (v45 v51 : FVec Ideal S2x512x512 .f32) :
    k0_pay7 (F := Ideal) syn fir vol km v45 v51 = voltOf syn (k0_pay6 (F := Ideal) v45 v51) km vol fir := by
  funext i
  obtain ⟨p, q, rfl⟩ : ∃ (p q : Fin 512), i = ix2 p q := ⟨i 0, i 1, eq_ix2 i⟩
  rw [voltOf_apply]
  unfold k0_pay7 voltAt voltStep
  try dsimp only
  simp only [addf_apply, mulf_apply, subf_apply, divf_apply, broadcast_apply, paramRow_apply]
  generalize hs : multiReduction .add [0] S512x512 (k0_pay6 (F := Ideal) v45 v51) 0x00000000#32 reduces_S2x512x512_S512x512 (.inl rfl) rfl (ix2 p q) = s
  have hs' : s = ∑ a : Fin 2, k0_pay6 (F := Ideal) v45 v51 (ix3 a p q) := hs.symm.trans (sumCurrents_apply _ _ _ _ p q)
  subst hs'
  rfl

/-- The stored firing rate, over the stored voltage. -/
theorem tile_firing (syn fir vol : Vec Ideal S512x512 .f32) (th km : Vec Ideal S1x512 .f32) (v45 v51 : FVec Ideal S2x512x512 .f32) :
    k0_pay8 (F := Ideal) syn fir vol th km v45 v51 = fireOf (k0_pay7 (F := Ideal) syn fir vol km v45 v51) th := by
  funext i
  obtain ⟨p, q, rfl⟩ : ∃ (p q : Fin 512), i = ix2 p q := ⟨i 0, i 1, eq_ix2 i⟩
  rw [fireOf_apply]
  unfold k0_pay8 fireAt fireStep
  try dsimp only
  simp only [logistic_apply, subf_apply, divf_apply, broadcast_apply, paramRow_apply]
  rfl

end Cert.TileLif

end
-- ==== Proof.IdealAccum.lean ====
/-
  The accumulator at a last reduction step. The four results of the layer's step as functions of the argument arrays;
  a grid point's pair of products as its reduction step's share of the synaptic currents of its output tile; and the
  accumulator after the fourth step as the four shares added first to last, which is the full contraction of length
  2048.
-/
import proofs.«162576_j36764920053992_2_alg».proof.Proof.IdealPieces
import proofs.«162576_j36764920053992_2_alg».proof.Proof.IdealTiles
import proofs.«162576_j36764920053992_2_alg».proof.Proof.TileIsLif
import proofs.«162576_j36764920053992_2_alg».proof.Proof.LifSteps
import Idealize.ShloMosaic.Lib.Pipeline.Value

set_option maxRecDepth 16384
-- the windows' index types and the pipeline's proof data unfold slowly at a symbolic grid point
set_option maxHeartbeats 4000000

noncomputable section

open scoped BigOperators

namespace Cert.KernelIdeal.Layer

open Cert.KernelIdeal Cert.KernelIdeal.Gen Cert.KernelIdeal.Steps Cert.KernelIdeal.Tiles Cert.Lif Cert.TileLif
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The four results as functions of the argument arrays -/

/-- The synaptic currents, the new after-spike currents, the new voltages and the new firing rates of core `c`'s arrays. -/
def synG (c : Dev nD) : S2048x2048.Idx → EReal := synOf (m ((c : Thread nD τ).loc main_arg0)) (m ((c : Thread nD τ).loc main_arg6)) (m ((c : Thread nD τ).loc main_arg5)) (m ((c : Thread nD τ).loc main_arg7))
def ascG (c : Dev nD) : S2x2048x2048.Idx → EReal := ascOf (m ((c : Thread nD τ).loc main_arg3)) (m ((c : Thread nD τ).loc main_arg11)) (m ((c : Thread nD τ).loc main_arg12)) (m ((c : Thread nD τ).loc main_arg10)) (m ((c : Thread nD τ).loc main_arg1))
def voltG (c : Dev nD) : S2048x2048.Idx → EReal := voltOf (synG m c) (ascG m c) (m ((c : Thread nD τ).loc main_arg9)) (m ((c : Thread nD τ).loc main_arg2)) (m ((c : Thread nD τ).loc main_arg1))
def fireG (c : Dev nD) : S2048x2048.Idx → EReal := fireOf (voltG m c) (m ((c : Thread nD τ).loc main_arg8))

/-! ## The accumulator at a last step -/

/-- The sum of two tiles, entry by entry. -/
abbrev plus (a b : Vec Ideal S512x512 .f32) : Vec Ideal S512x512 .f32 := addf (F := Ideal) (s := S512x512) (φ := FTy.f32) a b

/-- The pair of products of a point's four operand tiles. -/
def tileTerm (c : Dev nD) (t : Fin cfg0.N) : Vec Ideal S512x512 .f32 :=
  synOf (M := 512) (N := 512) (K := 512) (iblk m c 0 t) (iblk m c 1 t) (iblk m c 2 t) (iblk m c 3 t)

/-- It is the point's reduction step's share of the synaptic currents of the point's output tile. -/
theorem tileTerm_apply (c : Dev nD) (t : Fin cfg0.N) (p q : Fin 512) :
    tileTerm m c t (ix2 p q) = stepTerm (m ((c : Thread nD τ).loc main_arg0)) (m ((c : Thread nD τ).loc main_arg6)) (m ((c : Thread nD τ).loc main_arg5)) (m ((c : Thread nD τ).loc main_arg7)) (at4 (tb t) p) (at4 (th t) q) (tk t) := by
  unfold tileTerm
  rw [synOf_apply]
  unfold synAt stepTerm
  simp only [blk_input, blk_inputWeights, blk_delayed, blk_lateralWeights]

theorem pay2_eq (x w fd wl : Vec Ideal S512x512 .f32) : k0_pay2 (F := Ideal) x w fd wl = synOf x w fd wl := by
  unfold k0_pay2; dsimp only; rw [shapeCast_self, tile_products]
theorem pay3_eq (x w fd wl acc : Vec Ideal S512x512 .f32) : k0_pay3 (F := Ideal) x w fd wl acc = addf acc (synOf x w fd wl) := by
  unfold k0_pay3; dsimp only; rw [shapeCast_self, tile_products]

/-- After the last step the accumulator holds the synaptic currents of the point's output tile: the four steps'
    shares, added first to last, are the whole contraction. -/
theorem acc_at_last (c : Dev nD) (t : Fin cfg0.N) (h3 : t.val % 4 = 3) (p q : Fin 512) :
    k0_pay3 (F := Ideal) (iblk m c 0 t) (iblk m c 1 t) (iblk m c 2 t) (iblk m c 3 t) (accBefore m c t) (ix2 p q)
      = synG m c (ix2 (at4 (tb t) p) (at4 (th t) q)) := by
  obtain ⟨n, hn⟩ := t
  obtain ⟨s, rfl⟩ : ∃ s, n = s + 3 := ⟨n - 3, by dsimp only at h3; omega⟩
  have hs : s % 4 = 0 := by dsimp only at h3; omega
  have hN : s + 3 < 64 := lt_of_lt_of_eq hn (show cfg0.N = 64 from N_0)
  have l0 : s < cfg0.N := lt_of_lt_of_eq (by omega) (show 64 = cfg0.N from N_0.symm)
  have l1 : s + 1 < cfg0.N := lt_of_lt_of_eq (by omega) (show 64 = cfg0.N from N_0.symm)
  have l2 : s + 2 < cfg0.N := lt_of_lt_of_eq (by omega) (show 64 = cfg0.N from N_0.symm)
  have a0 : (stateAfter m c s l0).2.2.2.2 = tileTerm m c ⟨s, l0⟩ := by
    have e1 := congrArg (fun z => z.2.2.2.2) (stateAfter_first m c ⟨s, l0⟩ hs)
    have e2 := accOfFirst_eq m c ⟨s, l0⟩ hs
    have e3 := pay2_eq (iblk m c 0 ⟨s, l0⟩) (iblk m c 1 ⟨s, l0⟩) (iblk m c 2 ⟨s, l0⟩) (iblk m c 3 ⟨s, l0⟩)
    exact e1.trans (e2.trans e3)
  have h01 : ¬ (⟨s + 1, l1⟩ : Fin cfg0.N).val % 4 = 0 := by dsimp only; omega
  have h31 : ¬ (⟨s + 1, l1⟩ : Fin cfg0.N).val % 4 = 3 := by dsimp only; omega
  have h02 : ¬ (⟨s + 2, l2⟩ : Fin cfg0.N).val % 4 = 0 := by dsimp only; omega
  have h32 : ¬ (⟨s + 2, l2⟩ : Fin cfg0.N).val % 4 = 3 := by dsimp only; omega
  have b1 : accBefore m c ⟨s + 1, l1⟩ = (stateAfter m c s l0).2.2.2.2 := rfl
  have b2 : accBefore m c ⟨s + 2, l2⟩ = (stateAfter m c (s + 1) l1).2.2.2.2 := rfl
  have b3 : accBefore m c ⟨s + 3, hn⟩ = (stateAfter m c (s + 2) l2).2.2.2.2 := rfl
  have a1 : (stateAfter m c (s + 1) l1).2.2.2.2 = plus (tileTerm m c ⟨s, l0⟩) (tileTerm m c ⟨s + 1, l1⟩) := by
    have e1 := congrArg (fun z => z.2.2.2.2) (stateAfter_mid m c ⟨s + 1, l1⟩ h01 h31)
    have e2 := accOfMid_eq m c ⟨s + 1, l1⟩ h01 h31 (accBefore m c ⟨s + 1, l1⟩)
    have e3 := pay3_eq (iblk m c 0 ⟨s + 1, l1⟩) (iblk m c 1 ⟨s + 1, l1⟩) (iblk m c 2 ⟨s + 1, l1⟩) (iblk m c 3 ⟨s + 1, l1⟩) (accBefore m c ⟨s + 1, l1⟩)
    have e4 : plus (accBefore m c ⟨s + 1, l1⟩) (tileTerm m c ⟨s + 1, l1⟩) = plus (tileTerm m c ⟨s, l0⟩) (tileTerm m c ⟨s + 1, l1⟩) := by
      rw [b1, a0]
    exact e1.trans (e2.trans (e3.trans e4))
  have a2 : (stateAfter m c (s + 2) l2).2.2.2.2
      = plus (plus (tileTerm m c ⟨s, l0⟩) (tileTerm m c ⟨s + 1, l1⟩)) (tileTerm m c ⟨s + 2, l2⟩) := by
    have e1 := congrArg (fun z => z.2.2.2.2) (stateAfter_mid m c ⟨s + 2, l2⟩ h02 h32)
    have e2 := accOfMid_eq m c ⟨s + 2, l2⟩ h02 h32 (accBefore m c ⟨s + 2, l2⟩)
    have e3 := pay3_eq (iblk m c 0 ⟨s + 2, l2⟩) (iblk m c 1 ⟨s + 2, l2⟩) (iblk m c 2 ⟨s + 2, l2⟩) (iblk m c 3 ⟨s + 2, l2⟩) (accBefore m c ⟨s + 2, l2⟩)
    have e4 : plus (accBefore m c ⟨s + 2, l2⟩) (tileTerm m c ⟨s + 2, l2⟩)
        = plus (plus (tileTerm m c ⟨s, l0⟩) (tileTerm m c ⟨s + 1, l1⟩)) (tileTerm m c ⟨s + 2, l2⟩) := by
      rw [b2, a1]
    exact e1.trans (e2.trans (e3.trans e4))
  have a3 : k0_pay3 (F := Ideal) (iblk m c 0 ⟨s + 3, hn⟩) (iblk m c 1 ⟨s + 3, hn⟩) (iblk m c 2 ⟨s + 3, hn⟩) (iblk m c 3 ⟨s + 3, hn⟩) (accBefore m c ⟨s + 3, hn⟩)
      = plus (plus (plus (tileTerm m c ⟨s, l0⟩) (tileTerm m c ⟨s + 1, l1⟩)) (tileTerm m c ⟨s + 2, l2⟩)) (tileTerm m c ⟨s + 3, hn⟩) := by
    have e3 := pay3_eq (iblk m c 0 ⟨s + 3, hn⟩) (iblk m c 1 ⟨s + 3, hn⟩) (iblk m c 2 ⟨s + 3, hn⟩) (iblk m c 3 ⟨s + 3, hn⟩) (accBefore m c ⟨s + 3, hn⟩)
    have e4 : plus (accBefore m c ⟨s + 3, hn⟩) (tileTerm m c ⟨s + 3, hn⟩)
        = plus (plus (plus (tileTerm m c ⟨s, l0⟩) (tileTerm m c ⟨s + 1, l1⟩)) (tileTerm m c ⟨s + 2, l2⟩)) (tileTerm m c ⟨s + 3, hn⟩) := by
      rw [b3, a2]
    exact e3.trans e4
  refine (congrFun a3 (ix2 p q)).trans ?_
  show ((tileTerm m c ⟨s, l0⟩ (ix2 p q) + tileTerm m c ⟨s + 1, l1⟩ (ix2 p q)) + tileTerm m c ⟨s + 2, l2⟩ (ix2 p q))
      + tileTerm m c ⟨s + 3, hn⟩ (ix2 p q) = _
  have eb : ∀ (j : ℕ) (hj : s + j < cfg0.N), j < 4 → tb ⟨s + j, hj⟩ = tb ⟨s + 3, hn⟩ := fun j hj h4 =>
    Fin.ext (by show (s + j) / 16 = (s + 3) / 16; omega)
  have eh : ∀ (j : ℕ) (hj : s + j < cfg0.N), j < 4 → th ⟨s + j, hj⟩ = th ⟨s + 3, hn⟩ := fun j hj h4 =>
    Fin.ext (by show (s + j) / 4 % 4 = (s + 3) / 4 % 4; omega)
  have ek0 : tk ⟨s, l0⟩ = 0 := Fin.ext (by show s % 4 = 0; omega)
  have ek1 : tk ⟨s + 1, l1⟩ = 1 := Fin.ext (by show (s + 1) % 4 = 1; omega)
  have ek2 : tk ⟨s + 2, l2⟩ = 2 := Fin.ext (by show (s + 2) % 4 = 2; omega)
  have ek3 : tk ⟨s + 3, hn⟩ = 3 := Fin.ext (by show (s + 3) % 4 = 3; omega)
  rw [tileTerm_apply, tileTerm_apply, tileTerm_apply, tileTerm_apply, ek0, ek1, ek2, ek3,
    show tb ⟨s, l0⟩ = tb ⟨s + 3, hn⟩ from eb 0 l0 (by omega), show th ⟨s, l0⟩ = th ⟨s + 3, hn⟩ from eh 0 l0 (by omega),
    eb 1 l1 (by omega), eh 1 l1 (by omega), eb 2 l2 (by omega), eh 2 l2 (by omega)]
  unfold synG
  rw [synOf_apply]
  exact (synAt_steps _ _ _ _ _ _).symm

end Cert.KernelIdeal.Layer

end
-- ==== Proof.IdealValue.lean ====
/-
  What the kernel's four result arrays hold after the run, at the ideal values: the layer's step of the argument
  arrays. A result tile is written back only at a last reduction step; there the accumulator holds the four steps'
  shares of the synaptic current added in order, which is the full contraction of length 2048, and the stored tiles
  are the specification's functions of that sum and of the state and parameter tiles, each tile an array's entries at
  tile index times 512 plus the coordinate in the tile. The last-step points' tiles cover every result array, so each
  array ends at the specification's function of the argument arrays.
-/
import proofs.«162576_j36764920053992_2_alg».proof.Proof.IdealAccum
import Idealize.ShloMosaic.Lib.Pipeline.Value

set_option maxRecDepth 16384
-- the windows' index types and the pipeline's proof data unfold slowly at a symbolic grid point
set_option maxHeartbeats 4000000

noncomputable section

open scoped BigOperators

namespace Cert.KernelIdeal.Layer

open Cert.KernelIdeal Cert.KernelIdeal.Gen Cert.KernelIdeal.Steps Cert.KernelIdeal.Tiles Cert.Lif Cert.TileLif
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where the output tiles sit -/

/-- An index is its coordinates. -/
theorem ix2_coords {n0 n1 : ℕ} (y : (⟨2, ![n0, n1]⟩ : Shape).Idx) : ix2 (row2 y) (col2 y) = y :=
  funext fun a => by match a with | ⟨0, _⟩ => rfl | ⟨1, _⟩ => rfl
theorem ix3_coords {n0 n1 n2 : ℕ} (y : (⟨3, ![n0, n1, n2]⟩ : Shape).Idx) : ix3 (lead3 y) (row3 y) (col3 y) = y :=
  funext fun a => by match a with | ⟨0, _⟩ => rfl | ⟨1, _⟩ => rfl | ⟨2, _⟩ => rfl

/-- Where output window 12's tile sits in its array. -/
theorem emb_out12 (t : Fin cfg0.N) (y : S512x512.Idx) :
    ((cfg0.win 12).blk t).view.emb y = ix2 (at4 (tb t) (row2 y)) (at4 (th t) (col2 y)) := by
  funext a
  apply Fin.ext
  match a with
  | ⟨0, _⟩ => show win0_12.index t 0 * 512 + 1 * (y 0).val = t.val / 16 * 512 + (y 0).val; rw [(tileOf_12 t).1]; omega
  | ⟨1, _⟩ => show win0_12.index t 1 * 512 + 1 * (y 1).val = t.val / 4 % 4 * 512 + (y 1).val; rw [(tileOf_12 t).2]; omega
/-- Where output window 13's tile sits in its array. -/
theorem emb_out13 (t : Fin cfg0.N) (y : S512x512.Idx) :
    ((cfg0.win 13).blk t).view.emb y = ix2 (at4 (tb t) (row2 y)) (at4 (th t) (col2 y)) := by
  funext a
  apply Fin.ext
  match a with
  | ⟨0, _⟩ => show win0_13.index t 0 * 512 + 1 * (y 0).val = t.val / 16 * 512 + (y 0).val; rw [(tileOf_13 t).1]; omega
  | ⟨1, _⟩ => show win0_13.index t 1 * 512 + 1 * (y 1).val = t.val / 4 % 4 * 512 + (y 1).val; rw [(tileOf_13 t).2]; omega
/-- Where output window 14's tile sits in its array. -/
theorem emb_out14 (t : Fin cfg0.N) (y : S2x512x512.Idx) :
    ((cfg0.win 14).blk t).view.emb y = ix3 (lead3 y) (at4 (tb t) (row3 y)) (at4 (th t) (col3 y)) := by
  funext a
  apply Fin.ext
  match a with
  | ⟨0, _⟩ => show win0_14.index t 0 * 2 + 1 * (y 0).val = (y 0).val; rw [(tileOf_14 t).1]; omega
  | ⟨1, _⟩ => show win0_14.index t 1 * 512 + 1 * (y 1).val = t.val / 16 * 512 + (y 1).val; rw [(tileOf_14 t).2.1]; omega
  | ⟨2, _⟩ => show win0_14.index t 2 * 512 + 1 * (y 2).val = t.val / 4 % 4 * 512 + (y 2).val; rw [(tileOf_14 t).2.2]; omega
/-- Where output window 15's tile sits in its array. -/
theorem emb_out15 (t : Fin cfg0.N) (y : S512x512.Idx) :
    ((cfg0.win 15).blk t).view.emb y = ix2 (at4 (tb t) (row2 y)) (at4 (th t) (col2 y)) := by
  funext a
  apply Fin.ext
  match a with
  | ⟨0, _⟩ => show win0_15.index t 0 * 512 + 1 * (y 0).val = t.val / 16 * 512 + (y 0).val; rw [(tileOf_15 t).1]; omega
  | ⟨1, _⟩ => show win0_15.index t 1 * 512 + 1 * (y 1).val = t.val / 4 % 4 * 512 + (y 1).val; rw [(tileOf_15 t).2]; omega

/-! ## What a last-step point writes back -/

theorem after12_last (c : Dev nD) (t : Fin cfg0.N) (h3 : t.val % 4 = 3) : (dats m 0 c).after 12 t = firingOfLast m c t h3 (accBefore m c t) := by
  rw [after_out12, stateAfter_last m c t h3]
theorem after13_last (c : Dev nD) (t : Fin cfg0.N) (h3 : t.val % 4 = 3) : (dats m 0 c).after 13 t = voltageOfLast m c t h3 (accBefore m c t) := by
  rw [after_out13, stateAfter_last m c t h3]
theorem after14_last (c : Dev nD) (t : Fin cfg0.N) (h3 : t.val % 4 = 3) : (dats m 0 c).after 14 t = currentsOfLast m c t h3 (accBefore m c t) := by
  rw [after_out14, stateAfter_last m c t h3]
theorem after15_last (c : Dev nD) (t : Fin cfg0.N) (h3 : t.val % 4 = 3) : (dats m 0 c).after 15 t = synapticOfLast m c t h3 (accBefore m c t) := by
  rw [after_out15, stateAfter_last m c t h3]

/-- The synaptic-current tile is the tile of `synG`. -/
theorem flushed_synaptic (c : Dev nD) (t : Fin cfg0.N) (hf : (cfg0.win 15).flush t = true) :
    (dats m 0 c).flushed 15 t = ((cfg0.win 15).blk t).view.read (Elt Ideal) (synG m c) := by
  have h3 : t.val % 4 = 3 := (flush0_15 t).mp hf
  show (cfg0.win 15).cut (grid0.coords t) ((dats m 0 c).after 15 t) = _
  rw [after15_last m c t h3]
  refine (congrArg ((cfg0.win 15).cut (grid0.coords t)) (synapticOfLast_eq m c t h3 (accBefore m c t))).trans ?_
  refine funext fun (y : S512x512.Idx) => ?_
  have e := acc_at_last m c t h3 (row2 y) (col2 y)
  rw [ix2_coords] at e
  exact e.trans (congrArg (synG m c) (emb_out15 t y).symm)

/-- The tile of the new after-spike currents is the tile of `ascG`. -/
theorem currents_tile (c : Dev nD) (t : Fin cfg0.N) (j : Fin 2) (p q : Fin 512) :
    ascOf (M := 512) (N := 512) (iblk m c 6 t) (iblk m c 10 t) (iblk m c 11 t) (iblk m c 9 t) (iblk m c 4 t) (ix3 j p q)
      = ascG m c (ix3 j (at4 (tb t) p) (at4 (th t) q)) := by
  unfold ascG
  rw [ascOf_apply, ascOf_apply]
  unfold ascAt
  simp only [blk_currents, blk_jump, blk_amplitude, blk_decay, blk_firing]

theorem flushed_currents (c : Dev nD) (t : Fin cfg0.N) (hf : (cfg0.win 14).flush t = true) :
    (dats m 0 c).flushed 14 t = ((cfg0.win 14).blk t).view.read (Elt Ideal) (ascG m c) := by
  have h3 : t.val % 4 = 3 := (flush0_14 t).mp hf
  show (cfg0.win 14).cut (grid0.coords t) ((dats m 0 c).after 14 t) = _
  rw [after14_last m c t h3]
  refine (congrArg ((cfg0.win 14).cut (grid0.coords t)) ((currentsOfLast_eq m c t h3 (accBefore m c t)).trans (tile_currents (iblk m c 4 t) (iblk m c 6 t) (iblk m c 9 t) (iblk m c 10 t) (iblk m c 11 t)))).trans ?_
  refine funext fun (y : S2x512x512.Idx) => ?_
  have e := currents_tile m c t (lead3 y) (row3 y) (col3 y)
  rw [ix3_coords] at e
  exact e.trans (congrArg (ascG m c) (emb_out14 t y).symm)

/-- The tile of the new voltages is the tile of `voltG`. -/
theorem voltage_tile (c : Dev nD) (t : Fin cfg0.N) (h3 : t.val % 4 = 3) (p q : Fin 512) :
    voltOf (M := 512) (N := 512) (k0_pay3 (F := Ideal) (iblk m c 0 t) (iblk m c 1 t) (iblk m c 2 t) (iblk m c 3 t) (accBefore m c t))
        (ascOf (M := 512) (N := 512) (iblk m c 6 t) (iblk m c 10 t) (iblk m c 11 t) (iblk m c 9 t) (iblk m c 4 t)) (iblk m c 8 t) (iblk m c 5 t) (iblk m c 4 t) (ix2 p q)
      = voltG m c (ix2 (at4 (tb t) p) (at4 (th t) q)) := by
  have hacc := acc_at_last m c t h3
  have hcur := currents_tile m c t
  unfold voltG
  rw [voltOf_apply, voltOf_apply]
  unfold voltAt
  simp only [hacc, hcur, blk_membrane, blk_voltage, blk_firing]

theorem flushed_voltage (c : Dev nD) (t : Fin cfg0.N) (hf : (cfg0.win 13).flush t = true) :
    (dats m 0 c).flushed 13 t = ((cfg0.win 13).blk t).view.read (Elt Ideal) (voltG m c) := by
  have h3 : t.val % 4 = 3 := (flush0_13 t).mp hf
  show (cfg0.win 13).cut (grid0.coords t) ((dats m 0 c).after 13 t) = _
  rw [after13_last m c t h3]
  refine (congrArg ((cfg0.win 13).cut (grid0.coords t)) ((voltageOfLast_eq m c t h3 (accBefore m c t)).trans ((tile_voltage (k0_pay3 (F := Ideal) (iblk m c 0 t) (iblk m c 1 t) (iblk m c 2 t) (iblk m c 3 t) (accBefore m c t)) (iblk m c 4 t) (iblk m c 5 t) (iblk m c 8 t) (k0_pay4 (F := Ideal) (iblk m c 4 t) (iblk m c 6 t) (iblk m c 10 t) (iblk m c 11 t)) (k0_pay5 (F := Ideal) (iblk m c 6 t) (iblk m c 9 t))).trans
    (congrArg (fun z => voltOf (M := 512) (N := 512) (k0_pay3 (F := Ideal) (iblk m c 0 t) (iblk m c 1 t) (iblk m c 2 t) (iblk m c 3 t) (accBefore m c t)) z (iblk m c 8 t) (iblk m c 5 t) (iblk m c 4 t)) (tile_currents (iblk m c 4 t) (iblk m c 6 t) (iblk m c 9 t) (iblk m c 10 t) (iblk m c 11 t)))))).trans ?_
  refine funext fun (y : S512x512.Idx) => ?_
  have e := voltage_tile m c t h3 (row2 y) (col2 y)
  rw [ix2_coords] at e
  exact e.trans (congrArg (voltG m c) (emb_out13 t y).symm)

/-- The tile of the new firing rates is the tile of `fireG`. -/
theorem firing_tile (c : Dev nD) (t : Fin cfg0.N) (h3 : t.val % 4 = 3) (p q : Fin 512) :
    fireOf (M := 512) (N := 512) (voltOf (M := 512) (N := 512) (k0_pay3 (F := Ideal) (iblk m c 0 t) (iblk m c 1 t) (iblk m c 2 t) (iblk m c 3 t) (accBefore m c t))
        (ascOf (M := 512) (N := 512) (iblk m c 6 t) (iblk m c 10 t) (iblk m c 11 t) (iblk m c 9 t) (iblk m c 4 t)) (iblk m c 8 t) (iblk m c 5 t) (iblk m c 4 t)) (iblk m c 7 t) (ix2 p q)
      = fireG m c (ix2 (at4 (tb t) p) (at4 (th t) q)) := by
  have hv := voltage_tile m c t h3
  unfold fireG
  rw [fireOf_apply, fireOf_apply]
  unfold fireAt
  simp only [hv, blk_thresh]

theorem flushed_firing (c : Dev nD) (t : Fin cfg0.N) (hf : (cfg0.win 12).flush t = true) :
    (dats m 0 c).flushed 12 t = ((cfg0.win 12).blk t).view.read (Elt Ideal) (fireG m c) := by
  have h3 : t.val % 4 = 3 := (flush0_12 t).mp hf
  show (cfg0.win 12).cut (grid0.coords t) ((dats m 0 c).after 12 t) = _
  rw [after12_last m c t h3]
  refine (congrArg ((cfg0.win 12).cut (grid0.coords t)) ((firingOfLast_eq m c t h3 (accBefore m c t)).trans ((tile_firing (k0_pay3 (F := Ideal) (iblk m c 0 t) (iblk m c 1 t) (iblk m c 2 t) (iblk m c 3 t) (accBefore m c t)) (iblk m c 4 t) (iblk m c 5 t) (iblk m c 7 t) (iblk m c 8 t) (k0_pay4 (F := Ideal) (iblk m c 4 t) (iblk m c 6 t) (iblk m c 10 t) (iblk m c 11 t)) (k0_pay5 (F := Ideal) (iblk m c 6 t) (iblk m c 9 t))).trans
    (congrArg (fun z => fireOf (M := 512) (N := 512) z (iblk m c 7 t)) ((tile_voltage (k0_pay3 (F := Ideal) (iblk m c 0 t) (iblk m c 1 t) (iblk m c 2 t) (iblk m c 3 t) (accBefore m c t)) (iblk m c 4 t) (iblk m c 5 t) (iblk m c 8 t) (k0_pay4 (F := Ideal) (iblk m c 4 t) (iblk m c 6 t) (iblk m c 10 t) (iblk m c 11 t)) (k0_pay5 (F := Ideal) (iblk m c 6 t) (iblk m c 9 t))).trans
      (congrArg (fun z => voltOf (M := 512) (N := 512) (k0_pay3 (F := Ideal) (iblk m c 0 t) (iblk m c 1 t) (iblk m c 2 t) (iblk m c 3 t) (accBefore m c t)) z (iblk m c 8 t) (iblk m c 5 t) (iblk m c 4 t)) (tile_currents (iblk m c 4 t) (iblk m c 6 t) (iblk m c 9 t) (iblk m c 10 t) (iblk m c 11 t)))))))).trans ?_
  refine funext fun (y : S512x512.Idx) => ?_
  have e := firing_tile m c t h3 (row2 y) (col2 y)
  rw [ix2_coords] at e
  exact e.trans (congrArg (fireG m c) (emb_out12 t y).symm)

/-! ## The last-step tiles cover the result arrays -/

/-- Every entry of result 0 lies in the tile of a last-step point: the point of its batch tile and hidden tile. -/
theorem cover_out12 (i : S2048x2048.Idx) :
    ∃ t : Fin cfg0.N, (cfg0.win 12).flush t = true ∧ i ∈ ((cfg0.win 12).blk t).view.set := by
  have h0 : (i 0).val < 2048 := (i 0).isLt
  have h1 : (i 1).val < 2048 := (i 1).isLt
  let t : Fin cfg0.N := ⟨(i 0).val / 512 * 16 + (i 1).val / 512 * 4 + 3, lt_of_lt_of_eq (by omega) (show 64 = cfg0.N from N_0.symm)⟩
  refine ⟨t, (flush0_12 t).mpr (by show ((i 0).val / 512 * 16 + (i 1).val / 512 * 4 + 3) % 4 = 3; omega), ?_⟩
  show i ∈ ((View.whole main_v0_0).slice (win0_12.rect t)).set
  rw [View.set_slice_whole, Rect.mem_set_unit]
  intro a
  match a with
      | ⟨0, _⟩ => show win0_12.index t 0 * 512 ≤ (i 0).val ∧ (i 0).val < win0_12.index t 0 * 512 + 512; rw [(tileOf_12 t).1]; show ((i 0).val / 512 * 16 + (i 1).val / 512 * 4 + 3) / 16 * 512 ≤ _ ∧ _ < ((i 0).val / 512 * 16 + (i 1).val / 512 * 4 + 3) / 16 * 512 + 512; omega
      | ⟨1, _⟩ => show win0_12.index t 1 * 512 ≤ (i 1).val ∧ (i 1).val < win0_12.index t 1 * 512 + 512; rw [(tileOf_12 t).2]; show ((i 0).val / 512 * 16 + (i 1).val / 512 * 4 + 3) / 4 % 4 * 512 ≤ _ ∧ _ < ((i 0).val / 512 * 16 + (i 1).val / 512 * 4 + 3) / 4 % 4 * 512 + 512; omega

/-- Every entry of result 1 lies in the tile of a last-step point: the point of its batch tile and hidden tile. -/
theorem cover_out13 (i : S2048x2048.Idx) :
    ∃ t : Fin cfg0.N, (cfg0.win 13).flush t = true ∧ i ∈ ((cfg0.win 13).blk t).view.set := by
  have h0 : (i 0).val < 2048 := (i 0).isLt
  have h1 : (i 1).val < 2048 := (i 1).isLt
  let t : Fin cfg0.N := ⟨(i 0).val / 512 * 16 + (i 1).val / 512 * 4 + 3, lt_of_lt_of_eq (by omega) (show 64 = cfg0.N from N_0.symm)⟩
  refine ⟨t, (flush0_13 t).mpr (by show ((i 0).val / 512 * 16 + (i 1).val / 512 * 4 + 3) % 4 = 3; omega), ?_⟩
  show i ∈ ((View.whole main_v0_1).slice (win0_13.rect t)).set
  rw [View.set_slice_whole, Rect.mem_set_unit]
  intro a
  match a with
      | ⟨0, _⟩ => show win0_13.index t 0 * 512 ≤ (i 0).val ∧ (i 0).val < win0_13.index t 0 * 512 + 512; rw [(tileOf_13 t).1]; show ((i 0).val / 512 * 16 + (i 1).val / 512 * 4 + 3) / 16 * 512 ≤ _ ∧ _ < ((i 0).val / 512 * 16 + (i 1).val / 512 * 4 + 3) / 16 * 512 + 512; omega
      | ⟨1, _⟩ => show win0_13.index t 1 * 512 ≤ (i 1).val ∧ (i 1).val < win0_13.index t 1 * 512 + 512; rw [(tileOf_13 t).2]; show ((i 0).val / 512 * 16 + (i 1).val / 512 * 4 + 3) / 4 % 4 * 512 ≤ _ ∧ _ < ((i 0).val / 512 * 16 + (i 1).val / 512 * 4 + 3) / 4 % 4 * 512 + 512; omega

/-- Every entry of result 2 lies in the tile of a last-step point: the point of its batch tile and hidden tile. -/
theorem cover_out14 (i : S2x2048x2048.Idx) :
    ∃ t : Fin cfg0.N, (cfg0.win 14).flush t = true ∧ i ∈ ((cfg0.win 14).blk t).view.set := by
  have h0 : (i 1).val < 2048 := (i 1).isLt
  have h1 : (i 2).val < 2048 := (i 2).isLt
  let t : Fin cfg0.N := ⟨(i 1).val / 512 * 16 + (i 2).val / 512 * 4 + 3, lt_of_lt_of_eq (by omega) (show 64 = cfg0.N from N_0.symm)⟩
  refine ⟨t, (flush0_14 t).mpr (by show ((i 1).val / 512 * 16 + (i 2).val / 512 * 4 + 3) % 4 = 3; omega), ?_⟩
  show i ∈ ((View.whole main_v0_2).slice (win0_14.rect t)).set
  rw [View.set_slice_whole, Rect.mem_set_unit]
  intro a
  match a with
      | ⟨0, _⟩ => show win0_14.index t 0 * 2 ≤ (i 0).val ∧ (i 0).val < win0_14.index t 0 * 2 + 2; rw [(tileOf_14 t).1]; have h00 : (i 0).val < 2 := (i 0).isLt; omega
      | ⟨1, _⟩ => show win0_14.index t 1 * 512 ≤ (i 1).val ∧ (i 1).val < win0_14.index t 1 * 512 + 512; rw [(tileOf_14 t).2.1]; show ((i 1).val / 512 * 16 + (i 2).val / 512 * 4 + 3) / 16 * 512 ≤ _ ∧ _ < ((i 1).val / 512 * 16 + (i 2).val / 512 * 4 + 3) / 16 * 512 + 512; omega
      | ⟨2, _⟩ => show win0_14.index t 2 * 512 ≤ (i 2).val ∧ (i 2).val < win0_14.index t 2 * 512 + 512; rw [(tileOf_14 t).2.2]; show ((i 1).val / 512 * 16 + (i 2).val / 512 * 4 + 3) / 4 % 4 * 512 ≤ _ ∧ _ < ((i 1).val / 512 * 16 + (i 2).val / 512 * 4 + 3) / 4 % 4 * 512 + 512; omega

/-- Every entry of result 3 lies in the tile of a last-step point: the point of its batch tile and hidden tile. -/
theorem cover_out15 (i : S2048x2048.Idx) :
    ∃ t : Fin cfg0.N, (cfg0.win 15).flush t = true ∧ i ∈ ((cfg0.win 15).blk t).view.set := by
  have h0 : (i 0).val < 2048 := (i 0).isLt
  have h1 : (i 1).val < 2048 := (i 1).isLt
  let t : Fin cfg0.N := ⟨(i 0).val / 512 * 16 + (i 1).val / 512 * 4 + 3, lt_of_lt_of_eq (by omega) (show 64 = cfg0.N from N_0.symm)⟩
  refine ⟨t, (flush0_15 t).mpr (by show ((i 0).val / 512 * 16 + (i 1).val / 512 * 4 + 3) % 4 = 3; omega), ?_⟩
  show i ∈ ((View.whole main_v0_3).slice (win0_15.rect t)).set
  rw [View.set_slice_whole, Rect.mem_set_unit]
  intro a
  match a with
      | ⟨0, _⟩ => show win0_15.index t 0 * 512 ≤ (i 0).val ∧ (i 0).val < win0_15.index t 0 * 512 + 512; rw [(tileOf_15 t).1]; show ((i 0).val / 512 * 16 + (i 1).val / 512 * 4 + 3) / 16 * 512 ≤ _ ∧ _ < ((i 0).val / 512 * 16 + (i 1).val / 512 * 4 + 3) / 16 * 512 + 512; omega
      | ⟨1, _⟩ => show win0_15.index t 1 * 512 ≤ (i 1).val ∧ (i 1).val < win0_15.index t 1 * 512 + 512; rw [(tileOf_15 t).2]; show ((i 0).val / 512 * 16 + (i 1).val / 512 * 4 + 3) / 4 % 4 * 512 ≤ _ ∧ _ < ((i 0).val / 512 * 16 + (i 1).val / 512 * 4 + 3) / 4 % 4 * 512 + 512; omega

/-! ## The run, read -/

/-- Every weakly fair execution of the kernel's program terminates with its four results at the layer's step of the
    argument arrays and the argument arrays unchanged. -/
theorem run : θ_run defs (onTc (τ := τ) (main (F := Ideal))) ⟨m, fun _ => 0, ρ⟩ fun r => ∀ c : Dev nD,
      r.2.mem ((c : Thread nD τ).loc main_v0_0) = fireG m c
      ∧ r.2.mem ((c : Thread nD τ).loc main_v0_1) = voltG m c
      ∧ r.2.mem ((c : Thread nD τ).loc main_v0_2) = ascG m c
      ∧ r.2.mem ((c : Thread nD τ).loc main_v0_3) = synG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c =>
    ⟨((h c).1 12).trans ((dats m 0 c).arrAt_eq_of_cover 12 (fireG m c) (flushed_firing m c) cover_out12),
     ((h c).1 13).trans ((dats m 0 c).arrAt_eq_of_cover 13 (voltG m c) (flushed_voltage m c) cover_out13),
     ((h c).1 14).trans ((dats m 0 c).arrAt_eq_of_cover 14 (ascG m c) (flushed_currents m c) cover_out14),
     ((h c).1 15).trans ((dats m 0 c).arrAt_eq_of_cover 15 (synG m c) (flushed_synaptic m c) cover_out15),
     ((h c).1 0).trans (((dats m 0 c).arrAt_in 0 rfl _).trans ((A_eq m c 0).trans (V_main_arg0 m c))),
     ((h c).1 4).trans (((dats m 0 c).arrAt_in 4 rfl _).trans ((A_eq m c 4).trans (V_main_arg1 m c))),
     ((h c).1 5).trans (((dats m 0 c).arrAt_in 5 rfl _).trans ((A_eq m c 5).trans (V_main_arg2 m c))),
     ((h c).1 6).trans (((dats m 0 c).arrAt_in 6 rfl _).trans ((A_eq m c 6).trans (V_main_arg3 m c))),
     ((h c).2 main_arg4 (Pipeline.mem_restRefs_of main_arg4 (by decide) (by decide))).trans (V_main_arg4 m c),
     ((h c).1 2).trans (((dats m 0 c).arrAt_in 2 rfl _).trans ((A_eq m c 2).trans (V_main_arg5 m c))),
     ((h c).1 1).trans (((dats m 0 c).arrAt_in 1 rfl _).trans ((A_eq m c 1).trans (V_main_arg6 m c))),
     ((h c).1 3).trans (((dats m 0 c).arrAt_in 3 rfl _).trans ((A_eq m c 3).trans (V_main_arg7 m c))),
     ((h c).1 7).trans (((dats m 0 c).arrAt_in 7 rfl _).trans ((A_eq m c 7).trans (V_main_arg8 m c))),
     ((h c).1 8).trans (((dats m 0 c).arrAt_in 8 rfl _).trans ((A_eq m c 8).trans (V_main_arg9 m c))),
     ((h c).1 9).trans (((dats m 0 c).arrAt_in 9 rfl _).trans ((A_eq m c 9).trans (V_main_arg10 m c))),
     ((h c).1 10).trans (((dats m 0 c).arrAt_in 10 rfl _).trans ((A_eq m c 10).trans (V_main_arg11 m c))),
     ((h c).1 11).trans (((dats m 0 c).arrAt_in 11 rfl _).trans ((A_eq m c 11).trans (V_main_arg12 m c)))⟩)
    (run_main m ρ)

end Cert.KernelIdeal.Layer

end
-- ==== Proof.LibLogisticGate.lean ====
/-
  The logistic gate on the extended reals.

  At the exact instance a float is an extended real and the logistic function is
  `logistic s = 1 / (1 + e^(-s))`, with `logistic ⊥ = 0` and `logistic ⊤ = 1`. Whatever `s` is — a
  real number or an infinity — its value lies in the interval `[0, 1]`: it is nonnegative and it is
  never `⊤`. Multiplication by such a factor distributes over EVERY sum of extended reals, the sums
  that meet an infinity included: `σ * (a + b) = σ * a + σ * b`. So a cell that gates a sum,
  `σ * (c + t)`, and a cell that gates the two summands with the same gate and then adds,
  `σ * c + σ * t`, hold the same extended real, with no finiteness assumed of `c`, `t` or `s`.

  The module also reads the expansion `1 / (1 + exp (-s))` written with the f32 word of the number
  one (`0x3F800000`) as that same logistic function, vector by vector: a program that spells the
  gate by negate, exponential, add and divide computes `logistic` at every index.

  Nothing here mentions a particular program: the shapes and the arrays are arbitrary.
-/
import Mathlib.Data.EReal.Operations
import Idealize.ShloMosaic.PureOps.Ideal
import Idealize.ShloMosaic.Lib.IdealHost

noncomputable section

namespace LogisticGate

open Idealize.ShloMosaic

/-- The logistic of an extended real is nonnegative: `0` at `⊥`, `1` at `⊤`, and the inverse of the
    positive real `1 + e^(-r)` at a real `r`. -/
theorem logistic_nonneg (s : EReal) : 0 ≤ Ideal.logistic s := by
  induction s using EReal.rec with
  | bot => rw [Ideal.logistic_bot]
  | coe r =>
    rw [Ideal.logistic_coe]
    have h : (0 : ℝ) ≤ (1 + Real.exp (-r))⁻¹ := (inv_pos.2 (by positivity)).le
    exact_mod_cast h
  | top => rw [Ideal.logistic_top]; exact zero_le_one

/-- The logistic of an extended real is never `⊤`: its values are `0`, `1` and real numbers. -/
theorem logistic_ne_top (s : EReal) : Ideal.logistic s ≠ ⊤ := by
  induction s using EReal.rec with
  | bot => rw [Ideal.logistic_bot]; exact EReal.zero_ne_top
  | coe r => rw [Ideal.logistic_coe]; exact EReal.coe_ne_top _
  | top => rw [Ideal.logistic_top, ← EReal.coe_one]; exact EReal.coe_ne_top _

/-- A logistic gate distributes over a sum of extended reals, infinities included: the factor is
    nonnegative and not `⊤`, which is all that distributivity on the extended reals asks of it. -/
theorem logistic_mul_add (s a b : EReal) :
    Ideal.logistic s * (a + b) = Ideal.logistic s * a + Ideal.logistic s * b :=
  EReal.left_distrib_of_nonneg_of_ne_top (logistic_nonneg s) (logistic_ne_top s) a b

/-- The expansion `1 / (1 + exp (-s))`, both ones the f32 word `0x3F800000`, is the logistic of `s`:
    the word is the number one, and the quotient is the definition of the logistic function. -/
theorem one_div_one_add_exp_neg (s : EReal) :
    Ideal.div (Ideal.ofBits .f32 0x3F800000#32) (Ideal.ofBits .f32 0x3F800000#32 + Ideal.exp (-s))
      = Ideal.logistic s := by
  rw [Ideal.ofBits_one_f32]; rfl

end LogisticGate

end
-- ==== Proof.RefIsLif.lean ====
/-
  The reference program computes the layer's step: each of its four results, read at an index through the
  operation-by-operation reading of its run, is the corresponding function of the specification. The reference spells
  the logistic function as 1 / (1 + exp (-s)); on the extended reals that quotient is the logistic function. Its
  sum of the two after-spike currents starts from the word of zero, which adds nothing.
-/
import proofs.«162576_j36764920053992_2_alg».proof.Proof.Gen.ReferenceIdeal.Read
import proofs.«162576_j36764920053992_2_alg».proof.Proof.LifSpec
import proofs.«162576_j36764920053992_2_alg».proof.Proof.LibLogisticGate

noncomputable section

open scoped BigOperators

namespace Cert.RefLif

open Cert.ReferenceIdeal Cert.ReferenceIdeal.Gen Cert.ReferenceIdeal.Read Cert.Lif
open Idealize.ShloMosaic Idealize.ShloMosaic.ValueIdx

/-- The synaptic current: the two host products read as sums over the contracted axis. -/
theorem ref_syn (x0 x5 x6 x7 : (⟨S2048x2048, .f32⟩ : BufTy).Contents (Elt Ideal)) :
    val_main_v2 (F := Ideal) x0 x5 x6 x7 = synOf x0 x6 x5 x7 := by
  funext i
  obtain ⟨r, c, rfl⟩ : ∃ (r c : Fin 2048), i = ix2 r c := ⟨i 0, i 1, eq_ix2 i⟩
  have hl0 : ∀ k, lidx_main_v0 (ix2 r c) k = ix2 r k := fun k => funext fun a => Fin.ext (by match a with | ⟨0, _⟩ => rfl | ⟨1, _⟩ => rfl)
  have hr0 : ∀ k, ridx_main_v0 (ix2 r c) k = ix2 k c := fun k => funext fun a => Fin.ext (by match a with | ⟨0, _⟩ => rfl | ⟨1, _⟩ => rfl)
  have hl1 : ∀ k, lidx_main_v1 (ix2 r c) k = ix2 r k := fun k => funext fun a => Fin.ext (by match a with | ⟨0, _⟩ => rfl | ⟨1, _⟩ => rfl)
  have hr1 : ∀ k, ridx_main_v1 (ix2 r c) k = ix2 k c := fun k => funext fun a => Fin.ext (by match a with | ⟨0, _⟩ => rfl | ⟨1, _⟩ => rfl)
  rw [synOf_apply, val_main_v2_apply, val_main_v0_apply, val_main_v1_apply]
  simp only [hl0, hr0, hl1, hr1]
  rfl

/-- The new after-spike currents. -/
theorem ref_asc (x1 : (⟨S2048x2048, .f32⟩ : BufTy).Contents (Elt Ideal)) (x3 : (⟨S2x2048x2048, .f32⟩ : BufTy).Contents (Elt Ideal))
    (x10 x11 x12 : (⟨S2x1x2048, .f32⟩ : BufTy).Contents (Elt Ideal)) :
    val_main_v36 (F := Ideal) x1 x3 x10 x11 x12 = ascOf x3 x11 x12 x10 x1 := by
  funext i
  obtain ⟨a, r, c, rfl⟩ : ∃ (a : Fin 2) (r c : Fin 2048), i = ix3 a r c := ⟨i 0, i 1, i 2, eq_ix3 i⟩
  have e21 : idx_main_v21 (ix3 a r c) = ix3 a (0 : Fin 1) c := funext fun a => Fin.ext (by match a with | ⟨0, _⟩ => rfl | ⟨1, _⟩ => rfl | ⟨2, _⟩ => rfl)
  have e23 : idx_main_v23 (ix3 a r c) = ix3 a (0 : Fin 1) c := funext fun a => Fin.ext (by match a with | ⟨0, _⟩ => rfl | ⟨1, _⟩ => rfl | ⟨2, _⟩ => rfl)
  have e34 : idx_main_v34 (ix3 a r c) = ix3 a (0 : Fin 1) c := funext fun a => Fin.ext (by match a with | ⟨0, _⟩ => rfl | ⟨1, _⟩ => rfl | ⟨2, _⟩ => rfl)
  have e25 : idx_main_v25 (idx_main_v26 (ix3 a r c)) = ix2 r c := funext fun a => Fin.ext (by match a with | ⟨0, _⟩ => rfl | ⟨1, _⟩ => rfl)
  rw [ascOf_apply]
  unfold ascAt ascStep
  simp only [val_main_v36_apply, val_main_v29_apply, val_main_v27_apply, val_main_v24_apply, val_main_v22_apply, val_main_v21_apply, val_main_v23_apply, val_main_v26_apply, val_main_v25_apply, val_main_v28_apply, val_main_cst_6_apply, val_main_v35_apply, val_main_v34_apply, e21, e23, e34, e25]
  simp only [val_main_v12_apply, val_main_v11_apply, val_main_cst_2_apply, val_main_v10_apply, val_main_v9_apply, val_main_cst_1_apply, val_main_v8_apply, val_main_v7_apply, val_main_cst_0_apply, val_main_v6_apply, val_main_v5_apply, val_main_cst_apply, val_main_v4_apply, val_main_v3_apply, val_main_v33_apply, val_main_v32_apply, val_main_cst_8_apply, val_main_v31_apply, val_main_v30_apply, val_main_cst_7_apply, val_main_v20_apply, val_main_v18_apply, val_main_v17_apply, val_main_cst_4_apply, val_main_v16_apply, val_main_v15_apply, val_main_cst_3_apply, val_main_v14_apply, val_main_v13_apply, val_main_v19_apply, val_main_cst_5_apply,
    Ideal.addf_def, Ideal.subf_def, Ideal.mulf_def, Ideal.divf_def, Ideal.hostDivf_def, Ideal.ofBits_def, Ideal.hostUnary_exp_def, Ideal.hostNegf_def, Ideal.negf_def, LogisticGate.one_div_one_add_exp_neg]

/-- The new voltages, over the reference's own synaptic currents and new after-spike currents. -/
theorem ref_volt (x0 x1 x2 : (⟨S2048x2048, .f32⟩ : BufTy).Contents (Elt Ideal)) (x3 : (⟨S2x2048x2048, .f32⟩ : BufTy).Contents (Elt Ideal)) (x5 x6 x7 : (⟨S2048x2048, .f32⟩ : BufTy).Contents (Elt Ideal)) (x9 : (⟨S1x2048, .f32⟩ : BufTy).Contents (Elt Ideal)) (x10 x11 x12 : (⟨S2x1x2048, .f32⟩ : BufTy).Contents (Elt Ideal)) :
    val_main_v67 (F := Ideal) x0 x1 x2 x3 x5 x6 x7 x9 x10 x11 x12
      = voltOf (val_main_v2 (F := Ideal) x0 x5 x6 x7) (val_main_v36 (F := Ideal) x1 x3 x10 x11 x12) x9 x2 x1 := by
  funext i
  obtain ⟨r, c, rfl⟩ : ∃ (r c : Fin 2048), i = ix2 r c := ⟨i 0, i 1, eq_ix2 i⟩
  have e49 : ∀ k, idx_main_v49 (ix2 r c) k = ix3 k r c := fun k => funext fun a => Fin.ext (by match a with | ⟨0, _⟩ => rfl | ⟨1, _⟩ => rfl | ⟨2, _⟩ => rfl)
  have e52 : idx_main_v52 (ix2 r c) = ix2 (0 : Fin 1) c := funext fun a => Fin.ext (by match a with | ⟨0, _⟩ => rfl | ⟨1, _⟩ => rfl)
  have e59 : idx_main_v59 (ix2 r c) = ix2 (0 : Fin 1) c := funext fun a => Fin.ext (by match a with | ⟨0, _⟩ => rfl | ⟨1, _⟩ => rfl)
  rw [voltOf_apply]
  unfold voltAt voltStep
  simp only [val_main_v67_apply, val_main_v61_apply, val_main_v54_apply, val_main_v53_apply, val_main_v52_apply, val_main_v51_apply, val_main_v49_apply, val_main_cst_14_apply, val_main_v50_apply, val_main_cst_15_apply, val_main_v60_apply, val_main_v59_apply, val_main_v66_apply, val_main_v63_apply, val_main_v62_apply, val_main_cst_18_apply, val_main_v65_apply, val_main_v64_apply, val_main_cst_19_apply, e49, e52, e59]
  simp only [val_main_v48_apply, val_main_v46_apply, val_main_v45_apply, val_main_cst_12_apply, val_main_v44_apply, val_main_v42_apply, val_main_v41_apply, val_main_cst_10_apply, val_main_v40_apply, val_main_v39_apply, val_main_cst_9_apply, val_main_v38_apply, val_main_v37_apply, val_main_v43_apply, val_main_cst_11_apply, val_main_v47_apply, val_main_cst_13_apply, val_main_v58_apply, val_main_v57_apply, val_main_cst_17_apply, val_main_v56_apply, val_main_v55_apply, val_main_cst_16_apply,
    Ideal.addf_def, Ideal.subf_def, Ideal.mulf_def, Ideal.divf_def, Ideal.hostDivf_def, Ideal.ofBits_def, Ideal.hostUnary_exp_def, Ideal.hostNegf_def, Ideal.negf_def, LogisticGate.one_div_one_add_exp_neg, Ideal.ofBits_zero_f32, zero_add]

/-- The new firing rates, over the reference's own new voltages. -/
theorem ref_fire (x0 x1 x2 : (⟨S2048x2048, .f32⟩ : BufTy).Contents (Elt Ideal)) (x3 : (⟨S2x2048x2048, .f32⟩ : BufTy).Contents (Elt Ideal)) (x5 x6 x7 : (⟨S2048x2048, .f32⟩ : BufTy).Contents (Elt Ideal)) (x8 x9 : (⟨S1x2048, .f32⟩ : BufTy).Contents (Elt Ideal)) (x10 x11 x12 : (⟨S2x1x2048, .f32⟩ : BufTy).Contents (Elt Ideal)) :
    val_main_v77 (F := Ideal) x0 x1 x2 x3 x5 x6 x7 x8 x9 x10 x11 x12
      = fireOf (val_main_v67 (F := Ideal) x0 x1 x2 x3 x5 x6 x7 x9 x10 x11 x12) x8 := by
  funext i
  obtain ⟨r, c, rfl⟩ : ∃ (r c : Fin 2048), i = ix2 r c := ⟨i 0, i 1, eq_ix2 i⟩
  have e68 : idx_main_v68 (ix2 r c) = ix2 (0 : Fin 1) c := funext fun a => Fin.ext (by match a with | ⟨0, _⟩ => rfl | ⟨1, _⟩ => rfl)
  rw [fireOf_apply]
  unfold fireAt fireStep
  simp only [val_main_v77_apply, val_main_v76_apply, val_main_cst_22_apply, val_main_v75_apply, val_main_v74_apply, val_main_cst_21_apply, val_main_v73_apply, val_main_v72_apply, val_main_v71_apply, val_main_v70_apply, val_main_cst_20_apply, val_main_v69_apply, val_main_v68_apply,
    e68, Ideal.addf_def, Ideal.subf_def, Ideal.mulf_def, Ideal.divf_def, Ideal.hostDivf_def, Ideal.ofBits_def, Ideal.hostUnary_exp_def, Ideal.hostNegf_def, Ideal.negf_def, LogisticGate.one_div_one_add_exp_neg]

end Cert.RefLif

end
-- ==== Proof.lean ====
/-
  The certificate of one step of a layer of leaky integrate-and-fire neurons with after-spike currents: a kernel
  that accumulates the two matrix products of the synaptic current over four reduction steps of a 4 x 4 x 4 grid in a
  scratch accumulator and, at the last step, updates the after-spike currents, the voltage and the firing rate of
  its 512 x 512 tile, against a reference that computes the same step on the whole arrays.

  The three frames: each program runs to the end without a fault and leaves its thirteen argument arrays unchanged.
  For the two kernel programs (the same text read at the word level and at the ideal values) this is the pipeline's
  launch theorem over the body's run at each grid point, the accumulator tracked from point to point; for the
  reference it is its run with the results dropped. The idealization rewrote nothing, so it preserves the kernel
  trivially. At the ideal values the two programs' four results are equal, element by element: the kernel's results are
  the specification's functions of the argument arrays — the four steps' partial products add up to the full
  contraction, a change of float format is the identity, the tiles cover the arrays — and so are the reference's,
  whose 1 / (1 + exp (-s)) is the logistic function. No finiteness is used: only the commutative-monoid laws of
  addition on the extended reals join the two sides.
-/
import proofs.«162576_j36764920053992_2_alg».proof.Defs
import proofs.«162576_j36764920053992_2_alg».proof.Proof.Gen.Kernel
import proofs.«162576_j36764920053992_2_alg».proof.Proof.Gen.KernelIdeal
import proofs.«162576_j36764920053992_2_alg».proof.Proof.Gen.ReferenceIdeal
import proofs.«162576_j36764920053992_2_alg».proof.Proof.Gen.ReferenceIdeal.Run
import proofs.«162576_j36764920053992_2_alg».proof.Proof.Gen.ReferenceIdeal.Read
import proofs.«162576_j36764920053992_2_alg».proof.Proof.Gen.Pre_finite_inputs
import proofs.«162576_j36764920053992_2_alg».proof.Proof.BitsFrame
import proofs.«162576_j36764920053992_2_alg».proof.Proof.IdealValue
import proofs.«162576_j36764920053992_2_alg».proof.Proof.RefIsLif
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ =>
  Cert.Kernel.Gen.frame_of m ρ (Cert.Kernel.Steps.dats m) (Cert.Kernel.Steps.A_eq m) (Cert.Kernel.Steps.run_main (F := Bits) m ρ)

/-- The idealized kernel runs and keeps its arguments. -/
theorem frame_kernelIdeal : Cert.frame_KernelIdeal := fun m ρ _ =>
  Cert.KernelIdeal.Gen.frame_of m ρ (Cert.KernelIdeal.Steps.dats m) (Cert.KernelIdeal.Steps.A_eq m) (Cert.KernelIdeal.Steps.run_main (F := Ideal) m ρ)

/-- The reference runs and keeps its arguments: its run with the four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The ideal pass rewrote no operation. -/
theorem preserves : Cert.preserves_Kernel_KernelIdeal := trivial

/-- At the ideal values, from memories agreeing on the arguments, both programs end with the layer's step of the
    arguments in their four results. -/
theorem algebraic : Cert.algebraic_KernelIdeal_ReferenceIdeal := by
  intro m ρ m' ρ' _ hagree
  refine ⟨fun c => Cert.KernelIdeal.Layer.fireG m c, fun c => Cert.KernelIdeal.Layer.voltG m c,
    fun c => Cert.KernelIdeal.Layer.ascG m c, fun c => Cert.KernelIdeal.Layer.synG m c, ?_, ?_⟩
  · exact Cert.KernelIdeal.Layer.run m ρ
  · refine (θ_run Cert.ReferenceIdeal.defs _ _).mono (fun r h c => ?_) (Cert.ReferenceIdeal.Value.run (F := Ideal) m' ρ')
    obtain ⟨a0, a1, a2, a3, a4, a5, a6, a7, a8, a9, a10, a11, a12⟩ := hagree c
    refine ⟨(h c).1.trans ?_, (h c).2.1.trans ?_, (h c).2.2.1.trans ?_, (h c).2.2.2.1.trans ?_, (h c).2.2.2.2⟩
    · rw [Cert.ReferenceIdeal.Read.val_main_v77_eq, Cert.RefLif.ref_fire, Cert.RefLif.ref_volt, Cert.RefLif.ref_syn, Cert.RefLif.ref_asc,
        a0, a1, a2, a3, a5, a6, a7, a8, a9, a10, a11, a12]
      rfl
    · rw [Cert.ReferenceIdeal.Read.val_main_v67_eq, Cert.RefLif.ref_volt, Cert.RefLif.ref_syn, Cert.RefLif.ref_asc,
        a0, a1, a2, a3, a5, a6, a7, a9, a10, a11, a12]
      rfl
    · rw [Cert.ReferenceIdeal.Read.val_main_v36_eq, Cert.RefLif.ref_asc, a1, a3, a10, a11, a12]
      rfl
    · rw [Cert.ReferenceIdeal.Read.val_main_v2_eq, Cert.RefLif.ref_syn, a0, a5, a6, a7]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
